-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S200000x3x128 : S_.BroadcastsInDim S200000x3x128 (![] : Fin 0 → Fin S200000x3x128.rank)
  reducesTo_S200000x3x128_S_d0_1_2 : S200000x3x128.ReducesTo [0, 1, 2] S_
  bcast_S_S128x128 : S_.BroadcastsInDim S128x128 (![] : Fin 0 → Fin S128x128.rank)
  reducesTo_S128x128_S_d0_1 : S128x128.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x2 : S_.BroadcastsInDim S64x2 (![] : Fin 0 → Fin S64x2.rank)
  reducesTo_S64x2_S_d0_1 : S64x2.ReducesTo [0, 1] S_
  bcast_S_S65x1 : S_.BroadcastsInDim S65x1 (![] : Fin 0 → Fin S65x1.rank)
  reducesTo_S65x1_S_d0_1 : S65x1.ReducesTo [0, 1] S_
  bcast_S_S1 : S_.BroadcastsInDim S1 (![] : Fin 0 → Fin S1.rank)
  reducesTo_S1_S_d0 : S1.ReducesTo [0] S_
  bcast_S_S1x2 : S_.BroadcastsInDim S1x2 (![] : Fin 0 → Fin S1x2.rank)
  reducesTo_S1x2_S_d0_1 : S1x2.ReducesTo [0, 1] S_
  bcast_S_S2 : S_.BroadcastsInDim S2 (![] : Fin 0 → Fin S2.rank)
  reducesTo_S2_S_d0 : S2.ReducesTo [0] S_
  bcast_S_S7x10 : S_.BroadcastsInDim S7x10 (![] : Fin 0 → Fin S7x10.rank)
  reducesTo_S7x10_S_d0_1 : S7x10.ReducesTo [0, 1] S_
  bcast_S_S10 : S_.BroadcastsInDim S10 (![] : Fin 0 → Fin S10.rank)
  reducesTo_S10_S_d0 : S10.ReducesTo [0] S_
  bcast_S_S10x3 : S_.BroadcastsInDim S10x3 (![] : Fin 0 → Fin S10x3.rank)
  reducesTo_S10x3_S_d0_1 : S10x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S10 .f32) (main_arg16 : FVec F S10x3 .f32) (main_arg17 : FVec F S3 .f32) (main_v63 : IVec S_ 1) (main_v67 : IVec S_ 1) : IVec S_ 1 :=
  let main_v68 : IVec S_ 1 := andi main_v63 main_v67
  let main_v69 : FVec F S10 .f32 := Host.absf main_arg15
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x3 .f32 := Host.absf main_arg16
  let main_cst_28 : FVec F S_ .f32 := constant S_ .f32 0x7F800000#32
  let main_v75 : FVec F S10x3 .f32 := broadcastInDim S10x3 ![] bcast_S_S10x3 main_cst_28
  let main_v76 : IVec S10x3 1 := cmpf .olt main_v74 main_v75
  let main_c_29 : IVec S_ 1 := constantI S_ 1 1#1
  let main_v77 : IVec S_ 1 := (fun x v => Host.reduce IntOp.andi x v reducesTo_S10x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S1x2 .f32) (main_arg13 : FVec F S2 .f32) (main_arg14 : FVec F S7x10 .f32) (main_arg15 : FVec F S10 .f32) (main_arg16 : FVec F S10x3 .f32) (main_arg17 : FVec F S3 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x2 .f32 := Host.absf main_arg12
  let main_cst_20 : FVec F S_ .f32 := constant S_ .f32 0x7F800000#32
  let main_v55 : FVec F S1x2 .f32 := broadcastInDim S1x2 ![] bcast_S_S1x2 main_cst_20
  let main_v56 : IVec S1x2 1 := cmpf .olt main_v54 main_v55
  let main_c_21 : IVec S_ 1 := constantI S_ 1 1#1
  let main_v57 : IVec S_ 1 := (fun x v => Host.reduce IntOp.andi x v reducesTo_S1x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S7x10 .f32 := Host.absf main_arg14
  let main_cst_24 : FVec F S_ .f32 := constant S_ .f32 0x7F800000#32
  let main_v65 : FVec F S7x10 .f32 := broadcastInDim S7x10 ![] bcast_S_S7x10 main_cst_24
  let main_v66 : IVec S7x10 1 := cmpf .olt main_v64 main_v65
  let main_c_25 : IVec S_ 1 := constantI S_ 1 1#1
  let main_v67 : IVec S_ 1 := (fun x v => Host.reduce IntOp.andi x v reducesTo_S7x10_S_d0_1 h_S_) main_v66 main_c_25
  fn_part4 (F := F) main_arg15 main_arg16 main_arg17 main_v63 main_v67

def fn_part2 {F : FTy → Type} [FloatOps F] (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x2 .f32 := Host.absf main_arg9
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S65x1 .f32 := Host.absf main_arg10
  let main_cst_16 : FVec F S_ .f32 := constant S_ .f32 0x7F800000#32
  let main_v45 : FVec F S65x1 .f32 := broadcastInDim S65x1 ![] bcast_S_S65x1 main_cst_16
  let main_v46 : IVec S65x1 1 := cmpf .olt main_v44 main_v45
  let main_c_17 : IVec S_ 1 := constantI S_ 1 1#1
  let main_v47 : IVec S_ 1 := (fun x v => Host.reduce IntOp.andi x v reducesTo_S65x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_v48 main_v49 main_v50

def fn_part1 {F : FTy → Type} [FloatOps F] (main_arg5 : FVec F S192x64 .f32) (main_arg6 : FVec F S64 .f32) (main_arg7 : FVec F S64x128 .f32) (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S200000x3 .f32) (main_arg1 : FVec F S200000x128 .f32) (main_arg2 : FVec F S200000x3x128 .f32) (main_arg3 : IVec S200000 32) (main_arg4 : FVec F S128x128 .f32) (main_arg5 : FVec F S192x64 .f32) (main_arg6 : FVec F S64 .f32) (main_arg7 : FVec F S64x128 .f32) (main_arg8 : FVec F S128 .f32) (main_arg9 : FVec F S64x2 .f32) (main_arg10 : FVec F S65x1 .f32) (main_arg11 : FVec F S1 .f32) (main_arg12 : FVec F S1x2 .f32) (main_arg13 : FVec F S2 .f32) (main_arg14 : FVec F S7x10 .f32) (main_arg15 : FVec F S10 .f32) (main_arg16 : FVec F S10x3 .f32) (main_arg17 : FVec F S3 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x3x128 .f32 := Host.absf main_arg2
  let main_cst_2 : FVec F S_ .f32 := constant S_ .f32 0x7F800000#32
  let main_v10 : FVec F S200000x3x128 .f32 := broadcastInDim S200000x3x128 ![] bcast_S_S200000x3x128 main_cst_2
  let main_v11 : IVec S200000x3x128 1 := cmpf .olt main_v9 main_v10
  let main_c_3 : IVec S_ 1 := constantI S_ 1 1#1
  let main_v12 : IVec S_ 1 := (fun x v => Host.reduce IntOp.andi x v reducesTo_S200000x3x128_S_d0_1_2 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S200000x384 : Shape := ⟨2, ![200000, 384]⟩
abbrev S4000x128 : Shape := ⟨2, ![4000, 128]⟩
abbrev S4000x384 : Shape := ⟨2, ![4000, 384]⟩
abbrev S4000x3 : Shape := ⟨2, ![4000, 3]⟩
abbrev S4000x64 : Shape := ⟨2, ![4000, 64]⟩
abbrev S4000x192 : Shape := ⟨2, ![4000, 192]⟩
abbrev S1x64 : Shape := ⟨2, ![1, 64]⟩
abbrev S1x128 : Shape := ⟨2, ![1, 128]⟩
abbrev S4000x2 : Shape := ⟨2, ![4000, 2]⟩
abbrev S4000x1 : Shape := ⟨2, ![4000, 1]⟩
abbrev S4000x65 : Shape := ⟨2, ![4000, 65]⟩
abbrev S1x1 : Shape := ⟨2, ![1, 1]⟩
abbrev S4000x7 : Shape := ⟨2, ![4000, 7]⟩
abbrev S4000x10 : Shape := ⟨2, ![4000, 10]⟩
abbrev S1x10 : Shape := ⟨2, ![1, 10]⟩
abbrev S1x3 : Shape := ⟨2, ![1, 3]⟩
abbrev S600000 : Shape := ⟨1, ![600000]⟩

abbrev nBuf : Space → Nat
  | .hbm => 21
  | .vmem => 22
  | .smem => 0
  | _ => 0

abbrev bufTy : (tb : Table) → Fin (tcTables nBuf tb) → BufTy
  | .hbm, ⟨0, _⟩ => ⟨S200000x3, .f32⟩
  | .hbm, ⟨1, _⟩ => ⟨S200000x128, .f32⟩
  | .hbm, ⟨2, _⟩ => ⟨S200000x3x128, .f32⟩
  | .hbm, ⟨3, _⟩ => ⟨S200000, .i32⟩
  | .hbm, ⟨4, _⟩ => ⟨S128x128, .f32⟩
  | .hbm, ⟨5, _⟩ => ⟨S192x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S64x2, .f32⟩
  | .hbm, ⟨10, _⟩ => ⟨S65x1, .f32⟩
  | .hbm, ⟨11, _⟩ => ⟨S1, .f32⟩
  | .hbm, ⟨12, _⟩ => ⟨S1x2, .f32⟩
  | .hbm, ⟨13, _⟩ => ⟨S2, .f32⟩
  | .hbm, ⟨14, _⟩ => ⟨S7x10, .f32⟩
  | .hbm, ⟨15, _⟩ => ⟨S10, .f32⟩
  | .hbm, ⟨16, _⟩ => ⟨S10x3, .f32⟩
  | .hbm, ⟨17, _⟩ => ⟨S3, .f32⟩
  | .hbm, ⟨18, _⟩ => ⟨S200000x384, .f32⟩
  | .hbm, ⟨19, _⟩ => ⟨S200000x3, .f32⟩
  | .hbm, ⟨20, _⟩ => ⟨S600000, .f32⟩
  | .local _ .vmem, ⟨0, _⟩ => ⟨S4000x128, .f32⟩
  | .local _ .vmem, ⟨1, _⟩ => ⟨S4000x128, .f32⟩
  | .local _ .vmem, ⟨2, _⟩ => ⟨S4000x384, .f32⟩
  | .local _ .vmem, ⟨3, _⟩ => ⟨S4000x384, .f32⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S192x64, .f32⟩
  | .local _ .vmem, ⟨8, _⟩ => ⟨S64, .f32⟩
  | .local _ .vmem, ⟨9, _⟩ => ⟨S64x128, .f32⟩
  | .local _ .vmem, ⟨10, _⟩ => ⟨S128, .f32⟩
  | .local _ .vmem, ⟨11, _⟩ => ⟨S64x2, .f32⟩
  | .local _ .vmem, ⟨12, _⟩ => ⟨S65x1, .f32⟩
  | .local _ .vmem, ⟨13, _⟩ => ⟨S1, .f32⟩
  | .local _ .vmem, ⟨14, _⟩ => ⟨S1x2, .f32⟩
  | .local _ .vmem, ⟨15, _⟩ => ⟨S2, .f32⟩
  | .local _ .vmem, ⟨16, _⟩ => ⟨S7x10, .f32⟩
  | .local _ .vmem, ⟨17, _⟩ => ⟨S10, .f32⟩
  | .local _ .vmem, ⟨18, _⟩ => ⟨S10x3, .f32⟩
  | .local _ .vmem, ⟨19, _⟩ => ⟨S3, .f32⟩
  | .local _ .vmem, ⟨20, _⟩ => ⟨S4000x3, .f32⟩
  | .local _ .vmem, ⟨21, _⟩ => ⟨S4000x3, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S65x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S7x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S200000x3x128_S200000x384 : S200000x3x128.ShapeCasts S200000x384
  inb_S4000x128_S4000x128_0_0 : ∀ a, (![0, 0] : Fin 2 → Nat) a + S4000x128.size a ≤ S4000x128.size a
  h_S4000x128 : 0 < S4000x128.numel
  inb_S4000x3_S4000x3_0_0 : ∀ a, (![0, 0] : Fin 2 → Nat) a + S4000x3.size a ≤ S4000x3.size a
  h_S4000x3 : 0 < S4000x3.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S4000x384_S4000x128_0_0 : ∀ a, (![0, 0] : Fin 2 → Nat) a + S4000x128.size a ≤ S4000x384.size a
  shapeCasts_S4000x128_S4000x128 : S4000x128.ShapeCasts S4000x128
  inb_S4000x384_S4000x128_0_128 : ∀ a, (![0, 128] : Fin 2 → Nat) a + S4000x128.size a ≤ S4000x384.size a
  inb_S4000x384_S4000x128_0_256 : ∀ a, (![0, 256] : Fin 2 → Nat) a + S4000x128.size a ≤ S4000x384.size a
  slices_S4000x128_o0_0_S4000x64 : S4000x128.Slices ![0, 0] S4000x64
  slices_S4000x128_o0_64_S4000x64 : S4000x128.Slices ![0, 64] S4000x64
  concatenates_S4000x128_S4000x64_S4000x192_d1 : Shape.Concatenates [S4000x128, S4000x64] S4000x192 1
  inb_S192x64_S192x64_0_0 : ∀ a, (![0, 0] : Fin 2 → Nat) a + S192x64.size a ≤ S192x64.size a
  h_S192x64 : 0 < S192x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S64x2_S64x2_0_0 : ∀ a, (![0, 0] : Fin 2 → Nat) a + S64x2.size a ≤ S64x2.size a
  h_S64x2 : 0 < S64x2.numel
  slices_S4000x2_o0_0_S4000x1 : S4000x2.Slices ![0, 0] S4000x1
  slices_S4000x2_o0_1_S4000x1 : S4000x2.Slices ![0, 1] S4000x1
  concatenates_S4000x64_S4000x1_S4000x65_d1 : Shape.Concatenates [S4000x64, S4000x1] S4000x65 1
  inb_S65x1_S65x1_0_0 : ∀ a, (![0, 0] : Fin 2 → Nat) a + S65x1.size a ≤ S65x1.size a
  h_S65x1 : 0 < S65x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S1x2_S1x2_0_0 : ∀ a, (![0, 0] : Fin 2 → Nat) a + S1x2.size a ≤ S1x2.size a
  h_S1x2 : 0 < S1x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  concatenates_S4000x1_S4000x1_S4000x1_S4000x3_S4000x1_S4000x7_d1 : Shape.Concatenates [S4000x1, S4000x1, S4000x1, S4000x3, S4000x1] S4000x7 1
  inb_S7x10_S7x10_0_0 : ∀ a, (![0, 0] : Fin 2 → Nat) a + S7x10.size a ≤ S7x10.size a
  h_S7x10 : 0 < S7x10.numel
  inb_S10_S10_0 : ∀ a, (![0] : Fin 1 → Nat) a + S10.size a ≤ S10.size a
  h_S10 : 0 < S10.numel
  shapeCasts_S10_S1x10 : S10.ShapeCasts S1x10
  broadcasts_S1x10_S4000x10 : S1x10.Broadcasts S4000x10
  inb_S10x3_S10x3_0_0 : ∀ a, (![0, 0] : Fin 2 → Nat) a + S10x3.size a ≤ S10x3.size a
  h_S10x3 : 0 < S10x3.numel
  inb_S3_S3_0 : ∀ a, (![0] : Fin 1 → Nat) a + S3.size a ≤ S3.size a
  h_S3 : 0 < S3.numel
  shapeCasts_S3_S1x3 : S3.ShapeCasts S1x3
  broadcasts_S1x3_S4000x3 : S1x3.Broadcasts S4000x3
  shapeCasts_S200000x3_S600000 : S200000x3.ShapeCasts S600000
  dot_S4000x128_S128x128_S4000x128_1_0_0_1_n_n_wf : DotDims.WF S4000x128 S128x128 S4000x128 [1] [0] [0] [1] [] []
  dot_S4000x192_S192x64_S4000x64_1_0_0_1_n_n_wf : DotDims.WF S4000x192 S192x64 S4000x64 [1] [0] [0] [1] [] []
  dot_S4000x64_S64x128_S4000x128_1_0_0_1_n_n_wf : DotDims.WF S4000x64 S64x128 S4000x128 [1] [0] [0] [1] [] []
  dot_S4000x64_S64x2_S4000x2_1_0_0_1_n_n_wf : DotDims.WF S4000x64 S64x2 S4000x2 [1] [0] [0] [1] [] []
  dot_S4000x65_S65x1_S4000x1_1_0_0_1_n_n_wf : DotDims.WF S4000x65 S65x1 S4000x1 [1] [0] [0] [1] [] []
  dot_S4000x1_S1x2_S4000x2_1_0_0_1_n_n_wf : DotDims.WF S4000x1 S1x2 S4000x2 [1] [0] [0] [1] [] []
  dot_S4000x7_S7x10_S4000x10_1_0_0_1_n_n_wf : DotDims.WF S4000x7 S7x10 S4000x10 [1] [0] [0] [1] [] []
  dot_S4000x10_S10x3_S4000x3_1_0_0_1_n_n_wf : DotDims.WF S4000x10 S10x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x384.size a ≤ S200000x384.size a
  hwx0_1 : ∀ i : grid0.Coords, EltTy.bits .f32 = 32 ∨ (Rect.block (s := S200000x384) S4000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S200000x3.size a
  hwx0_2 : ∀ i : grid0.Coords, EltTy.bits .f32 = 32 ∨ (Rect.block (s := S200000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2.size a ≤ S64x2.size a
  hwx0_8 : ∀ i : grid0.Coords, EltTy.bits .f32 = 32 ∨ (Rect.block (s := S64x2) S64x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S65x1.size a ≤ S65x1.size a
  hwx0_9 : ∀ i : grid0.Coords, EltTy.bits .f32 = 32 ∨ (Rect.block (s := S65x1) S65x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2.size a ≤ S1x2.size a
  hwx0_11 : ∀ i : grid0.Coords, EltTy.bits .f32 = 32 ∨ (Rect.block (s := S1x2) S1x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S7x10.size a ≤ S7x10.size a
  hwx0_13 : ∀ i : grid0.Coords, EltTy.bits .f32 = 32 ∨ (Rect.block (s := S7x10) S7x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10.size a ≤ S10.size a
  hwx0_14 : ∀ i : grid0.Coords, EltTy.bits .f32 = 32 ∨ (Rect.block (s := S10) S10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10x3.size a ≤ S10x3.size a
  hwx0_15 : ∀ i : grid0.Coords, EltTy.bits .f32 = 32 ∨ (Rect.block (s := S10x3) S10x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3.size a ≤ S3.size a
  hwx0_16 : ∀ i : grid0.Coords, EltTy.bits .f32 = 32 ∨ (Rect.block (s := S3) S3.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x3.size a ≤ S200000x3.size a
  hwx0_17 : ∀ i : grid0.Coords, EltTy.bits .f32 = 32 ∨ (Rect.block (s := S200000x3) S4000x3.size (cc0_transform_17 i) (hinb0_17 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x192_S192x64_S4000x64_1_0_0_1_n_n : DotDims S4000x192 S192x64 S4000x64 where
  lhsContracting := [1]
  rhsContracting := [0]
  lhsNonContracting := [0]
  rhsNonContracting := [1]
  lhsBatch := []
  rhsBatch := []
  wf := dot_S4000x192_S192x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf
def dot_S4000x65_S65x1_S4000x1_1_0_0_1_n_n : DotDims S4000x65 S65x1 S4000x1 where
  lhsContracting := [1]
  rhsContracting := [0]
  lhsNonContracting := [0]
  rhsNonContracting := [1]
  lhsBatch := []
  rhsBatch := []
  wf := dot_S4000x65_S65x1_S4000x1_1_0_0_1_n_n_wf
def dot_S4000x1_S1x2_S4000x2_1_0_0_1_n_n : DotDims S4000x1 S1x2 S4000x2 where
  lhsContracting := [1]
  rhsContracting := [0]
  lhsNonContracting := [0]
  rhsNonContracting := [1]
  lhsBatch := []
  rhsBatch := []
  wf := dot_S4000x1_S1x2_S4000x2_1_0_0_1_n_n_wf
def dot_S4000x7_S7x10_S4000x10_1_0_0_1_n_n : DotDims S4000x7 S7x10 S4000x10 where
  lhsContracting := [1]
  rhsContracting := [0]
  lhsNonContracting := [0]
  rhsNonContracting := [1]
  lhsBatch := []
  rhsBatch := []
  wf := dot_S4000x7_S7x10_S4000x10_1_0_0_1_n_n_wf
def dot_S4000x10_S10x3_S4000x3_1_0_0_1_n_n : DotDims S4000x10 S10x3 S4000x3 where
  lhsContracting := [1]
  rhsContracting := [0]
  lhsNonContracting := [0]
  rhsNonContracting := [1]
  lhsBatch := []
  rhsBatch := []
  wf := dot_S4000x10_S10x3_S4000x3_1_0_0_1_n_n_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S65x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S7x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S10x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v1) S4000x3.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S200000x3 : Shape := ⟨2, ![200000, 3]⟩
abbrev S200000x128 : Shape := ⟨2, ![200000, 128]⟩
abbrev S200000x3x128 : Shape := ⟨3, ![200000, 3, 128]⟩
abbrev S200000 : Shape := ⟨1, ![200000]⟩
abbrev S128x128 : Shape := ⟨2, ![128, 128]⟩
abbrev S192x64 : Shape := ⟨2, ![192, 64]⟩
abbrev S64 : Shape := ⟨1, ![64]⟩
abbrev S64x128 : Shape := ⟨2, ![64, 128]⟩
abbrev S128 : Shape := ⟨1, ![128]⟩
abbrev S64x2 : Shape := ⟨2, ![64, 2]⟩
abbrev S65x1 : Shape := ⟨2, ![65, 1]⟩
abbrev S1 : Shape := ⟨1, ![1]⟩
abbrev S1x2 : Shape := ⟨2, ![1, 2]⟩
abbrev S2 : Shape := ⟨1, ![2]⟩
abbrev S7x10 : Shape := ⟨2, ![7, 10]⟩
abbrev S10 : Shape := ⟨1, ![10]⟩
abbrev S10x3 : Shape := ⟨2, ![10, 3]⟩
abbrev S3 : Shape := ⟨1, ![3]⟩
abbrev S200000x3x64 : Shape := ⟨3, ![200000, 3, 64]⟩
abbrev S_ : Shape := ⟨0, ![]⟩
abbrev S200000x64 : Shape := ⟨2, ![200000, 64]⟩
abbrev S200000x192 : Shape := ⟨2, ![200000, 192]⟩
abbrev S1x64 : Shape := ⟨2, ![1, 64]⟩
abbrev S1x128 : Shape := ⟨2, ![1, 128]⟩
abbrev S200000x1x64 : Shape := ⟨3, ![200000, 1, 64]⟩
abbrev S200000x3x2 : Shape := ⟨3, ![200000, 3, 2]⟩
abbrev S200000x3x1 : Shape := ⟨3, ![200000, 3, 1]⟩
abbrev S200000x1 : Shape := ⟨2, ![200000, 1]⟩
abbrev S200000x65 : Shape := ⟨2, ![200000, 65]⟩
abbrev S1x1 : Shape := ⟨2, ![1, 1]⟩
abbrev S200000x2 : Shape := ⟨2, ![200000, 2]⟩
abbrev S200000x1x1 : Shape := ⟨3, ![200000, 1, 1]⟩
abbrev S200000x7 : Shape := ⟨2, ![200000, 7]⟩
abbrev S200000x10 : Shape := ⟨2, ![200000, 10]⟩
abbrev S1x10 : Shape := ⟨2, ![1, 10]⟩
abbrev S1x3 : Shape := ⟨2, ![1, 3]⟩
abbrev S600000 : Shape := ⟨1, ![600000]⟩

abbrev nBuf : Space → Nat
  | .hbm => 107
  | .vmem => 0
  | .smem => 0
  | _ => 0

abbrev bufTy : (tb : Table) → Fin (tcTables nBuf tb) → BufTy
  | .hbm, ⟨0, _⟩ => ⟨S200000x3, .f32⟩
  | .hbm, ⟨1, _⟩ => ⟨S200000x128, .f32⟩
  | .hbm, ⟨2, _⟩ => ⟨S200000x3x128, .f32⟩
  | .hbm, ⟨3, _⟩ => ⟨S200000, .i32⟩
  | .hbm, ⟨4, _⟩ => ⟨S128x128, .f32⟩
  | .hbm, ⟨5, _⟩ => ⟨S192x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S64x2, .f32⟩
  | .hbm, ⟨10, _⟩ => ⟨S65x1, .f32⟩
  | .hbm, ⟨11, _⟩ => ⟨S1, .f32⟩
  | .hbm, ⟨12, _⟩ => ⟨S1x2, .f32⟩
  | .hbm, ⟨13, _⟩ => ⟨S2, .f32⟩
  | .hbm, ⟨14, _⟩ => ⟨S7x10, .f32⟩
  | .hbm, ⟨15, _⟩ => ⟨S10, .f32⟩
  | .hbm, ⟨16, _⟩ => ⟨S10x3, .f32⟩
  | .hbm, ⟨17, _⟩ => ⟨S3, .f32⟩
  | .hbm, ⟨18, _⟩ => ⟨S200000x3x128, .f32⟩
  | .hbm, ⟨19, _⟩ => ⟨S200000x3x64, .f32⟩
  | .hbm, ⟨20, _⟩ => ⟨S200000x3x64, .f32⟩
  | .hbm, ⟨21, _⟩ => ⟨S200000x3x64, .f32⟩
  | .hbm, ⟨22, _⟩ => ⟨S_, .f32⟩
  | .hbm, ⟨23, _⟩ => ⟨S200000x64, .f32⟩
  | .hbm, ⟨24, _⟩ => ⟨S200000x64, .f32⟩
  | .hbm, ⟨25, _⟩ => ⟨S200000x192, .f32⟩
  | .hbm, ⟨26, _⟩ => ⟨S200000x64, .f32⟩
  | .hbm, ⟨27, _⟩ => ⟨S1x64, .f32⟩
  | .hbm, ⟨28, _⟩ => ⟨S200000x64, .f32⟩
  | .hbm, ⟨29, _⟩ => ⟨S200000x64, .f32⟩
  | .hbm, ⟨30, _⟩ => ⟨S200000x64, .f32⟩
  | .hbm, ⟨31, _⟩ => ⟨S200000x64, .f32⟩
  | .hbm, ⟨32, _⟩ => ⟨S_, .f32⟩
  | .hbm, ⟨33, _⟩ => ⟨S200000x64, .f32⟩
  | .hbm, ⟨34, _⟩ => ⟨S200000x64, .f32⟩
  | .hbm, ⟨35, _⟩ => ⟨S_, .f32⟩
  | .hbm, ⟨36, _⟩ => ⟨S200000x64, .f32⟩
  | .hbm, ⟨37, _⟩ => ⟨S200000x64, .f32⟩
  | .hbm, ⟨38, _⟩ => ⟨S200000x64, .f32⟩
  | .hbm, ⟨39, _⟩ => ⟨S200000x128, .f32⟩
  | .hbm, ⟨40, _⟩ => ⟨S1x128, .f32⟩
  | .hbm, ⟨41, _⟩ => ⟨S200000x128, .f32⟩
  | .hbm, ⟨42, _⟩ => ⟨S200000x128, .f32⟩
  | .hbm, ⟨43, _⟩ => ⟨S200000x64, .f32⟩
  | .hbm, ⟨44, _⟩ => ⟨S200000x64, .f32⟩
  | .hbm, ⟨45, _⟩ => ⟨S200000x1x64, .f32⟩
  | .hbm, ⟨46, _⟩ => ⟨S200000x3x64, .f32⟩
  | .hbm, ⟨47, _⟩ => ⟨S200000x3x64, .f32⟩
  | .hbm, ⟨48, _⟩ => ⟨S200000x64, .f32⟩
  | .hbm, ⟨49, _⟩ => ⟨S200000x64, .f32⟩
  | .hbm, ⟨50, _⟩ => ⟨S_, .f32⟩
  | .hbm, ⟨51, _⟩ => ⟨S200000x64, .f32⟩
  | .hbm, ⟨52, _⟩ => ⟨S200000x64, .f32⟩
  | .hbm, ⟨53, _⟩ => ⟨S_, .f32⟩
  | .hbm, ⟨54, _⟩ => ⟨S200000x64, .f32⟩
  | .hbm, ⟨55, _⟩ => ⟨S200000x64, .f32⟩
  | .hbm, ⟨56, _⟩ => ⟨S200000x64, .f32⟩
  | .hbm, ⟨57, _⟩ => ⟨S200000x3x2, .f32⟩
  | .hbm, ⟨58, _⟩ => ⟨S200000x3x1, .f32⟩
  | .hbm, ⟨59, _⟩ => ⟨S200000x3x1, .f32⟩
  | .hbm, ⟨60, _⟩ => ⟨S200000x3x1, .f32⟩
  | .hbm, ⟨61, _⟩ => ⟨S_, .f32⟩
  | .hbm, ⟨62, _⟩ => ⟨S200000x1, .f32⟩
  | .hbm, ⟨63, _⟩ => ⟨S200000x1, .f32⟩
  | .hbm, ⟨64, _⟩ => ⟨S200000x65, .f32⟩
  | .hbm, ⟨65, _⟩ => ⟨S200000x1, .f32⟩
  | .hbm, ⟨66, _⟩ => ⟨S1x1, .f32⟩
  | .hbm, ⟨67, _⟩ => ⟨S200000x1, .f32⟩
  | .hbm, ⟨68, _⟩ => ⟨S200000x1, .f32⟩
  | .hbm, ⟨69, _⟩ => ⟨S200000x1, .f32⟩
  | .hbm, ⟨70, _⟩ => ⟨S200000x1, .f32⟩
  | .hbm, ⟨71, _⟩ => ⟨S_, .f32⟩
  | .hbm, ⟨72, _⟩ => ⟨S200000x1, .f32⟩
  | .hbm, ⟨73, _⟩ => ⟨S200000x1, .f32⟩
  | .hbm, ⟨74, _⟩ => ⟨S_, .f32⟩
  | .hbm, ⟨75, _⟩ => ⟨S200000x1, .f32⟩
  | .hbm, ⟨76, _⟩ => ⟨S200000x1, .f32⟩
  | .hbm, ⟨77, _⟩ => ⟨S200000x1, .f32⟩
  | .hbm, ⟨78, _⟩ => ⟨S200000x2, .f32⟩
  | .hbm, ⟨79, _⟩ => ⟨S1x2, .f32⟩
  | .hbm, ⟨80, _⟩ => ⟨S200000x2, .f32⟩
  | .hbm, ⟨81, _⟩ => ⟨S200000x2, .f32⟩
  | .hbm, ⟨82, _⟩ => ⟨S200000x1, .f32⟩
  | .hbm, ⟨83, _⟩ => ⟨S200000x1, .f32⟩
  | .hbm, ⟨84, _⟩ => ⟨S200000x1x1, .f32⟩
  | .hbm, ⟨85, _⟩ => ⟨S200000x3x1, .f32⟩
  | .hbm, ⟨86, _⟩ => ⟨S200000x3x1, .f32⟩
  | .hbm, ⟨87, _⟩ => ⟨S200000x3, .f32⟩
  | .hbm, ⟨88, _⟩ => ⟨S200000x7, .f32⟩
  | .hbm, ⟨89, _⟩ => ⟨S200000x10, .f32⟩
  | .hbm, ⟨90, _⟩ => ⟨S1x10, .f32⟩
  | .hbm, ⟨91, _⟩ => ⟨S200000x10, .f32⟩
  | .hbm, ⟨92, _⟩ => ⟨S200000x10, .f32⟩
  | .hbm, ⟨93, _⟩ => ⟨S200000x10, .f32⟩
  | .hbm, ⟨94, _⟩ => ⟨S200000x10, .f32⟩
  | .hbm, ⟨95, _⟩ => ⟨S_, .f32⟩
  | .hbm, ⟨96, _⟩ => ⟨S200000x10, .f32⟩
  | .hbm, ⟨97, _⟩ => ⟨S200000x10, .f32⟩
  | .hbm, ⟨98, _⟩ => ⟨S_, .f32⟩
  | .hbm, ⟨99, _⟩ => ⟨S200000x10, .f32⟩
  | .hbm, ⟨100, _⟩ => ⟨S200000x10, .f32⟩
  | .hbm, ⟨101, _⟩ => ⟨S200000x10, .f32⟩
  | .hbm, ⟨102, _⟩ => ⟨S200000x3, .f32⟩
  | .hbm, ⟨103, _⟩ => ⟨S1x3, .f32⟩
  | .hbm, ⟨104, _⟩ => ⟨S200000x3, .f32⟩
  | .hbm, ⟨105, _⟩ => ⟨S200000x3, .f32⟩
  | .hbm, ⟨106, _⟩ => ⟨S600000, .f32⟩
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call3_v0 : Ref sig .tc := ⟨.hbm, 60, rfl⟩
abbrev main_call3_cst : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call4_v0 : Ref sig .tc := ⟨.hbm, 69, rfl⟩
abbrev main_call4_v1 : Ref sig .tc := ⟨.hbm, 70, rfl⟩
abbrev main_call4_cst : Ref sig .tc := ⟨.hbm, 71, rfl⟩
abbrev main_call4_v2 : Ref sig .tc := ⟨.hbm, 72, rfl⟩
abbrev main_call4_v3 : Ref sig .tc := ⟨.hbm, 73, rfl⟩
abbrev main_call4_cst_0 : Ref sig .tc := ⟨.hbm, 74, rfl⟩
abbrev main_call4_v4 : Ref sig .tc := ⟨.hbm, 75, rfl⟩
abbrev main_call4_v5 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_call5_v0 : Ref sig .tc := ⟨.hbm, 93, rfl⟩
abbrev main_call5_v1 : Ref sig .tc := ⟨.hbm, 94, rfl⟩
abbrev main_call5_cst : Ref sig .tc := ⟨.hbm, 95, rfl⟩
abbrev main_call5_v2 : Ref sig .tc := ⟨.hbm, 96, rfl⟩
abbrev main_call5_v3 : Ref sig .tc := ⟨.hbm, 97, rfl⟩
abbrev main_call5_cst_0 : Ref sig .tc := ⟨.hbm, 98, rfl⟩
abbrev main_call5_v4 : Ref sig .tc := ⟨.hbm, 99, rfl⟩
abbrev main_call5_v5 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩

abbrev nD : Nat := 1
abbrev τ : Topo := Topo.v7x

variable {F : FTy → Type} [FloatOps F]

class Facts₀ : Prop where
  slices_S200000x3x128_S200000x3x64_0_0_0 : S200000x3x128.Slices ![0, 0, 0] S200000x3x64
  slices_S200000x3x128_S200000x3x64_0_0_64 : S200000x3x128.Slices ![0, 0, 64] S200000x3x64
  reducesTo_S200000x3x64_S200000x64_d1 : S200000x3x64.ReducesTo [1] S200000x64
  h_S_ : 0 < S_.numel
  concatenates_S200000x128_S200000x64_S200000x192_d1 : Shape.Concatenates [S200000x128, S200000x64] S200000x192 1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S200000x128_S200000x64_0_0 : S200000x128.Slices ![0, 0] S200000x64
  slices_S200000x128_S200000x64_0_64 : S200000x128.Slices ![0, 64] S200000x64
  bcast_S200000x64_S200000x1x64_0_2 : S200000x64.BroadcastsInDim S200000x1x64 (![0, 2] : Fin 2 → Fin S200000x1x64.rank)
  bcast_S200000x1x64_S200000x3x64_0_1_2 : S200000x1x64.BroadcastsInDim S200000x3x64 (![0, 1, 2] : Fin 3 → Fin S200000x3x64.rank)
  slices_S200000x3x2_S200000x3x1_0_0_0 : S200000x3x2.Slices ![0, 0, 0] S200000x3x1
  slices_S200000x3x2_S200000x3x1_0_0_1 : S200000x3x2.Slices ![0, 0, 1] S200000x3x1
  reducesTo_S200000x3x1_S200000x1_d1 : S200000x3x1.ReducesTo [1] S200000x1
  concatenates_S200000x64_S200000x1_S200000x65_d1 : Shape.Concatenates [S200000x64, S200000x1] S200000x65 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  slices_S200000x2_S200000x1_0_0 : S200000x2.Slices ![0, 0] S200000x1
  slices_S200000x2_S200000x1_0_1 : S200000x2.Slices ![0, 1] S200000x1
  bcast_S200000x1_S200000x1x1_0_2 : S200000x1.BroadcastsInDim S200000x1x1 (![0, 2] : Fin 2 → Fin S200000x1x1.rank)
  bcast_S200000x1x1_S200000x3x1_0_1_2 : S200000x1x1.BroadcastsInDim S200000x3x1 (![0, 1, 2] : Fin 3 → Fin S200000x3x1.rank)
  shapeCasts_S200000x3x1_S200000x3 : S200000x3x1.ShapeCasts S200000x3
  concatenates_S200000x3_S200000x3_S200000x1_S200000x7_d1 : Shape.Concatenates [S200000x3, S200000x3, S200000x1] S200000x7 1
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S_S200000x10 : S_.BroadcastsInDim S200000x10 (![] : Fin 0 → Fin S200000x10.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  shapeCasts_S200000x3_S600000 : S200000x3.ShapeCasts S600000
  dot_S200000x3x128_S128x128_S200000x3x128_2_0_01_1_n_n_wf : DotDims.WF S200000x3x128 S128x128 S200000x3x128 [2] [0] [0, 1] [1] [] []
  dot_S200000x192_S192x64_S200000x64_1_0_0_1_n_n_wf : DotDims.WF S200000x192 S192x64 S200000x64 [1] [0] [0] [1] [] []
  dot_S200000x64_S64x128_S200000x128_1_0_0_1_n_n_wf : DotDims.WF S200000x64 S64x128 S200000x128 [1] [0] [0] [1] [] []
  dot_S200000x3x64_S64x2_S200000x3x2_2_0_01_1_n_n_wf : DotDims.WF S200000x3x64 S64x2 S200000x3x2 [2] [0] [0, 1] [1] [] []
  dot_S200000x65_S65x1_S200000x1_1_0_0_1_n_n_wf : DotDims.WF S200000x65 S65x1 S200000x1 [1] [0] [0] [1] [] []
  dot_S200000x1_S1x2_S200000x2_1_0_0_1_n_n_wf : DotDims.WF S200000x1 S1x2 S200000x2 [1] [0] [0] [1] [] []
  dot_S200000x7_S7x10_S200000x10_1_0_0_1_n_n_wf : DotDims.WF S200000x7 S7x10 S200000x10 [1] [0] [0] [1] [] []
  dot_S200000x10_S10x3_S200000x3_1_0_0_1_n_n_wf : DotDims.WF S200000x10 S10x3 S200000x3 [1] [0] [0] [1] [] []

variable [Facts₀]

def dot_S200000x3x128_S128x128_S200000x3x128_2_0_01_1_n_n : DotDims S200000x3x128 S128x128 S200000x3x128 where
  lhsContracting := [2]
  rhsContracting := [0]
  lhsNonContracting := [0, 1]
  rhsNonContracting := [1]
  lhsBatch := []
  rhsBatch := []
  wf := dot_S200000x3x128_S128x128_S200000x3x128_2_0_01_1_n_n_wf
def dot_S200000x192_S192x64_S200000x64_1_0_0_1_n_n : DotDims S200000x192 S192x64 S200000x64 where
  lhsContracting := [1]
  rhsContracting := [0]
  lhsNonContracting := [0]
  rhsNonContracting := [1]
  lhsBatch := []
  rhsBatch := []
  wf := dot_S200000x192_S192x64_S200000x64_1_0_0_1_n_n_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x3x64_S64x2_S200000x3x2_2_0_01_1_n_n : DotDims S200000x3x64 S64x2 S200000x3x2 where
  lhsContracting := [2]
  rhsContracting := [0]
  lhsNonContracting := [0, 1]
  rhsNonContracting := [1]
  lhsBatch := []
  rhsBatch := []
  wf := dot_S200000x3x64_S64x2_S200000x3x2_2_0_01_1_n_n_wf
def dot_S200000x65_S65x1_S200000x1_1_0_0_1_n_n : DotDims S200000x65 S65x1 S200000x1 where
  lhsContracting := [1]
  rhsContracting := [0]
  lhsNonContracting := [0]
  rhsNonContracting := [1]
  lhsBatch := []
  rhsBatch := []
  wf := dot_S200000x65_S65x1_S200000x1_1_0_0_1_n_n_wf
def dot_S200000x1_S1x2_S200000x2_1_0_0_1_n_n : DotDims S200000x1 S1x2 S200000x2 where
  lhsContracting := [1]
  rhsContracting := [0]
  lhsNonContracting := [0]
  rhsNonContracting := [1]
  lhsBatch := []
  rhsBatch := []
  wf := dot_S200000x1_S1x2_S200000x2_1_0_0_1_n_n_wf
def dot_S200000x7_S7x10_S200000x10_1_0_0_1_n_n : DotDims S200000x7 S7x10 S200000x10 where
  lhsContracting := [1]
  rhsContracting := [0]
  lhsNonContracting := [0]
  rhsNonContracting := [1]
  lhsBatch := []
  rhsBatch := []
  wf := dot_S200000x7_S7x10_S200000x10_1_0_0_1_n_n_wf
def dot_S200000x10_S10x3_S200000x3_1_0_0_1_n_n : DotDims S200000x10 S10x3 S200000x3 where
  lhsContracting := [1]
  rhsContracting := [0]
  lhsNonContracting := [0]
  rhsNonContracting := [1]
  lhsBatch := []
  rhsBatch := []
  wf := dot_S200000x10_S10x3_S200000x3_1_0_0_1_n_n_wf

class Facts : Prop extends Facts₀ where

variable [Facts]
-- ==== Proof.Atom.lean ====
/-
  The function of ONE atom that both programs compute.

  Every atom (row `n` of the arrays) is treated alone: its scalar features `s ∈ ℝ¹²⁸`, its three vector-feature
  components `v c ∈ ℝ¹²⁸` (`c < 3`) and its position `pos ∈ ℝ³` go through two gated blocks and a small head:

    block 1:  m c = v c · Wm1 (128 columns; the first 64 feed a norm, the last 64 are gated)
              n o = sqrt (m 0 o ² + m 1 o ² + m 2 o ²)                     (o < 64)
              h   = silu ([s, n] · W11 + b11)                               (64 columns)
              x   = h · W21 + b21                                           (128 columns)
              s' o = silu (x o),  g o = x (64 + o),  v' c o = g o * m c (64 + o)
    block 2:  the same with `s'`, `v'` and one output column, no activation on the scalar output:
              m' c = v' c · Wm2 (2 columns), n' = sqrt (Σ_c m' c 0 ²), h' = silu ([s', n'] · W12 + b12),
              x' = h' · W22 + b22 (2 columns), l0 = x' 0, v'' c = x' 1 * m' c 1
    head:     out = silu ([v'' 0, v'' 1, v'' 2, pos 0, pos 1, pos 2, l0] · Wd1 + bd1) · Wd2 + bd2   (3 columns)

  All arithmetic is on the extended reals, with `silu x = x * logistic x`. Every sum is a finite sum in a
  commutative monoid, so no statement here needs an entry to be finite.
-/
import Idealize.ShloMosaic.Lib.ValueIdx
import Idealize.ShloMosaic.PureOps.Ideal.Laws

open scoped BigOperators

noncomputable section

namespace Cert.Atom

open Idealize.ShloMosaic Idealize.ShloMosaic.ValueIdx

/-- A matrix with `a` rows and `b` columns, as a function of its index. -/
abbrev Mat (a b : Nat) : Type := (⟨2, ![a, b]⟩ : Shape).Idx → EReal
/-- A vector with `a` entries, as a function of its index. -/
abbrev Arr (a : Nat) : Type := (⟨1, ![a]⟩ : Shape).Idx → EReal

/-- A row vector times a matrix, at column `o`. -/
def rowMul {K B : Nat} (W : Mat K B) (x : Fin K → EReal) (o : Fin B) : EReal := ∑ k : Fin K, x k * W (ix2 k o)

/-- `silu x = x * logistic x`. -/
def silu (x : EReal) : EReal := x * Ideal.logistic x

/-- The Euclidean norm of three numbers, summed in the order `(a² + b²) + c²`. -/
def norm3 (a b c : EReal) : EReal := Ideal.sqrt (a * a + b * b + c * c)

/-- Column `o` of the first half of 128 columns. -/
def lo64 (o : Fin 64) : Fin 128 := ⟨o.val, by omega⟩
/-- Column `o` of the second half of 128 columns. -/
def hi64 (o : Fin 64) : Fin 128 := ⟨64 + o.val, by omega⟩

/-- 128 entries followed by 64. -/
def cat192 (x : Fin 128 → EReal) (y : Fin 64 → EReal) (j : Fin 192) : EReal :=
  if h : j.val < 128 then x ⟨j.val, h⟩ else y ⟨j.val - 128, by omega⟩
/-- 64 entries followed by one. -/
def cat65 (x : Fin 64 → EReal) (y : EReal) (j : Fin 65) : EReal :=
  if h : j.val < 64 then x ⟨j.val, h⟩ else y
/-- Three entries, three more, and a last one. -/
def cat7 (x : Fin 3 → EReal) (y : Fin 3 → EReal) (z : EReal) (j : Fin 7) : EReal :=
  if h : j.val < 3 then x ⟨j.val, h⟩ else if h' : j.val < 6 then y ⟨j.val - 3, by omega⟩ else z

/-- The weights and biases. -/
structure Weights where
  Wm1 : Mat 128 128
  W11 : Mat 192 64
  b11 : Arr 64
  W21 : Mat 64 128
  b21 : Arr 128
  Wm2 : Mat 64 2
  W12 : Mat 65 1
  b12 : Arr 1
  W22 : Mat 1 2
  b22 : Arr 2
  Wd1 : Mat 7 10
  bd1 : Arr 10
  Wd2 : Mat 10 3
  bd2 : Arr 3

/-- One atom's inputs. -/
structure Row where
  s : Fin 128 → EReal
  v : Fin 3 → Fin 128 → EReal
  pos : Fin 3 → EReal

variable (w : Weights) (r : Row)

/-- Block 1: component `c` of the vector features mixed by `Wm1`. -/
def mix1 (c : Fin 3) (o : Fin 128) : EReal := rowMul w.Wm1 (r.v c) o
/-- Block 1: the norm over the three components of the first 64 mixed columns. -/
def nrm1 (o : Fin 64) : EReal := norm3 (mix1 w r 0 (lo64 o)) (mix1 w r 1 (lo64 o)) (mix1 w r 2 (lo64 o))
/-- Block 1: the hidden layer. -/
def hid1 (o : Fin 64) : EReal := silu (rowMul w.W11 (cat192 r.s (nrm1 w r)) o + w.b11 (ix1 o))
/-- Block 1: the second layer, 128 columns. -/
def lin1 (o : Fin 128) : EReal := rowMul w.W21 (hid1 w r) o + w.b21 (ix1 o)
/-- Block 1: the scalar output, activated. -/
def sOut1 (o : Fin 64) : EReal := silu (lin1 w r (lo64 o))
/-- Block 1: the gate. -/
def gate1 (o : Fin 64) : EReal := lin1 w r (hi64 o)
/-- Block 1: the gated vector output. -/
def vOut1 (c : Fin 3) (o : Fin 64) : EReal := gate1 w r o * mix1 w r c (hi64 o)
/-- Block 2: component `c` of block 1's vector output mixed by `Wm2`. -/
def mix2 (c : Fin 3) (e : Fin 2) : EReal := rowMul w.Wm2 (vOut1 w r c) e
/-- Block 2: the norm over the three components of the first mixed column. -/
def nrm2 : EReal := norm3 (mix2 w r 0 0) (mix2 w r 1 0) (mix2 w r 2 0)
/-- Block 2: the hidden layer (one column). -/
def hid2 : EReal := silu (rowMul w.W12 (cat65 (sOut1 w r) (nrm2 w r)) 0 + w.b12 (ix1 0))
/-- Block 2: the second layer, two columns. -/
def lin2 (e : Fin 2) : EReal := rowMul w.W22 (fun _ : Fin 1 => hid2 w r) e + w.b22 (ix1 e)
/-- Block 2: the gated vector output. -/
def vOut2 (c : Fin 3) : EReal := lin2 w r 1 * mix2 w r c 1
/-- The head's seven inputs. -/
def feat (j : Fin 7) : EReal := cat7 (vOut2 w r) r.pos (lin2 w r 0) j
/-- The head's hidden layer. -/
def hidD (k : Fin 10) : EReal := silu (rowMul w.Wd1 (feat w r) k + w.bd1 (ix1 k))
/-- The atom's three outputs. -/
def out (q : Fin 3) : EReal := rowMul w.Wd2 (hidD w r) q + w.bd2 (ix1 q)

/-- The pattern of `1.0` denotes the number one. -/
theorem ofBits_one : Ideal.ofBits .f32 0x3F800000#32 = 1 := by
  simp [Ideal.ofBits, Ideal.ieee, -EReal.coe_mul]; norm_num

/-- `silu` spelt with the logistic function expanded: `x * (1 / (1 + exp (-x)))`. -/
theorem silu_eq (x : EReal) : silu x = x * Ideal.div 1 (1 + Ideal.exp (-x)) := rfl

end Cert.Atom

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KernelAtom.lean ====
/-
  The kernel body's arithmetic at one row of a block.

  The body works on a block of 4000 atoms; every operation it applies is row-local (pointwise operations, products
  with weight matrices, column slices, column concatenations, a bias row broadcast down the rows). So entry
  `(p, ·)` of each intermediate value is the corresponding stage of the one-atom function (`Cert.Atom`) at the
  atom whose inputs are row `p` of the input blocks. Each lemma below reads one named piece of the body at row `p`,
  taking the pieces it is built from as variables with what they are at row `p` as hypotheses.
-/
import proofs.«162249_j67070209295171_2_alg».proof.Proof.Gen.KernelIdeal.Skeleton
import proofs.«162249_j67070209295171_2_alg».proof.Proof.Atom
import proofs.«162249_j67070209295171_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelAtom

open Cert.KernelIdeal Cert.KernelIdeal.Gen Idealize.ShloMosaic Idealize.ShloMosaic.ValueIdx Cert.Atom

/-- A block times a weight matrix into a zero accumulator, at row `p` and column `o`: row `p` times the matrix. -/
theorem matmul_row {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (prec : Option ContractPrecision) {φ₁ φ₂ : FTy}
    (x : FVec Ideal ⟨2, ![A, K]⟩ φ₁) (W : FVec Ideal ⟨2, ![K, B]⟩ φ₂) (p : Fin A) (o : Fin B) :
    matmul d prec x W (constant (F := Ideal) ⟨2, ![A, B]⟩ .f32 0x00000000#32) (ix2 p o)
      = rowMul W (fun k => x (ix2 p k)) o :=
  (Ideal.matmul_constant_zero_apply d prec x W (ix2 p o)).trans
    (Cert.PlainDot.sum_eq d hlb hln hlc hrb hrn hrc hr hs x W p o)

variable (w : Weights) (r : Row) (p : Fin 4000)

/-- One component of the vector features times `Wm1`. -/
theorem mix1_block (c : Fin 3) (v4 : Vec Ideal S4000x128 .f32) (h4 : ∀ k, v4 (ix2 p k) = r.v c k) (o : Fin 128) :
    k0_pay3 (F := Ideal) w.Wm1 v4 (ix2 p o) = mix1 w r c o := by
  unfold k0_pay3 k0_pay2
  refine (matmul_row _ rfl rfl rfl rfl rfl rfl rfl rfl none _ _ p o).trans ?_
  unfold mix1 rowMul
  refine Finset.sum_congr rfl fun k _ => ?_
  rw [shapeCast_self]
  exact congrArg (· * _) (h4 k)

/-! ## A bias row, and a linear layer, at a row -/

/-- A bias vector cast to one row and broadcast down the rows reads, at `(p, o)`, its entry `o`. -/
theorem bias_row {A B : Nat} (b : (⟨1, ![B]⟩ : Shape).Idx → EReal) (h1 : (⟨1, ![B]⟩ : Shape).ShapeCasts ⟨2, ![1, B]⟩)
    (h2 : (⟨2, ![1, B]⟩ : Shape).Broadcasts ⟨2, ![A, B]⟩) (p : Fin A) (o : Fin B) :
    broadcastTo ⟨2, ![A, B]⟩ (shapeCast ⟨2, ![1, B]⟩ b h1) h2 (ix2 p o) = b (ix1 o) :=
  (broadcastTo_1b_ab_apply _ h2 p o).trans (shapeCast_a_1a_apply b h1 0 o)

/-- A block times a weight matrix plus a bias row, at `(p, o)`: row `p` times the matrix, plus the bias at `o`. -/
theorem linear_row {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (prec : Option ContractPrecision) {φ₁ φ₂ : FTy}
    (x : FVec Ideal ⟨2, ![A, K]⟩ φ₁) (W : FVec Ideal ⟨2, ![K, B]⟩ φ₂)
    (b : (⟨1, ![B]⟩ : Shape).Idx → EReal) (h1 : (⟨1, ![B]⟩ : Shape).ShapeCasts ⟨2, ![1, B]⟩)
    (h2 : (⟨2, ![1, B]⟩ : Shape).Broadcasts ⟨2, ![A, B]⟩) (p : Fin A) (o : Fin B)
    (xr : Fin K → EReal) (hx : ∀ k, x (ix2 p k) = xr k) :
    addf (F := Ideal) (φ := .f32) (matmul d prec x W (constant (F := Ideal) ⟨2, ![A, B]⟩ .f32 0x00000000#32))
        (broadcastTo ⟨2, ![A, B]⟩ (shapeCast ⟨2, ![1, B]⟩ b h1) h2) (ix2 p o)
      = rowMul W xr o + b (ix1 o) := by
  show matmul d prec x W _ (ix2 p o) + broadcastTo _ _ h2 (ix2 p o) = _
  rw [matmul_row d hlb hln hlc hrb hrn hrc hr hs prec x W p o, bias_row b h1 h2 p o]
  exact congrArg (· + _) (congrArg (fun f => rowMul W f o) (funext hx))

/-! ## The three column concatenations at a row -/

/-- 128 columns followed by 64, at row `p`. -/
theorem cat192_row (x : S4000x128.Idx → EReal) (y : S4000x64.Idx → EReal)
    (h : Shape.Concatenates [S4000x128, S4000x64] S4000x192 1) (p : Fin 4000) (j : Fin 192) :
    concatenate S4000x192 1 [⟨S4000x128, x⟩, ⟨S4000x64, y⟩] h (ix2 p j)
      = cat192 (fun k => x (ix2 p k)) (fun o => y (ix2 p o)) j := by
  unfold cat192
  split
  · next hj =>
    exact concatenate_pair_apply_left 1 x y h (ix2 p j) rfl (ix2 p ⟨j.val, hj⟩)
      (fun b => by match b with | ⟨0, _⟩ => rfl | ⟨1, _⟩ => rfl)
  · next hj =>
    exact concatenate_pair_apply_right 1 x y h (ix2 p j) rfl rfl (ix2 p ⟨j.val - 128, by omega⟩)
      (fun b hb => by match b with | ⟨0, _⟩ => rfl | ⟨1, _⟩ => exact absurd rfl hb)
      (by show (j.val - 128) + 128 = j.val; omega)

/-- 64 columns followed by one, at row `p`. -/
theorem cat65_row (x : S4000x64.Idx → EReal) (y : S4000x1.Idx → EReal)
    (h : Shape.Concatenates [S4000x64, S4000x1] S4000x65 1) (p : Fin 4000) (j : Fin 65) :
    concatenate S4000x65 1 [⟨S4000x64, x⟩, ⟨S4000x1, y⟩] h (ix2 p j)
      = cat65 (fun k => x (ix2 p k)) (y (ix2 p 0)) j := by
  unfold cat65
  split
  · next hj =>
    exact concatenate_pair_apply_left 1 x y h (ix2 p j) rfl (ix2 p ⟨j.val, hj⟩)
      (fun b => by match b with | ⟨0, _⟩ => rfl | ⟨1, _⟩ => rfl)
  · next hj =>
    exact concatenate_pair_apply_right 1 x y h (ix2 p j) rfl rfl (ix2 p 0)
      (fun b hb => by match b with | ⟨0, _⟩ => rfl | ⟨1, _⟩ => exact absurd rfl hb)
      (by show 0 + 64 = j.val; omega)

/-- Three single columns, three columns and one more, at row `p`. -/
theorem cat7_row (a b c : S4000x1.Idx → EReal) (y : S4000x3.Idx → EReal) (z : S4000x1.Idx → EReal)
    (h : Shape.Concatenates [S4000x1, S4000x1, S4000x1, S4000x3, S4000x1] S4000x7 1) (p : Fin 4000)
    (xa : Fin 3 → EReal) (ha : a (ix2 p 0) = xa 0) (hb : b (ix2 p 0) = xa 1) (hc : c (ix2 p 0) = xa 2) (j : Fin 7) :
    concatenate S4000x7 1 [⟨S4000x1, a⟩, ⟨S4000x1, b⟩, ⟨S4000x1, c⟩, ⟨S4000x3, y⟩, ⟨S4000x1, z⟩] h (ix2 p j)
      = cat7 xa (fun i => y (ix2 p i)) (z (ix2 p 0)) j := by
  match j with
  | ⟨0, _⟩ =>
    exact (concatenate_apply_piece (t := S4000x7) 1 [⟨S4000x1, a⟩, ⟨S4000x1, b⟩, ⟨S4000x1, c⟩, ⟨S4000x3, y⟩, ⟨S4000x1, z⟩] h (ix2 p _) 0 (by show (0 : Nat) < 5; omega) S4000x1 a rfl rfl 0 rfl (ix2 p 0)
      (fun b hb => by match b with | ⟨0, _⟩ => rfl | ⟨1, _⟩ => exact absurd rfl hb) rfl).trans ha
  | ⟨1, _⟩ =>
    exact (concatenate_apply_piece (t := S4000x7) 1 [⟨S4000x1, a⟩, ⟨S4000x1, b⟩, ⟨S4000x1, c⟩, ⟨S4000x3, y⟩, ⟨S4000x1, z⟩] h (ix2 p _) 1 (by show (1 : Nat) < 5; omega) S4000x1 b rfl rfl 1 rfl (ix2 p 0)
      (fun b hb => by match b with | ⟨0, _⟩ => rfl | ⟨1, _⟩ => exact absurd rfl hb) rfl).trans hb
  | ⟨2, _⟩ =>
    exact (concatenate_apply_piece (t := S4000x7) 1 [⟨S4000x1, a⟩, ⟨S4000x1, b⟩, ⟨S4000x1, c⟩, ⟨S4000x3, y⟩, ⟨S4000x1, z⟩] h (ix2 p _) 2 (by show (2 : Nat) < 5; omega) S4000x1 c rfl rfl 2 rfl (ix2 p 0)
      (fun b hb => by match b with | ⟨0, _⟩ => rfl | ⟨1, _⟩ => exact absurd rfl hb) rfl).trans hc
  | ⟨3, _⟩ =>
    exact concatenate_apply_piece (t := S4000x7) 1 [⟨S4000x1, a⟩, ⟨S4000x1, b⟩, ⟨S4000x1, c⟩, ⟨S4000x3, y⟩, ⟨S4000x1, z⟩] h (ix2 p _) 3 (by show (3 : Nat) < 5; omega) S4000x3 y rfl rfl 3 rfl (ix2 p 0)
      (fun b hb => by match b with | ⟨0, _⟩ => rfl | ⟨1, _⟩ => exact absurd rfl hb) rfl
  | ⟨4, _⟩ =>
    exact concatenate_apply_piece (t := S4000x7) 1 [⟨S4000x1, a⟩, ⟨S4000x1, b⟩, ⟨S4000x1, c⟩, ⟨S4000x3, y⟩, ⟨S4000x1, z⟩] h (ix2 p _) 3 (by show (3 : Nat) < 5; omega) S4000x3 y rfl rfl 3 rfl (ix2 p 1)
      (fun b hb => by match b with | ⟨0, _⟩ => rfl | ⟨1, _⟩ => exact absurd rfl hb) rfl
  | ⟨5, _⟩ =>
    exact concatenate_apply_piece (t := S4000x7) 1 [⟨S4000x1, a⟩, ⟨S4000x1, b⟩, ⟨S4000x1, c⟩, ⟨S4000x3, y⟩, ⟨S4000x1, z⟩] h (ix2 p _) 3 (by show (3 : Nat) < 5; omega) S4000x3 y rfl rfl 3 rfl (ix2 p 2)
      (fun b hb => by match b with | ⟨0, _⟩ => rfl | ⟨1, _⟩ => exact absurd rfl hb) rfl
  | ⟨6, _⟩ =>
    exact concatenate_apply_piece (t := S4000x7) 1 [⟨S4000x1, a⟩, ⟨S4000x1, b⟩, ⟨S4000x1, c⟩, ⟨S4000x3, y⟩, ⟨S4000x1, z⟩] h (ix2 p _) 4 (by show (4 : Nat) < 5; omega) S4000x1 z rfl rfl 6 rfl (ix2 p 0)
      (fun b hb => by match b with | ⟨0, _⟩ => rfl | ⟨1, _⟩ => exact absurd rfl hb) rfl

/-! ## The body's pieces at row `p` -/

/-- The last 64 mixed columns of one component. -/
theorem mix1_hi_block (c : Fin 3) (v4 : Vec Ideal S4000x128 .f32) (h4 : ∀ k, v4 (ix2 p k) = r.v c k) (o : Fin 64) :
    k0_pay6 (F := Ideal) w.Wm1 v4 (ix2 p o) = mix1 w r c (hi64 o) := by
  unfold k0_pay6
  exact (slice2_axis1_apply 64 _ _ p o (hi64 o) rfl).trans (mix1_block w r p c v4 h4 (hi64 o))

/-- The first 64 mixed columns of one component. -/
theorem mix1_lo_block (c : Fin 3) (v4 : Vec Ideal S4000x128 .f32) (h4 : ∀ k, v4 (ix2 p k) = r.v c k)
    (h : S4000x128.Slices ![0, 0] S4000x64) (o : Fin 64) :
    extractStridedSlice S4000x64 ![0, 0] (k0_pay3 (F := Ideal) w.Wm1 v4) h (ix2 p o) = mix1 w r c (lo64 o) :=
  (slice2_axis1_apply 0 _ h p o (lo64 o) (by show o.val = 0 + o.val; omega)).trans (mix1_block w r p c v4 h4 (lo64 o))

/-- Block 1's hidden layer. -/
theorem hid1_block (v0 v4 v8 v12 : Vec Ideal S4000x128 .f32)
    (h0 : ∀ k, v0 (ix2 p k) = r.s k) (h4 : ∀ k, v4 (ix2 p k) = r.v 0 k) (h8 : ∀ k, v8 (ix2 p k) = r.v 1 k)
    (h12 : ∀ k, v12 (ix2 p k) = r.v 2 k) (o : Fin 64) :
    k0_pay9 (F := Ideal) v0 w.Wm1 v4 v8 v12 w.W11 w.b11 (ix2 p o) = hid1 w r o := by
  unfold k0_pay9 hid1
  refine congrArg silu ?_
  have e0 : ∀ o', extractStridedSlice S4000x64 ![0, 0] (k0_pay3 (F := Ideal) w.Wm1 v4) slices_S4000x128_o0_0_S4000x64 (ix2 p o')
      = mix1 w r 0 (lo64 o') := fun o' => mix1_lo_block w r p 0 v4 h4 _ o'
  have e1 : ∀ o', extractStridedSlice S4000x64 ![0, 0] (k0_pay4 (F := Ideal) w.Wm1 v8) slices_S4000x128_o0_0_S4000x64 (ix2 p o')
      = mix1 w r 1 (lo64 o') := fun o' => mix1_lo_block w r p 1 v8 h8 _ o'
  have e2 : ∀ o', extractStridedSlice S4000x64 ![0, 0] (k0_pay5 (F := Ideal) w.Wm1 v12) slices_S4000x128_o0_0_S4000x64 (ix2 p o')
      = mix1 w r 2 (lo64 o') := fun o' => mix1_lo_block w r p 2 v12 h12 _ o'
  refine linear_row _ rfl rfl rfl rfl rfl rfl rfl rfl none _ _ w.b11 _ _ p o _ fun k => ?_
  change concatenate S4000x192 1 [⟨S4000x128, _⟩, ⟨S4000x64, _⟩] concatenates_S4000x128_S4000x64_S4000x192_d1 (ix2 p k) = _
  refine (cat192_row _ _ _ p k).trans ?_
  refine congrArg₂ (fun f g => cat192 f g k) (funext h0) (funext fun o' => ?_)
  show Ideal.sqrt (_ * _ + _ * _ + _ * _) = norm3 _ _ _
  unfold norm3
  rw [e0 o', e1 o', e2 o']

/-- Block 1's second layer. -/
theorem lin1_block (v38 : FVec Ideal S4000x64 .f32) (h38 : ∀ k, v38 (ix2 p k) = hid1 w r k) (o : Fin 128) :
    k0_pay10 (F := Ideal) v38 w.W21 w.b21 (ix2 p o) = lin1 w r o := by
  unfold k0_pay10 lin1
  exact linear_row _ rfl rfl rfl rfl rfl rfl rfl rfl none _ _ w.b21 _ _ p o _ h38

/-- Block 1's gate: the last 64 columns of the second layer. -/
theorem gate1_block (v38 : FVec Ideal S4000x64 .f32) (h38 : ∀ k, v38 (ix2 p k) = hid1 w r k) (o : Fin 64) :
    k0_pay11 (F := Ideal) v38 w.W21 w.b21 (ix2 p o) = gate1 w r o := by
  unfold k0_pay11 gate1
  exact (slice2_axis1_apply 64 _ _ p o (hi64 o) rfl).trans (lin1_block w r p v38 h38 (hi64 o))

/-- Block 2: one gated component of block 1's vector output times `Wm2`. -/
theorem mix2_block (c : Fin 3) (v17 v38 : FVec Ideal S4000x64 .f32)
    (h17 : ∀ o, v17 (ix2 p o) = mix1 w r c (hi64 o)) (h38 : ∀ k, v38 (ix2 p k) = hid1 w r k) (e : Fin 2) :
    k0_pay12 (F := Ideal) v17 v38 w.W21 w.b21 w.Wm2 (ix2 p e) = mix2 w r c e := by
  unfold k0_pay12 mix2
  refine (matmul_row _ rfl rfl rfl rfl rfl rfl rfl rfl (some .fp32) _ _ p e).trans ?_
  refine congrArg (fun f => rowMul w.Wm2 f e) (funext fun k => ?_)
  show k0_pay11 (F := Ideal) v38 w.W21 w.b21 (ix2 p k) * v17 (ix2 p k) = vOut1 w r c k
  rw [gate1_block w r p v38 h38 k, h17 k]
  rfl

/-- Block 2: the second mixed column of one component. -/
theorem mix2_hi_block (c : Fin 3) (v17 v38 : FVec Ideal S4000x64 .f32)
    (h17 : ∀ o, v17 (ix2 p o) = mix1 w r c (hi64 o)) (h38 : ∀ k, v38 (ix2 p k) = hid1 w r k) :
    k0_pay15 (F := Ideal) v17 v38 w.W21 w.b21 w.Wm2 (ix2 p 0) = mix2 w r c 1 := by
  unfold k0_pay15
  exact (slice2_axis1_apply 1 _ _ p (0 : Fin 1) (1 : Fin 2) rfl).trans (mix2_block w r p c v17 v38 h17 h38 1)

/-- Block 2: the first mixed column of one component. -/
theorem mix2_lo_block (c : Fin 3) (v17 v38 : FVec Ideal S4000x64 .f32)
    (h17 : ∀ o, v17 (ix2 p o) = mix1 w r c (hi64 o)) (h38 : ∀ k, v38 (ix2 p k) = hid1 w r k)
    (h : S4000x2.Slices ![0, 0] S4000x1) :
    extractStridedSlice S4000x1 ![0, 0] (k0_pay12 (F := Ideal) v17 v38 w.W21 w.b21 w.Wm2) h (ix2 p 0) = mix2 w r c 0 :=
  (slice2_axis1_apply 0 _ h p (0 : Fin 1) (0 : Fin 2) rfl).trans (mix2_block w r p c v17 v38 h17 h38 0)

/-- Block 2's second layer before its bias: the hidden value times `W22`. -/
theorem lin2_block (v17 v19 v21 v38 : FVec Ideal S4000x64 .f32)
    (h17 : ∀ o, v17 (ix2 p o) = mix1 w r 0 (hi64 o)) (h19 : ∀ o, v19 (ix2 p o) = mix1 w r 1 (hi64 o))
    (h21 : ∀ o, v21 (ix2 p o) = mix1 w r 2 (hi64 o)) (h38 : ∀ k, v38 (ix2 p k) = hid1 w r k) (e : Fin 2) :
    k0_pay18 (F := Ideal) v17 v19 v21 v38 w.W21 w.b21 w.Wm2 w.W12 w.b12 w.W22 (ix2 p e)
      = rowMul w.W22 (fun _ : Fin 1 => hid2 w r) e := by
  unfold k0_pay18
  refine (matmul_row _ rfl rfl rfl rfl rfl rfl rfl rfl (some .fp32) _ _ p e).trans ?_
  refine congrArg (fun f => rowMul w.W22 f e) (funext fun k => ?_)
  have hk : k = 0 := Subsingleton.elim _ _
  subst hk
  unfold hid2
  refine congrArg silu ?_
  have e0 : extractStridedSlice S4000x1 ![0, 0] (k0_pay12 (F := Ideal) v17 v38 w.W21 w.b21 w.Wm2) slices_S4000x2_o0_0_S4000x1 (ix2 p 0)
      = mix2 w r 0 0 := mix2_lo_block w r p 0 v17 v38 h17 h38 _
  have e1 : extractStridedSlice S4000x1 ![0, 0] (k0_pay13 (F := Ideal) v19 v38 w.W21 w.b21 w.Wm2) slices_S4000x2_o0_0_S4000x1 (ix2 p 0)
      = mix2 w r 1 0 := mix2_lo_block w r p 1 v19 v38 h19 h38 _
  have e2 : extractStridedSlice S4000x1 ![0, 0] (k0_pay14 (F := Ideal) v21 v38 w.W21 w.b21 w.Wm2) slices_S4000x2_o0_0_S4000x1 (ix2 p 0)
      = mix2 w r 2 0 := mix2_lo_block w r p 2 v21 v38 h21 h38 _
  refine linear_row _ rfl rfl rfl rfl rfl rfl rfl rfl (some .fp32) _ _ w.b12 _ _ p 0 _ fun k => ?_
  change concatenate S4000x65 1 [⟨S4000x64, _⟩, ⟨S4000x1, _⟩] concatenates_S4000x64_S4000x1_S4000x65_d1 (ix2 p k) = _
  refine (cat65_row _ _ _ p k).trans ?_
  refine congrArg₂ (fun f g => cat65 f g k) (funext fun o => ?_) ?_
  · show silu (extractStridedSlice S4000x64 ![0, 0] (k0_pay10 (F := Ideal) v38 w.W21 w.b21) _ (ix2 p o)) = sOut1 w r o
    unfold sOut1
    exact congrArg silu ((slice2_axis1_apply 0 _ _ p o (lo64 o) (by show o.val = 0 + o.val; omega)).trans
      (lin1_block w r p v38 h38 (lo64 o)))
  · show Ideal.sqrt (_ * _ + _ * _ + _ * _) = nrm2 w r
    unfold nrm2 norm3
    rw [e0, e1, e2]

/-- Block 2's bias as one row. -/
theorem bias2_block (e : Fin 2) : k0_pay19 (F := Ideal) w.b22 (ix2 0 e) = w.b22 (ix1 e) := by
  unfold k0_pay19
  exact shapeCast_a_1a_apply w.b22 _ 0 e

/-- The head: the atom's three outputs. -/
theorem out_head (v1 : Vec Ideal S4000x3 .f32) (v59 v61 v63 : FVec Ideal S4000x1 .f32) (v81 : FVec Ideal S4000x2 .f32)
    (v82 : FVec Ideal S1x2 .f32)
    (h1 : ∀ j, v1 (ix2 p j) = r.pos j) (h59 : v59 (ix2 p 0) = mix2 w r 0 1) (h61 : v61 (ix2 p 0) = mix2 w r 1 1)
    (h63 : v63 (ix2 p 0) = mix2 w r 2 1) (h81 : ∀ e, v81 (ix2 p e) = rowMul w.W22 (fun _ : Fin 1 => hid2 w r) e)
    (h82 : ∀ e, v82 (ix2 0 e) = w.b22 (ix1 e)) (q : Fin 3) :
    k0_pay1 (F := Ideal) v1 v59 v61 v63 v81 v82 w.Wd1 w.bd1 w.Wd2 w.bd2 (ix2 p q) = out w r q := by
  have hlin : ∀ e : Fin 2, addf (F := Ideal) (φ := .f32) v81 (broadcastTo S4000x2 v82 broadcasts_S1x2_S4000x2) (ix2 p e)
      = lin2 w r e := fun e => by
    show v81 (ix2 p e) + broadcastTo S4000x2 v82 broadcasts_S1x2_S4000x2 (ix2 p e) = _
    rw [h81 e, broadcastTo_1b_ab_apply v82 _ p e, h82 e]
    rfl
  unfold k0_pay1 out
  refine linear_row _ rfl rfl rfl rfl rfl rfl rfl rfl (some .fp32) _ _ w.bd2 _ _ p q _ fun k => ?_
  show silu _ = hidD w r k
  unfold hidD
  refine congrArg silu ?_
  refine linear_row _ rfl rfl rfl rfl rfl rfl rfl rfl (some .fp32) _ _ w.bd1 _ _ p k _ fun j => ?_
  unfold feat
  have hg : extractStridedSlice S4000x1 ![0, 1] (addf (F := Ideal) (φ := .f32) v81 (broadcastTo S4000x2 v82 broadcasts_S1x2_S4000x2))
      slices_S4000x2_o0_1_S4000x1 (ix2 p 0) = lin2 w r 1 :=
    (slice2_axis1_apply 1 _ _ p (0 : Fin 1) (1 : Fin 2) rfl).trans (hlin 1)
  have hl0 : extractStridedSlice S4000x1 ![0, 0] (addf (F := Ideal) (φ := .f32) v81 (broadcastTo S4000x2 v82 broadcasts_S1x2_S4000x2))
      slices_S4000x2_o0_0_S4000x1 (ix2 p 0) = lin2 w r 0 :=
    (slice2_axis1_apply 0 _ _ p (0 : Fin 1) (0 : Fin 2) rfl).trans (hlin 0)
  change concatenate S4000x7 1 [⟨S4000x1, _⟩, ⟨S4000x1, _⟩, ⟨S4000x1, _⟩, ⟨S4000x3, _⟩, ⟨S4000x1, _⟩] concatenates_S4000x1_S4000x1_S4000x1_S4000x3_S4000x1_S4000x7_d1 (ix2 p j) = _
  refine (cat7_row _ _ _ _ _ _ p (vOut2 w r) ?_ ?_ ?_ j).trans ?_
  · show _ * v59 (ix2 p 0) = vOut2 w r 0
    rw [hg, h59]; rfl
  · show _ * v61 (ix2 p 0) = vOut2 w r 1
    rw [hg, h61]; rfl
  · show _ * v63 (ix2 p 0) = vOut2 w r 2
    rw [hg, h63]; rfl
  · rw [hl0]
    exact congrArg (fun f => cat7 (vOut2 w r) f (lin2 w r 0) j) (funext h1)

end Cert.KernelAtom

end
-- ==== Proof.KernelArray.lean ====
/-
  From the body at one row of a block to the whole output array.

  The call runs the body at 50 grid points; point `t` reads rows `4000 t … 4000 t + 3999` of the three per-atom
  arrays (scalar features, the vector features viewed as 384 columns, positions), the whole of every weight array,
  and writes rows `4000 t … 4000 t + 3999` of the output. Row `p` of what it writes is the one-atom function at
  atom `4000 t + p` (`Cert.KernelAtom`), and the 50 blocks tile the 200000 rows, so the output array ends holding
  the one-atom function of every atom.
-/
import proofs.«162249_j67070209295171_2_alg».proof.Proof.Gen.KernelIdeal.Frame
import proofs.«162249_j67070209295171_2_alg».proof.Proof.KernelAtom
import Idealize.ShloMosaic.Lib.ValueIdx
import Idealize.ShloMosaic.Lib.Pipeline.Value
import Idealize.ShloMosaic.Lib.StableHlo.Run

set_option maxRecDepth 16384

noncomputable section

namespace Cert.KernelArray

open Cert.KernelIdeal Cert.KernelIdeal.Gen Idealize.ShloMosaic Idealize.ShloMosaic.ValueIdx Idealize.ShloMosaic.Pipeline
open Cert.Atom Cert.KernelAtom

theorem hz2 : (![0, 0] : Fin 2 → Nat) = fun _ => 0 := funext fun a => by fin_cases a <;> rfl
theorem hz1 : (![0] : Fin 1 → Nat) = fun _ => 0 := funext fun a => by fin_cases a; rfl

/-- A load of 128 columns of the 384-column block starting at column `o`, at `(p, k)`: the block at `(p, o + k)`. -/
theorem ld_cols (x1 : Vec Ideal S4000x384 .f32) (o : Nat)
    (inb : ∀ a, (![0, o] : Fin 2 → Nat) a + S4000x128.size a ≤ S4000x384.size a) (p : Fin 4000) (k : Fin 128)
    (k' : Fin 384) (hk : k'.val = o + k.val) :
    View.ld x1 (Rect.unit (s := S4000x384) ![0, o] S4000x128.size inb) (ix2 p k) = x1 (ix2 p k') := by
  show x1 _ = x1 _
  congr 1
  funext a
  apply Fin.ext
  match a with
  | ⟨0, _⟩ => show 0 + 1 * p.val = p.val; omega
  | ⟨1, _⟩ => show o + 1 * k.val = k'.val; omega

/-! ## The body's result at row `p` of a block -/

/-- What the body leaves in the output block, at row `p`: the one-atom function of row `p` of the input blocks. -/
theorem out_block (w : Weights) (r : Row) (p : Fin 4000)
    (x0 : Vec Ideal S4000x128 .f32) (x1 : Vec Ideal S4000x384 .f32) (x2 : Vec Ideal S4000x3 .f32)
    (x3 : Vec Ideal S128x128 .f32) (x4 : Vec Ideal S192x64 .f32) (x5 : Vec Ideal S64 .f32) (x6 : Vec Ideal S64x128 .f32)
    (x7 : Vec Ideal S128 .f32) (x8 : Vec Ideal S64x2 .f32) (x9 : Vec Ideal S65x1 .f32) (x10 : Vec Ideal S1 .f32)
    (x11 : Vec Ideal S1x2 .f32) (x12 : Vec Ideal S2 .f32) (x13 : Vec Ideal S7x10 .f32) (x14 : Vec Ideal S10 .f32)
    (x15 : Vec Ideal S10x3 .f32) (x16 : Vec Ideal S3 .f32)
    (h0 : ∀ k, x0 (ix2 p k) = r.s k)
    (h1 : ∀ (c : Fin 3) (k : Fin 128) (k' : Fin 384), k'.val = 128 * c.val + k.val → x1 (ix2 p k') = r.v c k)
    (h2 : ∀ j, x2 (ix2 p j) = r.pos j)
    (e3 : x3 = w.Wm1) (e4 : x4 = w.W11) (e5 : x5 = w.b11) (e6 : x6 = w.W21) (e7 : x7 = w.b21) (e8 : x8 = w.Wm2)
    (e9 : x9 = w.W12) (e10 : x10 = w.b12) (e11 : x11 = w.W22) (e12 : x12 = w.b22) (e13 : x13 = w.Wd1)
    (e14 : x14 = w.bd1) (e15 : x15 = w.Wd2) (e16 : x16 = w.bd2) (q : Fin 3) :
    out0_17 (F := Ideal) x0 x1 x2 x3 x4 x5 x6 x7 x8 x9 x10 x11 x12 x13 x14 x15 x16 (ix2 p q) = out w r q := by
  subst e3 e4 e5 e6 e7 e8 e9 e10 e11 e12 e13 e14 e15 e16
  unfold out0_17
  rw [View.canon_unit_zero hz2]
  simp only [View.ld_unit_zero (S := S4000x128) hz2, View.ld_unit_zero (S := S4000x3) hz2,
    View.ld_unit_zero (S := S128x128) hz2, View.ld_unit_zero (S := S192x64) hz2, View.ld_unit_zero (S := S64) hz1,
    View.ld_unit_zero (S := S64x128) hz2, View.ld_unit_zero (S := S128) hz1, View.ld_unit_zero (S := S64x2) hz2,
    View.ld_unit_zero (S := S65x1) hz2, View.ld_unit_zero (S := S1) hz1, View.ld_unit_zero (S := S1x2) hz2,
    View.ld_unit_zero (S := S2) hz1, View.ld_unit_zero (S := S7x10) hz2, View.ld_unit_zero (S := S10) hz1,
    View.ld_unit_zero (S := S10x3) hz2, View.ld_unit_zero (S := S3) hz1]
  have hA : ∀ k, View.ld x1 r0_3 (ix2 p k) = r.v 0 k := fun k =>
    (ld_cols x1 0 _ p k ⟨k.val, by omega⟩ (by show k.val = 0 + k.val; omega)).trans
      (h1 0 k ⟨k.val, by omega⟩ (by show k.val = 128 * 0 + k.val; omega))
  have hB : ∀ k, View.ld x1 r0_4 (ix2 p k) = r.v 1 k := fun k =>
    (ld_cols x1 128 _ p k ⟨128 + k.val, by omega⟩ rfl).trans
      (h1 1 k ⟨128 + k.val, by omega⟩ (by show 128 + k.val = 128 * 1 + k.val; omega))
  have hC : ∀ k, View.ld x1 r0_5 (ix2 p k) = r.v 2 k := fun k =>
    (ld_cols x1 256 _ p k ⟨256 + k.val, by omega⟩ rfl).trans
      (h1 2 k ⟨256 + k.val, by omega⟩ (by show 256 + k.val = 128 * 2 + k.val; omega))
  have h38 : ∀ k, k0_pay9 (F := Ideal) x0 w.Wm1 (View.ld x1 r0_3) (View.ld x1 r0_4) (View.ld x1 r0_5) w.W11 w.b11 (ix2 p k)
      = hid1 w r k := hid1_block w r p x0 _ _ _ h0 hA hB hC
  have h17 : ∀ o, k0_pay6 (F := Ideal) w.Wm1 (View.ld x1 r0_3) (ix2 p o) = mix1 w r 0 (hi64 o) :=
    mix1_hi_block w r p 0 _ hA
  have h19 : ∀ o, k0_pay7 (F := Ideal) w.Wm1 (View.ld x1 r0_4) (ix2 p o) = mix1 w r 1 (hi64 o) :=
    mix1_hi_block w r p 1 _ hB
  have h21 : ∀ o, k0_pay8 (F := Ideal) w.Wm1 (View.ld x1 r0_5) (ix2 p o) = mix1 w r 2 (hi64 o) :=
    mix1_hi_block w r p 2 _ hC
  have h59 : k0_pay15 (F := Ideal) (k0_pay6 w.Wm1 (View.ld x1 r0_3))
      (k0_pay9 x0 w.Wm1 (View.ld x1 r0_3) (View.ld x1 r0_4) (View.ld x1 r0_5) w.W11 w.b11) w.W21 w.b21 w.Wm2 (ix2 p 0)
      = mix2 w r 0 1 := mix2_hi_block w r p 0 _ _ h17 h38
  have h61 : k0_pay16 (F := Ideal) (k0_pay7 w.Wm1 (View.ld x1 r0_4))
      (k0_pay9 x0 w.Wm1 (View.ld x1 r0_3) (View.ld x1 r0_4) (View.ld x1 r0_5) w.W11 w.b11) w.W21 w.b21 w.Wm2 (ix2 p 0)
      = mix2 w r 1 1 := mix2_hi_block w r p 1 _ _ h19 h38
  have h63 : k0_pay17 (F := Ideal) (k0_pay8 w.Wm1 (View.ld x1 r0_5))
      (k0_pay9 x0 w.Wm1 (View.ld x1 r0_3) (View.ld x1 r0_4) (View.ld x1 r0_5) w.W11 w.b11) w.W21 w.b21 w.Wm2 (ix2 p 0)
      = mix2 w r 2 1 := mix2_hi_block w r p 2 _ _ h21 h38
  exact out_head w r p x2 _ _ _ _ _ h2 h59 h61 h63 (lin2_block w r p _ _ _ _ h17 h19 h21 h38) (bias2_block w) q

variable (m : (ℓ : Loc nD τ sig) → Buf (Elt Ideal) ℓ)

/-! ## Where each window's block sits in its array -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)

/-- Window 3 stages the whole of its array at every point. -/
theorem blk3 (c : Dev nD) (t : Fin cfg0.N) : (iblk m c 3 t : S128x128.Idx → EReal) = V m c main_arg4 := by
  funext y
  show V m c main_arg4 (((cfg0.win 3).blk t).view.emb y) = V m c main_arg4 y
  congr 1
  funext a
  apply Fin.ext
  obtain ⟨e0, e1⟩ := idx3 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages the whole of its array at every point. -/
theorem blk4 (c : Dev nD) (t : Fin cfg0.N) : (iblk m c 4 t : S192x64.Idx → EReal) = V m c main_arg5 := by
  funext y
  show V m c main_arg5 (((cfg0.win 4).blk t).view.emb y) = V m c main_arg5 y
  congr 1
  funext a
  apply Fin.ext
  obtain ⟨e0, e1⟩ := idx4 t
  match a with
  | ⟨0, _⟩ => show win0_4.index t (0 : Fin 2) * 192 + 1 * (y 0).val = (y 0).val; omega
  | ⟨1, _⟩ => show win0_4.index t (1 : Fin 2) * 64 + 1 * (y 1).val = (y 1).val; omega

/-- Window 5 stages the whole of its array at every point. -/
theorem blk5 (c : Dev nD) (t : Fin cfg0.N) : (iblk m c 5 t : S64.Idx → EReal) = V m c main_arg6 := by
  funext y
  show V m c main_arg6 (((cfg0.win 5).blk t).view.emb y) = V m c main_arg6 y
  congr 1
  funext a
  apply Fin.ext
  obtain e0 := idx5 t
  match a with
  | ⟨0, _⟩ => show win0_5.index t (0 : Fin 1) * 64 + 1 * (y 0).val = (y 0).val; omega

/-- Window 6 stages the whole of its array at every point. -/
theorem blk6 (c : Dev nD) (t : Fin cfg0.N) : (iblk m c 6 t : S64x128.Idx → EReal) = V m c main_arg7 := by
  funext y
  show V m c main_arg7 (((cfg0.win 6).blk t).view.emb y) = V m c main_arg7 y
  congr 1
  funext a
  apply Fin.ext
  obtain ⟨e0, e1⟩ := idx6 t
  match a with
  | ⟨0, _⟩ => show win0_6.index t (0 : Fin 2) * 64 + 1 * (y 0).val = (y 0).val; omega
  | ⟨1, _⟩ => show win0_6.index t (1 : Fin 2) * 128 + 1 * (y 1).val = (y 1).val; omega

/-- Window 7 stages the whole of its array at every point. -/
theorem blk7 (c : Dev nD) (t : Fin cfg0.N) : (iblk m c 7 t : S128.Idx → EReal) = V m c main_arg8 := by
  funext y
  show V m c main_arg8 (((cfg0.win 7).blk t).view.emb y) = V m c main_arg8 y
  congr 1
  funext a
  apply Fin.ext
  obtain e0 := idx7 t
  match a with
  | ⟨0, _⟩ => show win0_7.index t (0 : Fin 1) * 128 + 1 * (y 0).val = (y 0).val; omega

/-- Window 8 stages the whole of its array at every point. -/
theorem blk8 (c : Dev nD) (t : Fin cfg0.N) : (iblk m c 8 t : S64x2.Idx → EReal) = V m c main_arg9 := by
  funext y
  show V m c main_arg9 (((cfg0.win 8).blk t).view.emb y) = V m c main_arg9 y
  congr 1
  funext a
  apply Fin.ext
  obtain ⟨e0, e1⟩ := idx8 t
  match a with
  | ⟨0, _⟩ => show win0_8.index t (0 : Fin 2) * 64 + 1 * (y 0).val = (y 0).val; omega
  | ⟨1, _⟩ => show win0_8.index t (1 : Fin 2) * 2 + 1 * (y 1).val = (y 1).val; omega

/-- Window 9 stages the whole of its array at every point. -/
theorem blk9 (c : Dev nD) (t : Fin cfg0.N) : (iblk m c 9 t : S65x1.Idx → EReal) = V m c main_arg10 := by
  funext y
  show V m c main_arg10 (((cfg0.win 9).blk t).view.emb y) = V m c main_arg10 y
  congr 1
  funext a
  apply Fin.ext
  obtain ⟨e0, e1⟩ := idx9 t
  match a with
  | ⟨0, _⟩ => show win0_9.index t (0 : Fin 2) * 65 + 1 * (y 0).val = (y 0).val; omega
  | ⟨1, _⟩ => show win0_9.index t (1 : Fin 2) * 1 + 1 * (y 1).val = (y 1).val; omega

/-- Window 10 stages the whole of its array at every point. -/
theorem blk10 (c : Dev nD) (t : Fin cfg0.N) : (iblk m c 10 t : S1.Idx → EReal) = V m c main_arg11 := by
  funext y
  show V m c main_arg11 (((cfg0.win 10).blk t).view.emb y) = V m c main_arg11 y
  congr 1
  funext a
  apply Fin.ext
  obtain e0 := idx10 t
  match a with
  | ⟨0, _⟩ => show win0_10.index t (0 : Fin 1) * 1 + 1 * (y 0).val = (y 0).val; omega

/-- Window 11 stages the whole of its array at every point. -/
theorem blk11 (c : Dev nD) (t : Fin cfg0.N) : (iblk m c 11 t : S1x2.Idx → EReal) = V m c main_arg12 := by
  funext y
  show V m c main_arg12 (((cfg0.win 11).blk t).view.emb y) = V m c main_arg12 y
  congr 1
  funext a
  apply Fin.ext
  obtain ⟨e0, e1⟩ := idx11 t
  match a with
  | ⟨0, _⟩ => show win0_11.index t (0 : Fin 2) * 1 + 1 * (y 0).val = (y 0).val; omega
  | ⟨1, _⟩ => show win0_11.index t (1 : Fin 2) * 2 + 1 * (y 1).val = (y 1).val; omega

/-- Window 12 stages the whole of its array at every point. -/
theorem blk12 (c : Dev nD) (t : Fin cfg0.N) : (iblk m c 12 t : S2.Idx → EReal) = V m c main_arg13 := by
  funext y
  show V m c main_arg13 (((cfg0.win 12).blk t).view.emb y) = V m c main_arg13 y
  congr 1
  funext a
  apply Fin.ext
  obtain e0 := idx12 t
  match a with
  | ⟨0, _⟩ => show win0_12.index t (0 : Fin 1) * 2 + 1 * (y 0).val = (y 0).val; omega

/-- Window 13 stages the whole of its array at every point. -/
theorem blk13 (c : Dev nD) (t : Fin cfg0.N) : (iblk m c 13 t : S7x10.Idx → EReal) = V m c main_arg14 := by
  funext y
  show V m c main_arg14 (((cfg0.win 13).blk t).view.emb y) = V m c main_arg14 y
  congr 1
  funext a
  apply Fin.ext
  obtain ⟨e0, e1⟩ := idx13 t
  match a with
  | ⟨0, _⟩ => show win0_13.index t (0 : Fin 2) * 7 + 1 * (y 0).val = (y 0).val; omega
  | ⟨1, _⟩ => show win0_13.index t (1 : Fin 2) * 10 + 1 * (y 1).val = (y 1).val; omega

/-- Window 14 stages the whole of its array at every point. -/
theorem blk14 (c : Dev nD) (t : Fin cfg0.N) : (iblk m c 14 t : S10.Idx → EReal) = V m c main_arg15 := by
  funext y
  show V m c main_arg15 (((cfg0.win 14).blk t).view.emb y) = V m c main_arg15 y
  congr 1
  funext a
  apply Fin.ext
  obtain e0 := idx14 t
  match a with
  | ⟨0, _⟩ => show win0_14.index t (0 : Fin 1) * 10 + 1 * (y 0).val = (y 0).val; omega

/-- Window 15 stages the whole of its array at every point. -/
theorem blk15 (c : Dev nD) (t : Fin cfg0.N) : (iblk m c 15 t : S10x3.Idx → EReal) = V m c main_arg16 := by
  funext y
  show V m c main_arg16 (((cfg0.win 15).blk t).view.emb y) = V m c main_arg16 y
  congr 1
  funext a
  apply Fin.ext
  obtain ⟨e0, e1⟩ := idx15 t
  match a with
  | ⟨0, _⟩ => show win0_15.index t (0 : Fin 2) * 10 + 1 * (y 0).val = (y 0).val; omega
  | ⟨1, _⟩ => show win0_15.index t (1 : Fin 2) * 3 + 1 * (y 1).val = (y 1).val; omega

/-- Window 16 stages the whole of its array at every point. -/
theorem blk16 (c : Dev nD) (t : Fin cfg0.N) : (iblk m c 16 t : S3.Idx → EReal) = V m c main_arg17 := by
  funext y
  show V m c main_arg17 (((cfg0.win 16).blk t).view.emb y) = V m c main_arg17 y
  congr 1
  funext a
  apply Fin.ext
  obtain e0 := idx16 t
  match a with
  | ⟨0, _⟩ => show win0_16.index t (0 : Fin 1) * 3 + 1 * (y 0).val = (y 0).val; omega

/-- Window 0's block at point `t` is rows `4000 t … 4000 t + 3999` of its array. -/
theorem blk0 (c : Dev nD) (t : Fin cfg0.N) (p : Fin 4000) (k : Fin 128) (n : Fin 200000) (hn : n.val = 4000 * t.val + p.val) :
    iblk m c 0 t (ix2 p k) = V m c main_arg1 (ix2 n k) := by
  show V m c main_arg1 (((cfg0.win 0).blk t).view.emb (ix2 p k)) = _
  congr 1
  funext a
  apply Fin.ext
  obtain ⟨e0, e1⟩ := idx0 t
  match a with
  | ⟨0, _⟩ => show win0_0.index t (0 : Fin 2) * 4000 + 1 * p.val = n.val; omega
  | ⟨1, _⟩ => show win0_0.index t (1 : Fin 2) * 128 + 1 * k.val = k.val; omega

/-- Window 1's block at point `t` is rows `4000 t … 4000 t + 3999` of its array. -/
theorem blk1 (c : Dev nD) (t : Fin cfg0.N) (p : Fin 4000) (k : Fin 384) (n : Fin 200000) (hn : n.val = 4000 * t.val + p.val) :
    iblk m c 1 t (ix2 p k) = V m c main_v0 (ix2 n k) := by
  show V m c main_v0 (((cfg0.win 1).blk t).view.emb (ix2 p k)) = _
  congr 1
  funext a
  apply Fin.ext
  obtain ⟨e0, e1⟩ := idx1 t
  match a with
  | ⟨0, _⟩ => show win0_1.index t (0 : Fin 2) * 4000 + 1 * p.val = n.val; omega
  | ⟨1, _⟩ => show win0_1.index t (1 : Fin 2) * 384 + 1 * k.val = k.val; omega

/-- Window 2's block at point `t` is rows `4000 t … 4000 t + 3999` of its array. -/
theorem blk2 (c : Dev nD) (t : Fin cfg0.N) (p : Fin 4000) (k : Fin 3) (n : Fin 200000) (hn : n.val = 4000 * t.val + p.val) :
    iblk m c 2 t (ix2 p k) = V m c main_arg0 (ix2 n k) := by
  show V m c main_arg0 (((cfg0.win 2).blk t).view.emb (ix2 p k)) = _
  congr 1
  funext a
  apply Fin.ext
  obtain ⟨e0, e1⟩ := idx2 t
  match a with
  | ⟨0, _⟩ => show win0_2.index t (0 : Fin 2) * 4000 + 1 * p.val = n.val; omega
  | ⟨1, _⟩ => show win0_2.index t (1 : Fin 2) * 3 + 1 * k.val = k.val; omega

/-! ## The whole output array -/

/-- The weights as the memory `m` holds them on core `c`. -/
def wts (c : Dev nD) : Weights :=
  ⟨m ((c.tc : Thread nD τ).loc main_arg4), m ((c.tc : Thread nD τ).loc main_arg5), m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11), m ((c.tc : Thread nD τ).loc main_arg12), m ((c.tc : Thread nD τ).loc main_arg13),
   m ((c.tc : Thread nD τ).loc main_arg14), m ((c.tc : Thread nD τ).loc main_arg15), m ((c.tc : Thread nD τ).loc main_arg16), m ((c.tc : Thread nD τ).loc main_arg17)⟩

/-- Atom `n`'s inputs as the memory `m` holds them on core `c`. -/
def rowAt (c : Dev nD) (n : Fin 200000) : Row :=
  ⟨fun k => m ((c.tc : Thread nD τ).loc main_arg1) (ix2 n k), fun cc k => m ((c.tc : Thread nD τ).loc main_arg2) (ix3 n cc k), fun j => m ((c.tc : Thread nD τ).loc main_arg0) (ix2 n j)⟩

/-- The [200000, 3] array of every atom's three outputs. -/
def G (c : Dev nD) : S200000x3.Idx → EReal := fun i => out (wts m c) (rowAt m c (i 0)) (i 1)

/-- The vector features viewed as 384 columns: column `128 c + k` of row `n` is entry `(n, c, k)`. -/
theorem flat_apply (X : S200000x3x128.Idx → EReal) (h : S200000x3x128.ShapeCasts S200000x384) (n : Fin 200000) (cc : Fin 3)
    (k : Fin 128) (k' : Fin 384) (hk : k'.val = 128 * cc.val + k.val) :
    shapeCast S200000x384 X h (ix2 n k') = X (ix3 n cc k) :=
  shapeCast_apply X h _ _ (by
    rw [Shape.rowMajor_val_two, Shape.rowMajor_val_three]
    show (n.val * 3 + cc.val) * 128 + k.val = n.val * 384 + k'.val
    omega)

/-- The 384-column array the call reads is the reshaped vector features. -/
theorem V_flat (c : Dev nD) : (V m c main_v0 : S200000x384.Idx → EReal)
    = shapeCast S200000x384 (m ((c.tc : Thread nD τ).loc main_arg2)) shapeCasts_S200000x3x128_S200000x384 := by
  show StableHlo.after hostOps0 (fun b => m (c, b)) (Proc.devRef .tc main_v0) = _
  after_results
  rfl

/-- WHAT POINT `t` WRITES BACK is block `t` of `G`. -/
theorem flushed_eq (c : Dev nD) (t : Fin cfg0.N) :
    (dats m 0 c).flushed 17 t = ((cfg0.win 17).blk t).view.read (Elt Ideal) (G m c) := by
  show (cfg0.win 17).cut (grid0.coords t) ((dats m 0 c).after 17 t) = _
  rw [after0_17]
  refine funext fun (y : S4000x3.Idx) => ?_
  have ht : t.val < 50 := t.isLt
  obtain ⟨p, q, rfl⟩ : ∃ (p : Fin 4000) (q : Fin 3), y = ix2 p q := ⟨y 0, y 1, eq_ix2 y⟩
  let n : Fin 200000 := ⟨4000 * t.val + p.val, by have := p.isLt; omega⟩
  have hemb : ((cfg0.win 17).blk t).view.emb (ix2 p q) = ix2 n q := by
    funext a
    apply Fin.ext
    obtain ⟨e0, e1⟩ := idx17 t
    match a with
    | ⟨0, _⟩ => show win0_17.index t (0 : Fin 2) * 4000 + 1 * p.val = 4000 * t.val + p.val; omega
    | ⟨1, _⟩ => show win0_17.index t (1 : Fin 2) * 3 + 1 * q.val = q.val; omega
  show _ = G m c (((cfg0.win 17).blk t).view.emb (ix2 p q))
  rw [hemb]
  show _ = out (wts m c) (rowAt m c n) q
  exact out_block (wts m c) (rowAt m c n) p (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t)
    (fun k => (blk0 m c t p k n rfl).trans (congrFun (V_main_arg1 m c) _))
    (fun cc k k' hk => (blk1 m c t p k' n rfl).trans ((congrFun (V_flat m c) _).trans (flat_apply _ _ n cc k k' hk)))
    (fun j => (blk2 m c t p j n rfl).trans (congrFun (V_main_arg0 m c) _))
    ((blk3 m c t).trans (V_main_arg4 m c)) ((blk4 m c t).trans (V_main_arg5 m c)) ((blk5 m c t).trans (V_main_arg6 m c))
    ((blk6 m c t).trans (V_main_arg7 m c)) ((blk7 m c t).trans (V_main_arg8 m c)) ((blk8 m c t).trans (V_main_arg9 m c))
    ((blk9 m c t).trans (V_main_arg10 m c)) ((blk10 m c t).trans (V_main_arg11 m c)) ((blk11 m c t).trans (V_main_arg12 m c))
    ((blk12 m c t).trans (V_main_arg13 m c)) ((blk13 m c t).trans (V_main_arg14 m c)) ((blk14 m c t).trans (V_main_arg15 m c))
    ((blk15 m c t).trans (V_main_arg16 m c)) ((blk16 m c t).trans (V_main_arg17 m c)) q

/-- An index of the output array is in point `t`'s block iff each coordinate is in the block's range on its axis. -/
theorem mem_blk (t : Fin cfg0.N) (i : S200000x3.Idx) :
    i ∈ ((cfg0.win 17).blk t).view.set ↔ ∀ a : Fin 2, win0_17.index t a * S4000x3.size a ≤ (i a).val
      ∧ (i a).val < win0_17.index t a * S4000x3.size a + S4000x3.size a := by
  show i ∈ ((View.whole main_v1).slice (win0_17.rect t)).set ↔ _
  rw [View.set_slice_whole, Rect.mem_set_unit]
  exact Iff.rfl

/-- The 50 blocks tile the rows: row `r` is in the block of point `r / 4000`. -/
theorem cover (i : S200000x3.Idx) :
    ∃ t : Fin cfg0.N, (cfg0.win 17).flush t = true ∧ i ∈ ((cfg0.win 17).blk t).view.set := by
  have hi0 : (i 0).val < 200000 := (i 0).isLt
  have hi1 : (i 1).val < 3 := (i 1).isLt
  let t : Fin cfg0.N := ⟨(i 0).val / 4000, by show _ < 50; omega⟩
  have htv : t.val = (i 0).val / 4000 := rfl
  refine ⟨t, flush0_17 t, ?_⟩
  rw [mem_blk]
  obtain ⟨e0, e1⟩ := idx17 t
  intro a
  match a with
  | ⟨0, _⟩ =>
    show win0_17.index t (0 : Fin 2) * 4000 ≤ (i 0).val ∧ (i 0).val < win0_17.index t (0 : Fin 2) * 4000 + 4000
    omega
  | ⟨1, _⟩ =>
    show win0_17.index t (1 : Fin 2) * 3 ≤ (i 1).val ∧ (i 1).val < win0_17.index t (1 : Fin 2) * 3 + 3
    omega

/-- THE OUTPUT ARRAY after the call: every atom's three outputs. -/
theorem final (c : Dev nD) : (dats m 0 c).arrAt 17 cfg0.N = G m c :=
  (dats m 0 c).arrAt_eq_of_cover 17 (G m c) (fun t _ => flushed_eq m c t) cover

/-! ## The kernel's run -/

/-- The result buffer after the reshape that follows the call: the output array laid out flat. -/
theorem result_eq (c : Dev nD) :
    Pipeline.afterTail₀ cfgs (dats m) 0 (V0 m) [hostOps1] c main_v2
      = shapeCast S600000 (G m c) shapeCasts_S200000x3_S600000 := by
  unfold Pipeline.afterTail₀
  show StableHlo.after hostOps1 _ (Proc.devRef .tc main_v2) = _
  after_results
  have hw : withArrays (cfgs 0).spec c (V0 m c) (fun w => (dats m 0 c).arrAt w (cfgs 0).N) (Proc.tc.devRef main_v1) = G m c :=
    (Pipeline.withArrays_arr spec0 launch0.win.arr_inj c _ _ 17).trans (final m c)
  funext i
  show shapeCast S600000 (withArrays (cfgs 0).spec c (V0 m c) (fun w => (dats m 0 c).arrAt w (cfgs 0).N) (Proc.tc.devRef main_v1))
      shapeCasts_S200000x3_S600000 i = _
  rw [hw]

variable (ρ : Dev nD → PrngReg)

set_option maxHeartbeats 4000000 in
/-- Every weakly fair execution of the kernel program ends with the result at the flat array of every atom's outputs
    and the arguments unchanged. -/
theorem run : θ_run defs (onTc (τ := τ) (main (F := Ideal))) ⟨m, fun _ => 0, ρ⟩ (fun r => ∀ c : Dev nD,
      r.2.mem ((c.tc : Thread nD τ).loc main_v2) = shapeCast S600000 (G m c) shapeCasts_S200000x3_S600000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).2 main_v2 (Pipeline.mem_restRefs_of main_v2 (by decide) (by decide))).trans (result_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c)))⟩)
    (run_main m ρ)

end Cert.KernelArray

end
-- ==== Proof.RefAtom.lean ====
/-
  The reference program, read one atom at a time.

  The reference works on whole arrays: every operation takes arrays with 200000 rows and returns one. None of its
  operations mixes rows: a product with a weight matrix contracts the last axis only, a bias is the same for every
  row, the norm sums the three vector components of ONE row, slices and joins act on the columns of a row, and the
  activation is entrywise. So entry `(n, q)` of the last two-dimensional array is a function of row `n` of the three
  input arrays and of the weights. This module proves that this function is `Cert.Atom.out`: one lemma per stage of
  `Cert.Atom`, each reading the array the reference has at that stage at row `n` and explicit column coordinates,
  each resting on the lemma of the stage before.

  Nothing here needs an entry to be finite: each step is the definition of an operation at an index, an equation
  between two index tuples, `0 + x = x`, or the expansion of a three-term sum.
-/
import proofs.«162249_j67070209295171_2_alg».proof.Proof.RefReadP
import proofs.«162249_j67070209295171_2_alg».proof.Proof.Atom
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.RefAtom

open Cert.ReferenceIdeal Cert.ReferenceIdeal.Gen Cert.ReferenceIdeal.ReadP Idealize.ShloMosaic Idealize.ShloMosaic.TcCoe
  Idealize.ShloMosaic.ValueIdx Idealize.ShloMosaic.StableHlo

/-! ## Index tuples with equal coordinates are equal -/

theorem ext1 {a : Nat} (i j : (⟨1, ![a]⟩ : Shape).Idx) (h0 : (i 0).val = (j 0).val) : i = j :=
  funext fun d => Fin.ext (by match d with | ⟨0, _⟩ => exact h0)

theorem ext2 {a b : Nat} (i j : (⟨2, ![a, b]⟩ : Shape).Idx) (h0 : (i 0).val = (j 0).val) (h1 : (i 1).val = (j 1).val) :
    i = j :=
  funext fun d => Fin.ext (by match d with | ⟨0, _⟩ => exact h0 | ⟨1, _⟩ => exact h1)

theorem ext3 {a b c : Nat} (i j : (⟨3, ![a, b, c]⟩ : Shape).Idx) (h0 : (i 0).val = (j 0).val)
    (h1 : (i 1).val = (j 1).val) (h2 : (i 2).val = (j 2).val) : i = j :=
  funext fun d => Fin.ext (by match d with | ⟨0, _⟩ => exact h0 | ⟨1, _⟩ => exact h1 | ⟨2, _⟩ => exact h2)

/-! ## The two pieces of arithmetic the reference spells out -/

/-- The reference's activation, `x * (1 / (1 + exp (-x)))` with both ones the pattern of `1.0`, is `silu`. -/
theorem silu_host (y : EReal) :
    FloatOps.mulf (F := Ideal) (φ := .f32) y
      (FloatOps.hostDivf (FloatOps.ofBits .f32 0x3F800000#32)
        (FloatOps.addf (FloatOps.ofBits .f32 0x3F800000#32) (FloatOps.hostUnary .exp (FloatOps.hostNegf y))))
      = Atom.silu y := by
  simp only [Ideal.mulf_def, Ideal.hostDivf_def, Ideal.addf_def, Ideal.hostUnary_exp_def, Ideal.hostNegf_def,
    Ideal.negf_def, Ideal.ofBits_def, Atom.ofBits_one]
  exact (Atom.silu_eq y).symm

/-- The reference's norm, the root of `0 + (a² + b² + c²)` with the zero the pattern of `0.0`, is `norm3`. -/
theorem norm_host (a b c : EReal) :
    FloatOps.hostUnary (F := Ideal) (φ := .f32) .sqrt
      (FloatOps.ofBits .f32 0x00000000#32 + (FloatOps.mulf a a + FloatOps.mulf b b + FloatOps.mulf c c))
      = Atom.norm3 a b c := by
  simp only [Ideal.hostUnary_sqrt_def, Ideal.ofBits_def, Ideal.ofBits_zero_f32, zero_add, Ideal.mulf_def]
  rfl

/-! ## The biases: a vector laid along the columns of every row -/

theorem b11_at (b : (⟨S64, .f32⟩ : BufTy).Contents (Elt Ideal)) (n : Fin 200000) (o : Fin 64) :
    val_main_v7 (F := Ideal) b (ix2 n o) = b (ix1 o) := by
  rw [val_main_v7_apply, val_main_v6_apply]
  exact congrArg b (ext1 _ _ rfl)

theorem b21_at (b : (⟨S128, .f32⟩ : BufTy).Contents (Elt Ideal)) (n : Fin 200000) (o : Fin 128) :
    val_main_v12 (F := Ideal) b (ix2 n o) = b (ix1 o) := by
  rw [val_main_v12_apply, val_main_v11_apply]
  exact congrArg b (ext1 _ _ rfl)

theorem b12_at (b : (⟨S1, .f32⟩ : BufTy).Contents (Elt Ideal)) (n : Fin 200000) (z : Fin 1) :
    val_main_v27 (F := Ideal) b (ix2 n z) = b (ix1 0) := by
  rw [val_main_v27_apply, val_main_v26_apply]
  exact congrArg b (ext1 _ _ rfl)

theorem b22_at (b : (⟨S2, .f32⟩ : BufTy).Contents (Elt Ideal)) (n : Fin 200000) (e : Fin 2) :
    val_main_v32 (F := Ideal) b (ix2 n e) = b (ix1 e) := by
  rw [val_main_v32_apply, val_main_v31_apply]
  exact congrArg b (ext1 _ _ rfl)

theorem bd1_at (b : (⟨S10, .f32⟩ : BufTy).Contents (Elt Ideal)) (n : Fin 200000) (k : Fin 10) :
    val_main_v43 (F := Ideal) b (ix2 n k) = b (ix1 k) := by
  rw [val_main_v43_apply, val_main_v42_apply]
  exact congrArg b (ext1 _ _ rfl)

theorem bd2_at (b : (⟨S3, .f32⟩ : BufTy).Contents (Elt Ideal)) (n : Fin 200000) (q : Fin 3) :
    val_main_v48 (F := Ideal) b (ix2 n q) = b (ix1 q) := by
  rw [val_main_v48_apply, val_main_v47_apply]
  exact congrArg b (ext1 _ _ rfl)

/-! ## The arguments -/

/-- The reference's arguments (all but the unused index table), as one record. -/
structure Args where
  x0 : (⟨S200000x3, .f32⟩ : BufTy).Contents (Elt Ideal)
  x1 : (⟨S200000x128, .f32⟩ : BufTy).Contents (Elt Ideal)
  x2 : (⟨S200000x3x128, .f32⟩ : BufTy).Contents (Elt Ideal)
  x4 : (⟨S128x128, .f32⟩ : BufTy).Contents (Elt Ideal)
  x5 : (⟨S192x64, .f32⟩ : BufTy).Contents (Elt Ideal)
  x6 : (⟨S64, .f32⟩ : BufTy).Contents (Elt Ideal)
  x7 : (⟨S64x128, .f32⟩ : BufTy).Contents (Elt Ideal)
  x8 : (⟨S128, .f32⟩ : BufTy).Contents (Elt Ideal)
  x9 : (⟨S64x2, .f32⟩ : BufTy).Contents (Elt Ideal)
  x10 : (⟨S65x1, .f32⟩ : BufTy).Contents (Elt Ideal)
  x11 : (⟨S1, .f32⟩ : BufTy).Contents (Elt Ideal)
  x12 : (⟨S1x2, .f32⟩ : BufTy).Contents (Elt Ideal)
  x13 : (⟨S2, .f32⟩ : BufTy).Contents (Elt Ideal)
  x14 : (⟨S7x10, .f32⟩ : BufTy).Contents (Elt Ideal)
  x15 : (⟨S10, .f32⟩ : BufTy).Contents (Elt Ideal)
  x16 : (⟨S10x3, .f32⟩ : BufTy).Contents (Elt Ideal)
  x17 : (⟨S3, .f32⟩ : BufTy).Contents (Elt Ideal)

variable (A : Args)

/-- The weight and bias arguments as the per-atom function's record of weights. -/
abbrev wts : Atom.Weights :=
  ⟨A.x4, A.x5, A.x6, A.x7, A.x8, A.x9, A.x10, A.x11, A.x12, A.x13, A.x14, A.x15, A.x16, A.x17⟩

/-- Row `n` of the three per-atom arguments as the per-atom function's record of inputs. -/
abbrev row (n : Fin 200000) : Atom.Row :=
  ⟨fun k => A.x1 (ix2 n k), fun c k => A.x2 (ix3 n c k), fun j => A.x0 (ix2 n j)⟩

/-! ## Block 1 -/

/-- The vector features of atom `n`, component `c`, times the mixing matrix. -/
theorem mix1_at (n : Fin 200000) (c : Fin 3) (o : Fin 128) :
    val_main_v0 (F := Ideal) A.x2 A.x4 (ix3 n c o) = Atom.mix1 (wts A) (row A n) c o := by
  rw [val_main_v0_apply]
  show _ = ∑ k : Fin 128, A.x2 (ix3 n c k) * A.x4 (ix2 k o)
  refine Finset.sum_congr rfl fun k _ => ?_
  rw [show lidx_main_v0 (ix3 n c o) k = ix3 n c k from ext3 _ _ rfl rfl rfl,
    show ridx_main_v0 (ix3 n c o) k = ix2 k o from ext2 _ _ rfl rfl]

/-- The first 64 mixed columns. -/
theorem mix1_lo_at (n : Fin 200000) (c : Fin 3) (o : Fin 64) :
    val_main_v1 (F := Ideal) A.x2 A.x4 (ix3 n c o) = Atom.mix1 (wts A) (row A n) c (Atom.lo64 o) := by
  rw [val_main_v1_apply, show idx_main_v1 (ix3 n c o) = ix3 n c (Atom.lo64 o) from ext3 _ _ rfl rfl rfl, mix1_at A]

/-- The last 64 mixed columns. -/
theorem mix1_hi_at (n : Fin 200000) (c : Fin 3) (o : Fin 64) :
    val_main_v2 (F := Ideal) A.x2 A.x4 (ix3 n c o) = Atom.mix1 (wts A) (row A n) c (Atom.hi64 o) := by
  rw [val_main_v2_apply, show idx_main_v2 (ix3 n c o) = ix3 n c (Atom.hi64 o) from ext3 _ _ rfl rfl rfl, mix1_at A]

/-- The norm over the three components. -/
theorem nrm1_at (n : Fin 200000) (o : Fin 64) :
    val_main_v3 (F := Ideal) A.x2 A.x4 (ix2 n o) = Atom.nrm1 (wts A) (row A n) o := by
  rw [val_main_v3_apply, val_main_call0_v1_apply, val_main_call0_cst_apply, Fin.sum_univ_three,
    show idx_main_call0_v1 (ix2 n o) 0 = ix3 n 0 o from ext3 _ _ rfl rfl rfl,
    show idx_main_call0_v1 (ix2 n o) 1 = ix3 n 1 o from ext3 _ _ rfl rfl rfl,
    show idx_main_call0_v1 (ix2 n o) 2 = ix3 n 2 o from ext3 _ _ rfl rfl rfl,
    val_main_call0_v0_apply, val_main_call0_v0_apply, val_main_call0_v0_apply,
    mix1_lo_at A, mix1_lo_at A, mix1_lo_at A]
  exact norm_host _ _ _

/-- The scalar features followed by the norms. -/
theorem cat1_at (n : Fin 200000) (j : Fin 192) :
    val_main_v4 (F := Ideal) A.x1 A.x2 A.x4 (ix2 n j)
      = Atom.cat192 (fun k => A.x1 (ix2 n k)) (Atom.nrm1 (wts A) (row A n)) j := by
  unfold val_main_v4 Atom.cat192
  split
  · next h =>
    exact concatenate_pair_apply_left (t := S200000x192) (s₁ := S200000x128) (s₂ := S200000x64) (1 : Fin 2)
      A.x1 (val_main_v3 (F := Ideal) A.x2 A.x4) concatenates_S200000x128_S200000x64_S200000x192_d1
      (ix2 n j) rfl (ix2 n (⟨j.val, h⟩ : Fin 128)) (fun b => by
        match b with
        | ⟨0, _⟩ => rfl
        | ⟨1, _⟩ => rfl)
  · next h =>
    refine (concatenate_pair_apply_right (t := S200000x192) (s₁ := S200000x128) (s₂ := S200000x64) (1 : Fin 2)
      A.x1 (val_main_v3 (F := Ideal) A.x2 A.x4) concatenates_S200000x128_S200000x64_S200000x192_d1
      (ix2 n j) rfl rfl (ix2 n (⟨j.val - 128, by omega⟩ : Fin 64)) (fun b hb => by
        match b with
        | ⟨0, _⟩ => rfl
        | ⟨1, _⟩ => exact absurd rfl hb) (by show j.val - 128 + 128 = j.val; omega)).trans ?_
    exact nrm1_at A n _

/-- The hidden layer before its activation. -/
theorem pre1_at (n : Fin 200000) (o : Fin 64) :
    val_main_v8 (F := Ideal) A.x1 A.x2 A.x4 A.x5 A.x6 (ix2 n o)
      = Atom.rowMul A.x5 (Atom.cat192 (fun k => A.x1 (ix2 n k)) (Atom.nrm1 (wts A) (row A n))) o + A.x6 (ix1 o) := by
  rw [val_main_v8_apply, b11_at, val_main_v5_apply, Ideal.addf_def]
  show _ = (∑ k : Fin 192, Atom.cat192 (fun k => A.x1 (ix2 n k)) (Atom.nrm1 (wts A) (row A n)) k * A.x5 (ix2 k o))
      + A.x6 (ix1 o)
  refine congrArg₂ (· + ·) (Finset.sum_congr rfl fun k _ => ?_) rfl
  rw [show lidx_main_v5 (ix2 n o) k = ix2 n k from ext2 _ _ rfl rfl,
    show ridx_main_v5 (ix2 n o) k = ix2 k o from ext2 _ _ rfl rfl, cat1_at A]

/-- The hidden layer. -/
theorem hid1_at (n : Fin 200000) (o : Fin 64) :
    val_main_v9 (F := Ideal) A.x1 A.x2 A.x4 A.x5 A.x6 (ix2 n o) = Atom.hid1 (wts A) (row A n) o := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, pre1_at A]
  exact silu_host _

/-- The second layer. -/
theorem lin1_at (n : Fin 200000) (o : Fin 128) :
    val_main_v13 (F := Ideal) A.x1 A.x2 A.x4 A.x5 A.x6 A.x7 A.x8 (ix2 n o) = Atom.lin1 (wts A) (row A n) o := by
  rw [val_main_v13_apply, b21_at, val_main_v10_apply, Ideal.addf_def]
  show _ = (∑ k : Fin 64, Atom.hid1 (wts A) (row A n) k * A.x7 (ix2 k o)) + A.x8 (ix1 o)
  refine congrArg₂ (· + ·) (Finset.sum_congr rfl fun k _ => ?_) rfl
  rw [show lidx_main_v10 (ix2 n o) k = ix2 n k from ext2 _ _ rfl rfl,
    show ridx_main_v10 (ix2 n o) k = ix2 k o from ext2 _ _ rfl rfl, hid1_at A]

/-- The second layer's first 64 columns, activated: the scalar output. -/
theorem sOut1_at (n : Fin 200000) (o : Fin 64) :
    val_main_v19 (F := Ideal) A.x1 A.x2 A.x4 A.x5 A.x6 A.x7 A.x8 (ix2 n o) = Atom.sOut1 (wts A) (row A n) o := by
  rw [val_main_v19_apply, val_main_call2_v5_apply, val_main_call2_v4_apply, val_main_call2_cst_0_apply,
    val_main_call2_v3_apply, val_main_call2_v2_apply, val_main_call2_cst_apply, val_main_call2_v1_apply,
    val_main_call2_v0_apply, val_main_v14_apply,
    show idx_main_v14 (ix2 n o) = ix2 n (Atom.lo64 o) from ext2 _ _ rfl rfl, lin1_at A]
  exact silu_host _

/-- The second layer's last 64 columns: the gate. -/
theorem gate1_at (n : Fin 200000) (o : Fin 64) :
    val_main_v15 (F := Ideal) A.x1 A.x2 A.x4 A.x5 A.x6 A.x7 A.x8 (ix2 n o) = Atom.gate1 (wts A) (row A n) o := by
  rw [val_main_v15_apply, show idx_main_v15 (ix2 n o) = ix2 n (Atom.hi64 o) from ext2 _ _ rfl rfl, lin1_at A]
  rfl

/-- The gated vector output. -/
theorem vOut1_at (n : Fin 200000) (c : Fin 3) (o : Fin 64) :
    val_main_v18 (F := Ideal) A.x1 A.x2 A.x4 A.x5 A.x6 A.x7 A.x8 (ix3 n c o) = Atom.vOut1 (wts A) (row A n) c o := by
  rw [val_main_v18_apply, val_main_v17_apply, val_main_v16_apply,
    show idx_main_v16 (idx_main_v17 (ix3 n c o)) = ix2 n o from ext2 _ _ rfl rfl, gate1_at A, mix1_hi_at A]
  rfl

/-! ## Block 2 -/

/-- Block 1's vector output times the second mixing matrix. -/
theorem mix2_at (n : Fin 200000) (c : Fin 3) (e : Fin 2) :
    val_main_v20 (F := Ideal) A.x1 A.x2 A.x4 A.x5 A.x6 A.x7 A.x8 A.x9 (ix3 n c e) = Atom.mix2 (wts A) (row A n) c e := by
  rw [val_main_v20_apply]
  show _ = ∑ k : Fin 64, Atom.vOut1 (wts A) (row A n) c k * A.x9 (ix2 k e)
  refine Finset.sum_congr rfl fun k _ => ?_
  rw [show lidx_main_v20 (ix3 n c e) k = ix3 n c k from ext3 _ _ rfl rfl rfl,
    show ridx_main_v20 (ix3 n c e) k = ix2 k e from ext2 _ _ rfl rfl, vOut1_at A]

/-- The first mixed column. -/
theorem mix2_0_at (n : Fin 200000) (c : Fin 3) (z : Fin 1) :
    val_main_v21 (F := Ideal) A.x1 A.x2 A.x4 A.x5 A.x6 A.x7 A.x8 A.x9 (ix3 n c z) = Atom.mix2 (wts A) (row A n) c 0 := by
  rw [val_main_v21_apply,
    show idx_main_v21 (ix3 n c z) = ix3 n c (0 : Fin 2) from ext3 _ _ rfl rfl (by show z.val = 0; omega),
    mix2_at A]

/-- The second mixed column. -/
theorem mix2_1_at (n : Fin 200000) (c : Fin 3) (z : Fin 1) :
    val_main_v22 (F := Ideal) A.x1 A.x2 A.x4 A.x5 A.x6 A.x7 A.x8 A.x9 (ix3 n c z) = Atom.mix2 (wts A) (row A n) c 1 := by
  rw [val_main_v22_apply,
    show idx_main_v22 (ix3 n c z) = ix3 n c (1 : Fin 2) from ext3 _ _ rfl rfl (by show 1 + z.val = 1; omega),
    mix2_at A]

/-- The norm over the three components of the first mixed column. -/
theorem nrm2_at (n : Fin 200000) (z : Fin 1) :
    val_main_v23 (F := Ideal) A.x1 A.x2 A.x4 A.x5 A.x6 A.x7 A.x8 A.x9 (ix2 n z) = Atom.nrm2 (wts A) (row A n) := by
  rw [val_main_v23_apply, val_main_call3_v1_apply, val_main_call3_cst_apply, Fin.sum_univ_three,
    show idx_main_call3_v1 (ix2 n z) 0 = ix3 n 0 z from ext3 _ _ rfl rfl rfl,
    show idx_main_call3_v1 (ix2 n z) 1 = ix3 n 1 z from ext3 _ _ rfl rfl rfl,
    show idx_main_call3_v1 (ix2 n z) 2 = ix3 n 2 z from ext3 _ _ rfl rfl rfl,
    val_main_call3_v0_apply, val_main_call3_v0_apply, val_main_call3_v0_apply,
    mix2_0_at A, mix2_0_at A, mix2_0_at A]
  exact norm_host _ _ _

/-- Block 1's scalar output followed by the norm. -/
theorem cat2_at (n : Fin 200000) (j : Fin 65) :
    val_main_v24 (F := Ideal) A.x1 A.x2 A.x4 A.x5 A.x6 A.x7 A.x8 A.x9 (ix2 n j)
      = Atom.cat65 (Atom.sOut1 (wts A) (row A n)) (Atom.nrm2 (wts A) (row A n)) j := by
  unfold val_main_v24 Atom.cat65
  split
  · next h =>
    refine (concatenate_pair_apply_left (t := S200000x65) (s₁ := S200000x64) (s₂ := S200000x1) (1 : Fin 2)
      (val_main_v19 (F := Ideal) A.x1 A.x2 A.x4 A.x5 A.x6 A.x7 A.x8) (val_main_v23 (F := Ideal) A.x1 A.x2 A.x4 A.x5 A.x6 A.x7 A.x8 A.x9)
      concatenates_S200000x64_S200000x1_S200000x65_d1
      (ix2 n j) rfl (ix2 n (⟨j.val, h⟩ : Fin 64)) (fun b => by
        match b with
        | ⟨0, _⟩ => rfl
        | ⟨1, _⟩ => rfl)).trans ?_
    exact sOut1_at A n _
  · next h =>
    refine (concatenate_pair_apply_right (t := S200000x65) (s₁ := S200000x64) (s₂ := S200000x1) (1 : Fin 2)
      (val_main_v19 (F := Ideal) A.x1 A.x2 A.x4 A.x5 A.x6 A.x7 A.x8) (val_main_v23 (F := Ideal) A.x1 A.x2 A.x4 A.x5 A.x6 A.x7 A.x8 A.x9)
      concatenates_S200000x64_S200000x1_S200000x65_d1
      (ix2 n j) rfl rfl (ix2 n (0 : Fin 1)) (fun b hb => by
        match b with
        | ⟨0, _⟩ => rfl
        | ⟨1, _⟩ => exact absurd rfl hb) (by show 0 + 64 = j.val; omega)).trans ?_
    exact nrm2_at A n 0

/-- The hidden layer before its activation. -/
theorem pre2_at (n : Fin 200000) (z : Fin 1) :
    val_main_v28 (F := Ideal) A.x1 A.x2 A.x4 A.x5 A.x6 A.x7 A.x8 A.x9 A.x10 A.x11 (ix2 n z)
      = Atom.rowMul A.x10 (Atom.cat65 (Atom.sOut1 (wts A) (row A n)) (Atom.nrm2 (wts A) (row A n))) 0
          + A.x11 (ix1 0) := by
  rw [val_main_v28_apply, b12_at, val_main_v25_apply, Ideal.addf_def]
  show _ = (∑ k : Fin 65, Atom.cat65 (Atom.sOut1 (wts A) (row A n)) (Atom.nrm2 (wts A) (row A n)) k
      * A.x10 (ix2 k (0 : Fin 1))) + A.x11 (ix1 0)
  refine congrArg₂ (· + ·) (Finset.sum_congr rfl fun k _ => ?_) rfl
  rw [show lidx_main_v25 (ix2 n z) k = ix2 n k from ext2 _ _ rfl rfl,
    show ridx_main_v25 (ix2 n z) k = ix2 k (0 : Fin 1) from ext2 _ _ rfl (by show z.val = 0; omega), cat2_at A]

/-- The hidden layer (one column). -/
theorem hid2_at (n : Fin 200000) (z : Fin 1) :
    val_main_v29 (F := Ideal) A.x1 A.x2 A.x4 A.x5 A.x6 A.x7 A.x8 A.x9 A.x10 A.x11 (ix2 n z) = Atom.hid2 (wts A) (row A n) := by
  rw [val_main_v29_apply, val_main_call4_v5_apply, val_main_call4_v4_apply, val_main_call4_cst_0_apply,
    val_main_call4_v3_apply, val_main_call4_v2_apply, val_main_call4_cst_apply, val_main_call4_v1_apply,
    val_main_call4_v0_apply, pre2_at A]
  exact silu_host _

/-- The second layer, two columns. -/
theorem lin2_at (n : Fin 200000) (e : Fin 2) :
    val_main_v33 (F := Ideal) A.x1 A.x2 A.x4 A.x5 A.x6 A.x7 A.x8 A.x9 A.x10 A.x11 A.x12 A.x13 (ix2 n e) = Atom.lin2 (wts A) (row A n) e := by
  rw [val_main_v33_apply, b22_at, val_main_v30_apply, Ideal.addf_def]
  show _ = (∑ k : Fin 1, Atom.hid2 (wts A) (row A n) * A.x12 (ix2 k e)) + A.x13 (ix1 e)
  refine congrArg₂ (· + ·) (Finset.sum_congr rfl fun k _ => ?_) rfl
  rw [show lidx_main_v30 (ix2 n e) k = ix2 n k from ext2 _ _ rfl rfl,
    show ridx_main_v30 (ix2 n e) k = ix2 k e from ext2 _ _ rfl rfl, hid2_at A]

/-- The second layer's first column. -/
theorem lin2_0_at (n : Fin 200000) (z : Fin 1) :
    val_main_v34 (F := Ideal) A.x1 A.x2 A.x4 A.x5 A.x6 A.x7 A.x8 A.x9 A.x10 A.x11 A.x12 A.x13 (ix2 n z) = Atom.lin2 (wts A) (row A n) 0 := by
  rw [val_main_v34_apply,
    show idx_main_v34 (ix2 n z) = ix2 n (0 : Fin 2) from ext2 _ _ rfl (by show z.val = 0; omega), lin2_at A]

/-- The second layer's second column: the gate. -/
theorem lin2_1_at (n : Fin 200000) (z : Fin 1) :
    val_main_v35 (F := Ideal) A.x1 A.x2 A.x4 A.x5 A.x6 A.x7 A.x8 A.x9 A.x10 A.x11 A.x12 A.x13 (ix2 n z) = Atom.lin2 (wts A) (row A n) 1 := by
  rw [val_main_v35_apply,
    show idx_main_v35 (ix2 n z) = ix2 n (1 : Fin 2) from ext2 _ _ rfl (by show 1 + z.val = 1; omega), lin2_at A]

/-- The gated vector output, still with its unit last axis. -/
theorem vOut2_unit_at (n : Fin 200000) (c : Fin 3) (z : Fin 1) :
    val_main_v38 (F := Ideal) A.x1 A.x2 A.x4 A.x5 A.x6 A.x7 A.x8 A.x9 A.x10 A.x11 A.x12 A.x13 (ix3 n c z) = Atom.vOut2 (wts A) (row A n) c := by
  rw [val_main_v38_apply, val_main_v37_apply, val_main_v36_apply,
    show idx_main_v36 (idx_main_v37 (ix3 n c z)) = ix2 n (0 : Fin 1) from ext2 _ _ rfl rfl,
    lin2_1_at A, mix2_1_at A]
  rfl

/-- The gated vector output as three columns. -/
theorem vOut2_at (n : Fin 200000) (c : Fin 3) :
    val_main_v39 (F := Ideal) A.x1 A.x2 A.x4 A.x5 A.x6 A.x7 A.x8 A.x9 A.x10 A.x11 A.x12 A.x13 (ix2 n c) = Atom.vOut2 (wts A) (row A n) c := by
  rw [val_main_v39_apply,
    show idx_main_v39 (ix2 n c) = ix3 n c (0 : Fin 1) from ext3 _ _
      (by show (n.val * 3 + c.val) / 3 = n.val; omega) (by show (n.val * 3 + c.val) / 1 % 3 = c.val; omega) rfl,
    vOut2_unit_at A]

/-! ## The head -/

/-- The head's seven inputs. -/
theorem feat_at (n : Fin 200000) (j : Fin 7) :
    val_main_v40 (F := Ideal) A.x0 A.x1 A.x2 A.x4 A.x5 A.x6 A.x7 A.x8 A.x9 A.x10 A.x11 A.x12 A.x13 (ix2 n j) = Atom.feat (wts A) (row A n) j := by
  unfold val_main_v40 Atom.feat Atom.cat7
  split
  · next h =>
    refine (concatenate_apply_piece (t := S200000x7) (1 : Fin 2)
      [⟨S200000x3, val_main_v39 (F := Ideal) A.x1 A.x2 A.x4 A.x5 A.x6 A.x7 A.x8 A.x9 A.x10 A.x11 A.x12 A.x13⟩, ⟨S200000x3, A.x0⟩,
        ⟨S200000x1, val_main_v34 (F := Ideal) A.x1 A.x2 A.x4 A.x5 A.x6 A.x7 A.x8 A.x9 A.x10 A.x11 A.x12 A.x13⟩]
      concatenates_S200000x3_S200000x3_S200000x1_S200000x7_d1 (ix2 n j) 0 (by simp) S200000x3
      (val_main_v39 (F := Ideal) A.x1 A.x2 A.x4 A.x5 A.x6 A.x7 A.x8 A.x9 A.x10 A.x11 A.x12 A.x13) rfl rfl 0 rfl
      (ix2 n (⟨j.val, h⟩ : Fin 3)) (fun b hb => by
        match b with
        | ⟨0, _⟩ => rfl
        | ⟨1, _⟩ => exact absurd rfl hb) (by show 0 + j.val = j.val; omega)).trans ?_
    exact vOut2_at A n _
  · next h =>
    split
    · next h' =>
      exact concatenate_apply_piece (t := S200000x7) (1 : Fin 2)
        [⟨S200000x3, val_main_v39 (F := Ideal) A.x1 A.x2 A.x4 A.x5 A.x6 A.x7 A.x8 A.x9 A.x10 A.x11 A.x12 A.x13⟩, ⟨S200000x3, A.x0⟩,
          ⟨S200000x1, val_main_v34 (F := Ideal) A.x1 A.x2 A.x4 A.x5 A.x6 A.x7 A.x8 A.x9 A.x10 A.x11 A.x12 A.x13⟩]
        concatenates_S200000x3_S200000x3_S200000x1_S200000x7_d1 (ix2 n j) 1 (by simp) S200000x3
        A.x0 rfl rfl 3 rfl
        (ix2 n (⟨j.val - 3, by omega⟩ : Fin 3)) (fun b hb => by
          match b with
          | ⟨0, _⟩ => rfl
          | ⟨1, _⟩ => exact absurd rfl hb) (by show 3 + (j.val - 3) = j.val; omega)
    · next h' =>
      refine (concatenate_apply_piece (t := S200000x7) (1 : Fin 2)
        [⟨S200000x3, val_main_v39 (F := Ideal) A.x1 A.x2 A.x4 A.x5 A.x6 A.x7 A.x8 A.x9 A.x10 A.x11 A.x12 A.x13⟩, ⟨S200000x3, A.x0⟩,
          ⟨S200000x1, val_main_v34 (F := Ideal) A.x1 A.x2 A.x4 A.x5 A.x6 A.x7 A.x8 A.x9 A.x10 A.x11 A.x12 A.x13⟩]
        concatenates_S200000x3_S200000x3_S200000x1_S200000x7_d1 (ix2 n j) 2 (by simp) S200000x1
        (val_main_v34 (F := Ideal) A.x1 A.x2 A.x4 A.x5 A.x6 A.x7 A.x8 A.x9 A.x10 A.x11 A.x12 A.x13) rfl rfl 6 rfl
        (ix2 n (0 : Fin 1)) (fun b hb => by
          match b with
          | ⟨0, _⟩ => rfl
          | ⟨1, _⟩ => exact absurd rfl hb) (by show 6 + 0 = j.val; omega)).trans ?_
      exact lin2_0_at A n 0

/-- The head's hidden layer before its activation. -/
theorem preD_at (n : Fin 200000) (k : Fin 10) :
    val_main_v44 (F := Ideal) A.x0 A.x1 A.x2 A.x4 A.x5 A.x6 A.x7 A.x8 A.x9 A.x10 A.x11 A.x12 A.x13 A.x14 A.x15 (ix2 n k)
      = Atom.rowMul A.x14 (Atom.feat (wts A) (row A n)) k + A.x15 (ix1 k) := by
  rw [val_main_v44_apply, bd1_at, val_main_v41_apply, Ideal.addf_def]
  show _ = (∑ j : Fin 7, Atom.feat (wts A) (row A n) j * A.x14 (ix2 j k)) + A.x15 (ix1 k)
  refine congrArg₂ (· + ·) (Finset.sum_congr rfl fun j _ => ?_) rfl
  rw [show lidx_main_v41 (ix2 n k) j = ix2 n j from ext2 _ _ rfl rfl,
    show ridx_main_v41 (ix2 n k) j = ix2 j k from ext2 _ _ rfl rfl, feat_at A]

/-- The head's hidden layer. -/
theorem hidD_at (n : Fin 200000) (k : Fin 10) :
    val_main_v45 (F := Ideal) A.x0 A.x1 A.x2 A.x4 A.x5 A.x6 A.x7 A.x8 A.x9 A.x10 A.x11 A.x12 A.x13 A.x14 A.x15 (ix2 n k) = Atom.hidD (wts A) (row A n) k := by
  rw [val_main_v45_apply, val_main_call5_v5_apply, val_main_call5_v4_apply, val_main_call5_cst_0_apply,
    val_main_call5_v3_apply, val_main_call5_v2_apply, val_main_call5_cst_apply, val_main_call5_v1_apply,
    val_main_call5_v0_apply, preD_at A]
  exact silu_host _

/-- The reference's last two-dimensional array at row `n`, column `q`, is atom `n`'s output `q`. -/
theorem out_at (n : Fin 200000) (q : Fin 3) :
    val_main_v49 (F := Ideal) A.x0 A.x1 A.x2 A.x4 A.x5 A.x6 A.x7 A.x8 A.x9 A.x10 A.x11 A.x12 A.x13 A.x14 A.x15 A.x16 A.x17 (ix2 n q) = Atom.out (wts A) (row A n) q := by
  rw [val_main_v49_apply, bd2_at, val_main_v46_apply, Ideal.addf_def]
  show _ = (∑ k : Fin 10, Atom.hidD (wts A) (row A n) k * A.x16 (ix2 k q)) + A.x17 (ix1 q)
  refine congrArg₂ (· + ·) (Finset.sum_congr rfl fun k _ => ?_) rfl
  rw [show lidx_main_v46 (ix2 n q) k = ix2 n k from ext2 _ _ rfl rfl,
    show ridx_main_v46 (ix2 n q) k = ix2 k q from ext2 _ _ rfl rfl, hidD_at A]

/-! ## The statement over the seventeen arguments -/

/-- **The reference, one atom at a time.** Entry `(n, q)` of the reference's last two-dimensional array is output `q`
    of the per-atom function at the weights and at row `n` of the scalar features, the vector features and the
    positions. -/
theorem ref_out
    (x0 : (⟨S200000x3, .f32⟩ : BufTy).Contents (Elt Ideal))
    (x1 : (⟨S200000x128, .f32⟩ : BufTy).Contents (Elt Ideal))
    (x2 : (⟨S200000x3x128, .f32⟩ : BufTy).Contents (Elt Ideal))
    (x4 : (⟨S128x128, .f32⟩ : BufTy).Contents (Elt Ideal))
    (x5 : (⟨S192x64, .f32⟩ : BufTy).Contents (Elt Ideal))
    (x6 : (⟨S64, .f32⟩ : BufTy).Contents (Elt Ideal))
    (x7 : (⟨S64x128, .f32⟩ : BufTy).Contents (Elt Ideal))
    (x8 : (⟨S128, .f32⟩ : BufTy).Contents (Elt Ideal))
    (x9 : (⟨S64x2, .f32⟩ : BufTy).Contents (Elt Ideal))
    (x10 : (⟨S65x1, .f32⟩ : BufTy).Contents (Elt Ideal))
    (x11 : (⟨S1, .f32⟩ : BufTy).Contents (Elt Ideal))
    (x12 : (⟨S1x2, .f32⟩ : BufTy).Contents (Elt Ideal))
    (x13 : (⟨S2, .f32⟩ : BufTy).Contents (Elt Ideal))
    (x14 : (⟨S7x10, .f32⟩ : BufTy).Contents (Elt Ideal))
    (x15 : (⟨S10, .f32⟩ : BufTy).Contents (Elt Ideal))
    (x16 : (⟨S10x3, .f32⟩ : BufTy).Contents (Elt Ideal))
    (x17 : (⟨S3, .f32⟩ : BufTy).Contents (Elt Ideal))
    (n : Fin 200000) (q : Fin 3) :
    Cert.ReferenceIdeal.ReadP.val_main_v49 (F := Ideal) x0 x1 x2 x4 x5 x6 x7 x8 x9 x10 x11 x12 x13 x14 x15 x16 x17 (ix2 n q)
      = Cert.Atom.out ⟨x4, x5, x6, x7, x8, x9, x10, x11, x12, x13, x14, x15, x16, x17⟩
          ⟨fun k => x1 (ix2 n k), fun c k => x2 (ix3 n c k), fun j => x0 (ix2 n j)⟩ q :=
  out_at ⟨x0, x1, x2, x4, x5, x6, x7, x8, x9, x10, x11, x12, x13, x14, x15, x16, x17⟩ n q

/-- The same for the whole array: every index of a two-dimensional array is a row and a column. -/
theorem ref_out_all
    (x0 : (⟨S200000x3, .f32⟩ : BufTy).Contents (Elt Ideal))
    (x1 : (⟨S200000x128, .f32⟩ : BufTy).Contents (Elt Ideal))
    (x2 : (⟨S200000x3x128, .f32⟩ : BufTy).Contents (Elt Ideal))
    (x4 : (⟨S128x128, .f32⟩ : BufTy).Contents (Elt Ideal))
    (x5 : (⟨S192x64, .f32⟩ : BufTy).Contents (Elt Ideal))
    (x6 : (⟨S64, .f32⟩ : BufTy).Contents (Elt Ideal))
    (x7 : (⟨S64x128, .f32⟩ : BufTy).Contents (Elt Ideal))
    (x8 : (⟨S128, .f32⟩ : BufTy).Contents (Elt Ideal))
    (x9 : (⟨S64x2, .f32⟩ : BufTy).Contents (Elt Ideal))
    (x10 : (⟨S65x1, .f32⟩ : BufTy).Contents (Elt Ideal))
    (x11 : (⟨S1, .f32⟩ : BufTy).Contents (Elt Ideal))
    (x12 : (⟨S1x2, .f32⟩ : BufTy).Contents (Elt Ideal))
    (x13 : (⟨S2, .f32⟩ : BufTy).Contents (Elt Ideal))
    (x14 : (⟨S7x10, .f32⟩ : BufTy).Contents (Elt Ideal))
    (x15 : (⟨S10, .f32⟩ : BufTy).Contents (Elt Ideal))
    (x16 : (⟨S10x3, .f32⟩ : BufTy).Contents (Elt Ideal))
    (x17 : (⟨S3, .f32⟩ : BufTy).Contents (Elt Ideal)) :
    Cert.ReferenceIdeal.ReadP.val_main_v49 (F := Ideal) x0 x1 x2 x4 x5 x6 x7 x8 x9 x10 x11 x12 x13 x14 x15 x16 x17
      = fun i : S200000x3.Idx => Cert.Atom.out ⟨x4, x5, x6, x7, x8, x9, x10, x11, x12, x13, x14, x15, x16, x17⟩
          ⟨fun k => x1 (ix2 (i 0) k), fun c k => x2 (ix3 (i 0) c k), fun j => x0 (ix2 (i 0) j)⟩ (i 1) := by
  funext i
  obtain ⟨n, q, rfl⟩ : ∃ (n : Fin 200000) (q : Fin 3), i = ix2 n q := ⟨i 0, i 1, eq_ix2 i⟩
  exact ref_out x0 x1 x2 x4 x5 x6 x7 x8 x9 x10 x11 x12 x13 x14 x15 x16 x17 n q

/-- The reference's result is that array with its rows laid end to end. -/
theorem ref_flat
    (x0 : (⟨S200000x3, .f32⟩ : BufTy).Contents (Elt Ideal))
    (x1 : (⟨S200000x128, .f32⟩ : BufTy).Contents (Elt Ideal))
    (x2 : (⟨S200000x3x128, .f32⟩ : BufTy).Contents (Elt Ideal))
    (x4 : (⟨S128x128, .f32⟩ : BufTy).Contents (Elt Ideal))
    (x5 : (⟨S192x64, .f32⟩ : BufTy).Contents (Elt Ideal))
    (x6 : (⟨S64, .f32⟩ : BufTy).Contents (Elt Ideal))
    (x7 : (⟨S64x128, .f32⟩ : BufTy).Contents (Elt Ideal))
    (x8 : (⟨S128, .f32⟩ : BufTy).Contents (Elt Ideal))
    (x9 : (⟨S64x2, .f32⟩ : BufTy).Contents (Elt Ideal))
    (x10 : (⟨S65x1, .f32⟩ : BufTy).Contents (Elt Ideal))
    (x11 : (⟨S1, .f32⟩ : BufTy).Contents (Elt Ideal))
    (x12 : (⟨S1x2, .f32⟩ : BufTy).Contents (Elt Ideal))
    (x13 : (⟨S2, .f32⟩ : BufTy).Contents (Elt Ideal))
    (x14 : (⟨S7x10, .f32⟩ : BufTy).Contents (Elt Ideal))
    (x15 : (⟨S10, .f32⟩ : BufTy).Contents (Elt Ideal))
    (x16 : (⟨S10x3, .f32⟩ : BufTy).Contents (Elt Ideal))
    (x17 : (⟨S3, .f32⟩ : BufTy).Contents (Elt Ideal)) :
    Cert.ReferenceIdeal.ReadP.val_main_v50 (F := Ideal) x0 x1 x2 x4 x5 x6 x7 x8 x9 x10 x11 x12 x13 x14 x15 x16 x17
      = shapeCast S600000 (Cert.ReferenceIdeal.ReadP.val_main_v49 (F := Ideal) x0 x1 x2 x4 x5 x6 x7 x8 x9 x10 x11 x12 x13 x14 x15 x16 x17) shapeCasts_S200000x3_S600000 :=
  rfl

end Cert.RefAtom

end
-- ==== Proof.RefRun.lean ====
/-
  The reference's run, stretch by stretch.

  The reference's @main is a straight line of 89 host operations, each writing one buffer from buffers written before
  it. Its run leaves every buffer at the fold of the operations over the launch contents. The line is cut here into
  nine stretches at points where few buffers are still to be read (after the first norm, after each activation, after
  each gated product, before the head): for each stretch, what it leaves in the buffers read later is the
  corresponding stage of the argument arrays — given that the buffers it reads hold their stages —, and a buffer it
  does not write keeps its contents. Chaining the nine stretches gives the result buffer as the last stage of the
  arguments; no operation writes an argument, so the arguments end as they began.
-/
import proofs.«162249_j67070209295171_2_alg».proof.Proof.RefOpsP
import proofs.«162249_j67070209295171_2_alg».proof.Proof.RefReadP
import Idealize.ShloMosaic.Lib.StableHlo.Run

set_option maxRecDepth 8192

noncomputable section

namespace Cert.RefRun

open Cert.ReferenceIdeal Cert.ReferenceIdeal.Gen Cert.ReferenceIdeal.ValueO Cert.ReferenceIdeal.ReadP Idealize.ShloMosaic
  Idealize.ShloMosaic.TcCoe Idealize.SL.Sem Idealize.ShloMosaic.StableHlo

variable {F : FTy → Type} [FloatOps F]

/-- Two lines run one after the other: the second from where the first ends. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-! ## The nine stretches -/

/-- Operations 1–7. -/
abbrev cA : List (HloOp τ sig (Elt F)) :=
  [
    binary main_arg2 main_arg4 main_v0 ((fun l r => Host.dotGeneral dot_S200000x3x128_S128x128_S200000x3x128_2_0_01_1_n_n none l r) : (⟨S200000x3x128, .f32⟩ : BufTy).Contents (Elt F) → (⟨S128x128, .f32⟩ : BufTy).Contents (Elt F) → (⟨S200000x3x128, .f32⟩ : BufTy).Contents (Elt F)),
    unary main_v0 main_v1 ((extractStridedSlice S200000x3x64 ![0, 0, 0] · slices_S200000x3x128_S200000x3x64_0_0_0) : (⟨S200000x3x128, .f32⟩ : BufTy).Contents (Elt F) → (⟨S200000x3x64, .f32⟩ : BufTy).Contents (Elt F)),
    unary main_v0 main_v2 ((extractStridedSlice S200000x3x64 ![0, 0, 64] · slices_S200000x3x128_S200000x3x64_0_0_64) : (⟨S200000x3x128, .f32⟩ : BufTy).Contents (Elt F) → (⟨S200000x3x64, .f32⟩ : BufTy).Contents (Elt F)),
    TRef.binary (TRef.of (T := ⟨S200000x3x64, .f32⟩) main_v1) (TRef.of (T := ⟨S200000x3x64, .f32⟩) main_v1) (TRef.of (T := ⟨S200000x3x64, .f32⟩) main_call0_v0) mulf,
    TRef.nullary (TRef.of (T := ⟨S_, .f32⟩) main_call0_cst) (constant S_ .f32 0x00000000#32),
    TRef.binary (TRef.of (T := ⟨S200000x3x64, .f32⟩) main_call0_v0) (TRef.of (T := ⟨S_, .f32⟩) main_call0_cst) (TRef.of (T := ⟨S200000x64, .f32⟩) main_call0_v1) (fun x v => Host.reduceAdd x v reducesTo_S200000x3x64_S200000x64_d1 h_S_),
    TRef.unary (TRef.of (T := ⟨S200000x64, .f32⟩) main_call0_v1) (TRef.of (T := ⟨S200000x64, .f32⟩) main_v3) Host.sqrt ]
/-- The buffers they write. -/
abbrev wA : List (Ref sig .tc) := [main_v0, main_v1, main_v2, main_call0_v0, main_call0_cst, main_call0_v1, main_v3]
theorem cA_writes : (cA (F := F)).Forall fun op => op.writes ⊆ (wA.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepA (W : Valuation τ sig (Elt F)) (r : Ref sig .tc) (h : r ∉ wA) :
    after cA W (Proc.devRef .tc r) = W (Proc.devRef .tc r) := after_of_writes_sub cA W cA_writes h

/-- Operations 8–21. -/
abbrev cB : List (HloOp τ sig (Elt F)) :=
  [
    binary main_arg1 main_v3 main_v4 ((fun a b => concatenate S200000x192 1 [⟨S200000x128, a⟩, ⟨S200000x64, b⟩] concatenates_S200000x128_S200000x64_S200000x192_d1) : (⟨S200000x128, .f32⟩ : BufTy).Contents (Elt F) → (⟨S200000x64, .f32⟩ : BufTy).Contents (Elt F) → (⟨S200000x192, .f32⟩ : BufTy).Contents (Elt F)),
    binary main_v4 main_arg5 main_v5 ((fun l r => Host.dotGeneral dot_S200000x192_S192x64_S200000x64_1_0_0_1_n_n none l r) : (⟨S200000x192, .f32⟩ : BufTy).Contents (Elt F) → (⟨S192x64, .f32⟩ : BufTy).Contents (Elt F) → (⟨S200000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S200000x64 ![0, 1] bcast_S1x64_S200000x64_0_1 : (⟨S1x64, .f32⟩ : BufTy).Contents (Elt F) → (⟨S200000x64, .f32⟩ : BufTy).Contents (Elt F)),
    binary main_v5 main_v7 main_v8 (addf : (⟨S200000x64, .f32⟩ : BufTy).Contents (Elt F) → (⟨S200000x64, .f32⟩ : BufTy).Contents (Elt F) → (⟨S200000x64, .f32⟩ : BufTy).Contents (Elt F)),
    TRef.unary (TRef.of (T := ⟨S200000x64, .f32⟩) main_v8) (TRef.of (T := ⟨S200000x64, .f32⟩) main_call1_v0) Host.negf,
    TRef.unary (TRef.of (T := ⟨S200000x64, .f32⟩) main_call1_v0) (TRef.of (T := ⟨S200000x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S200000x64, .f32⟩) main_call1_v2) (broadcastInDim S200000x64 ![] bcast_S_S200000x64),
    TRef.binary (TRef.of (T := ⟨S200000x64, .f32⟩) main_call1_v2) (TRef.of (T := ⟨S200000x64, .f32⟩) main_call1_v1) (TRef.of (T := ⟨S200000x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S200000x64, .f32⟩) main_call1_v4) (broadcastInDim S200000x64 ![] bcast_S_S200000x64),
    TRef.binary (TRef.of (T := ⟨S200000x64, .f32⟩) main_call1_v4) (TRef.of (T := ⟨S200000x64, .f32⟩) main_call1_v3) (TRef.of (T := ⟨S200000x64, .f32⟩) main_call1_v5) Host.divf,
    TRef.binary (TRef.of (T := ⟨S200000x64, .f32⟩) main_v8) (TRef.of (T := ⟨S200000x64, .f32⟩) main_call1_v5) (TRef.of (T := ⟨S200000x64, .f32⟩) main_v9) mulf ]
/-- The buffers they write. -/
abbrev wB : List (Ref sig .tc) := [main_v4, main_v5, main_v6, main_v7, main_v8, main_call1_v0, main_call1_v1, main_call1_cst, main_call1_v2, main_call1_v3, main_call1_cst_0, main_call1_v4, main_call1_v5, main_v9]
theorem cB_writes : (cB (F := F)).Forall fun op => op.writes ⊆ (wB.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepB (W : Valuation τ sig (Elt F)) (r : Ref sig .tc) (h : r ∉ wB) :
    after cB W (Proc.devRef .tc r) = W (Proc.devRef .tc r) := after_of_writes_sub cB W cB_writes h

/-- Operations 22–30. -/
abbrev cC : List (HloOp τ sig (Elt F)) :=
  [
    binary main_v9 main_arg7 main_v10 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    unary main_arg8 main_v11 (broadcastInDim S1x128 ![1] bcast_S128_S1x128_1 : (⟨S128, .f32⟩ : BufTy).Contents (Elt F) → (⟨S1x128, .f32⟩ : BufTy).Contents (Elt F)),
    unary main_v11 main_v12 (broadcastInDim S200000x128 ![0, 1] bcast_S1x128_S200000x128_0_1 : (⟨S1x128, .f32⟩ : BufTy).Contents (Elt F) → (⟨S200000x128, .f32⟩ : BufTy).Contents (Elt F)),
    binary main_v10 main_v12 main_v13 (addf : (⟨S200000x128, .f32⟩ : BufTy).Contents (Elt F) → (⟨S200000x128, .f32⟩ : BufTy).Contents (Elt F) → (⟨S200000x128, .f32⟩ : BufTy).Contents (Elt F)),
    unary main_v13 main_v14 ((extractStridedSlice S200000x64 ![0, 0] · slices_S200000x128_S200000x64_0_0) : (⟨S200000x128, .f32⟩ : BufTy).Contents (Elt F) → (⟨S200000x64, .f32⟩ : BufTy).Contents (Elt F)),
    unary main_v13 main_v15 ((extractStridedSlice S200000x64 ![0, 64] · slices_S200000x128_S200000x64_0_64) : (⟨S200000x128, .f32⟩ : BufTy).Contents (Elt F) → (⟨S200000x64, .f32⟩ : BufTy).Contents (Elt F)),
    unary main_v15 main_v16 (broadcastInDim S200000x1x64 ![0, 2] bcast_S200000x64_S200000x1x64_0_2 : (⟨S200000x64, .f32⟩ : BufTy).Contents (Elt F) → (⟨S200000x1x64, .f32⟩ : BufTy).Contents (Elt F)),
    unary main_v16 main_v17 (broadcastInDim S200000x3x64 ![0, 1, 2] bcast_S200000x1x64_S200000x3x64_0_1_2 : (⟨S200000x1x64, .f32⟩ : BufTy).Contents (Elt F) → (⟨S200000x3x64, .f32⟩ : BufTy).Contents (Elt F)),
    binary main_v17 main_v2 main_v18 (mulf : (⟨S200000x3x64, .f32⟩ : BufTy).Contents (Elt F) → (⟨S200000x3x64, .f32⟩ : BufTy).Contents (Elt F) → (⟨S200000x3x64, .f32⟩ : BufTy).Contents (Elt F)) ]
/-- The buffers they write. -/
abbrev wC : List (Ref sig .tc) := [main_v10, main_v11, main_v12, main_v13, main_v14, main_v15, main_v16, main_v17, main_v18]
theorem cC_writes : (cC (F := F)).Forall fun op => op.writes ⊆ (wC.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepC (W : Valuation τ sig (Elt F)) (r : Ref sig .tc) (h : r ∉ wC) :
    after cC W (Proc.devRef .tc r) = W (Proc.devRef .tc r) := after_of_writes_sub cC W cC_writes h

/-- Operations 31–39. -/
abbrev cD : List (HloOp τ sig (Elt F)) :=
  [
    TRef.unary (TRef.of (T := ⟨S200000x64, .f32⟩) main_v14) (TRef.of (T := ⟨S200000x64, .f32⟩) main_call2_v0) Host.negf,
    TRef.unary (TRef.of (T := ⟨S200000x64, .f32⟩) main_call2_v0) (TRef.of (T := ⟨S200000x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S200000x64, .f32⟩) main_call2_v2) (broadcastInDim S200000x64 ![] bcast_S_S200000x64),
    TRef.binary (TRef.of (T := ⟨S200000x64, .f32⟩) main_call2_v2) (TRef.of (T := ⟨S200000x64, .f32⟩) main_call2_v1) (TRef.of (T := ⟨S200000x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S200000x64, .f32⟩) main_call2_v4) (broadcastInDim S200000x64 ![] bcast_S_S200000x64),
    TRef.binary (TRef.of (T := ⟨S200000x64, .f32⟩) main_call2_v4) (TRef.of (T := ⟨S200000x64, .f32⟩) main_call2_v3) (TRef.of (T := ⟨S200000x64, .f32⟩) main_call2_v5) Host.divf,
    TRef.binary (TRef.of (T := ⟨S200000x64, .f32⟩) main_v14) (TRef.of (T := ⟨S200000x64, .f32⟩) main_call2_v5) (TRef.of (T := ⟨S200000x64, .f32⟩) main_v19) mulf ]
/-- The buffers they write. -/
abbrev wD : List (Ref sig .tc) := [main_call2_v0, main_call2_v1, main_call2_cst, main_call2_v2, main_call2_v3, main_call2_cst_0, main_call2_v4, main_call2_v5, main_v19]
theorem cD_writes : (cD (F := F)).Forall fun op => op.writes ⊆ (wD.map (Proc.devRef (τ := τ) .tc)).toFinset := by
  simp only [List.Forall]
  refine ⟨?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepD (W : Valuation τ sig (Elt F)) (r : Ref sig .tc) (h : r ∉ wD) :
    after cD W (Proc.devRef .tc r) = W (Proc.devRef .tc r) := after_of_writes_sub cD W cD_writes h

/-- Operations 40–46. -/
abbrev cE : List (HloOp τ sig (Elt F)) :=
  [
    binary main_v18 main_arg9 main_v20 ((fun l r => Host.dotGeneral dot_S200000x3x64_S64x2_S200000x3x2_2_0_01_1_n_n none l r) : (⟨S200000x3x64, .f32⟩ : BufTy).Contents (Elt F) → (⟨S64x2, .f32⟩ : BufTy).Contents (Elt F) → (⟨S200000x3x2, .f32⟩ : BufTy).Contents (Elt F)),
    unary main_v20 main_v21 ((extractStridedSlice S200000x3x1 ![0, 0, 0] · slices_S200000x3x2_S200000x3x1_0_0_0) : (⟨S200000x3x2, .f32⟩ : BufTy).Contents (Elt F) → (⟨S200000x3x1, .f32⟩ : BufTy).Contents (Elt F)),
    unary main_v20 main_v22 ((extractStridedSlice S200000x3x1 ![0, 0, 1] · slices_S200000x3x2_S200000x3x1_0_0_1) : (⟨S200000x3x2, .f32⟩ : BufTy).Contents (Elt F) → (⟨S200000x3x1, .f32⟩ : BufTy).Contents (Elt F)),
    TRef.binary (TRef.of (T := ⟨S200000x3x1, .f32⟩) main_v21) (TRef.of (T := ⟨S200000x3x1, .f32⟩) main_v21) (TRef.of (T := ⟨S200000x3x1, .f32⟩) main_call3_v0) mulf,
    TRef.nullary (TRef.of (T := ⟨S_, .f32⟩) main_call3_cst) (constant S_ .f32 0x00000000#32),
    TRef.binary (TRef.of (T := ⟨S200000x3x1, .f32⟩) main_call3_v0) (TRef.of (T := ⟨S_, .f32⟩) main_call3_cst) (TRef.of (T := ⟨S200000x1, .f32⟩) main_call3_v1) (fun x v => Host.reduceAdd x v reducesTo_S200000x3x1_S200000x1_d1 h_S_),
    TRef.unary (TRef.of (T := ⟨S200000x1, .f32⟩) main_call3_v1) (TRef.of (T := ⟨S200000x1, .f32⟩) main_v23) Host.sqrt ]
/-- The buffers they write. -/
abbrev wE : List (Ref sig .tc) := [main_v20, main_v21, main_v22, main_call3_v0, main_call3_cst, main_call3_v1, main_v23]
theorem cE_writes : (cE (F := F)).Forall fun op => op.writes ⊆ (wE.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepE (W : Valuation τ sig (Elt F)) (r : Ref sig .tc) (h : r ∉ wE) :
    after cE W (Proc.devRef .tc r) = W (Proc.devRef .tc r) := after_of_writes_sub cE W cE_writes h

/-- Operations 47–60. -/
abbrev cF : List (HloOp τ sig (Elt F)) :=
  [
    binary main_v19 main_v23 main_v24 ((fun a b => concatenate S200000x65 1 [⟨S200000x64, a⟩, ⟨S200000x1, b⟩] concatenates_S200000x64_S200000x1_S200000x65_d1) : (⟨S200000x64, .f32⟩ : BufTy).Contents (Elt F) → (⟨S200000x1, .f32⟩ : BufTy).Contents (Elt F) → (⟨S200000x65, .f32⟩ : BufTy).Contents (Elt F)),
    binary main_v24 main_arg10 main_v25 ((fun l r => Host.dotGeneral dot_S200000x65_S65x1_S200000x1_1_0_0_1_n_n none l r) : (⟨S200000x65, .f32⟩ : BufTy).Contents (Elt F) → (⟨S65x1, .f32⟩ : BufTy).Contents (Elt F) → (⟨S200000x1, .f32⟩ : BufTy).Contents (Elt F)),
    unary main_arg11 main_v26 (broadcastInDim S1x1 ![1] bcast_S1_S1x1_1 : (⟨S1, .f32⟩ : BufTy).Contents (Elt F) → (⟨S1x1, .f32⟩ : BufTy).Contents (Elt F)),
    unary main_v26 main_v27 (broadcastInDim S200000x1 ![0, 1] bcast_S1x1_S200000x1_0_1 : (⟨S1x1, .f32⟩ : BufTy).Contents (Elt F) → (⟨S200000x1, .f32⟩ : BufTy).Contents (Elt F)),
    binary main_v25 main_v27 main_v28 (addf : (⟨S200000x1, .f32⟩ : BufTy).Contents (Elt F) → (⟨S200000x1, .f32⟩ : BufTy).Contents (Elt F) → (⟨S200000x1, .f32⟩ : BufTy).Contents (Elt F)),
    TRef.unary (TRef.of (T := ⟨S200000x1, .f32⟩) main_v28) (TRef.of (T := ⟨S200000x1, .f32⟩) main_call4_v0) Host.negf,
    TRef.unary (TRef.of (T := ⟨S200000x1, .f32⟩) main_call4_v0) (TRef.of (T := ⟨S200000x1, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S200000x1, .f32⟩) main_call4_v2) (broadcastInDim S200000x1 ![] bcast_S_S200000x1),
    TRef.binary (TRef.of (T := ⟨S200000x1, .f32⟩) main_call4_v2) (TRef.of (T := ⟨S200000x1, .f32⟩) main_call4_v1) (TRef.of (T := ⟨S200000x1, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S200000x1, .f32⟩) main_call4_v4) (broadcastInDim S200000x1 ![] bcast_S_S200000x1),
    TRef.binary (TRef.of (T := ⟨S200000x1, .f32⟩) main_call4_v4) (TRef.of (T := ⟨S200000x1, .f32⟩) main_call4_v3) (TRef.of (T := ⟨S200000x1, .f32⟩) main_call4_v5) Host.divf,
    TRef.binary (TRef.of (T := ⟨S200000x1, .f32⟩) main_v28) (TRef.of (T := ⟨S200000x1, .f32⟩) main_call4_v5) (TRef.of (T := ⟨S200000x1, .f32⟩) main_v29) mulf ]
/-- The buffers they write. -/
abbrev wF : List (Ref sig .tc) := [main_v24, main_v25, main_v26, main_v27, main_v28, main_call4_v0, main_call4_v1, main_call4_cst, main_call4_v2, main_call4_v3, main_call4_cst_0, main_call4_v4, main_call4_v5, main_v29]
theorem cF_writes : (cF (F := F)).Forall fun op => op.writes ⊆ (wF.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepF (W : Valuation τ sig (Elt F)) (r : Ref sig .tc) (h : r ∉ wF) :
    after cF W (Proc.devRef .tc r) = W (Proc.devRef .tc r) := after_of_writes_sub cF W cF_writes h

/-- Operations 61–70. -/
abbrev cG : List (HloOp τ sig (Elt F)) :=
  [
    binary main_v29 main_arg12 main_v30 ((fun l r => Host.dotGeneral dot_S200000x1_S1x2_S200000x2_1_0_0_1_n_n none l r) : (⟨S200000x1, .f32⟩ : BufTy).Contents (Elt F) → (⟨S1x2, .f32⟩ : BufTy).Contents (Elt F) → (⟨S200000x2, .f32⟩ : BufTy).Contents (Elt F)),
    unary main_arg13 main_v31 (broadcastInDim S1x2 ![1] bcast_S2_S1x2_1 : (⟨S2, .f32⟩ : BufTy).Contents (Elt F) → (⟨S1x2, .f32⟩ : BufTy).Contents (Elt F)),
    unary main_v31 main_v32 (broadcastInDim S200000x2 ![0, 1] bcast_S1x2_S200000x2_0_1 : (⟨S1x2, .f32⟩ : BufTy).Contents (Elt F) → (⟨S200000x2, .f32⟩ : BufTy).Contents (Elt F)),
    binary main_v30 main_v32 main_v33 (addf : (⟨S200000x2, .f32⟩ : BufTy).Contents (Elt F) → (⟨S200000x2, .f32⟩ : BufTy).Contents (Elt F) → (⟨S200000x2, .f32⟩ : BufTy).Contents (Elt F)),
    unary main_v33 main_v34 ((extractStridedSlice S200000x1 ![0, 0] · slices_S200000x2_S200000x1_0_0) : (⟨S200000x2, .f32⟩ : BufTy).Contents (Elt F) → (⟨S200000x1, .f32⟩ : BufTy).Contents (Elt F)),
    unary main_v33 main_v35 ((extractStridedSlice S200000x1 ![0, 1] · slices_S200000x2_S200000x1_0_1) : (⟨S200000x2, .f32⟩ : BufTy).Contents (Elt F) → (⟨S200000x1, .f32⟩ : BufTy).Contents (Elt F)),
    unary main_v35 main_v36 (broadcastInDim S200000x1x1 ![0, 2] bcast_S200000x1_S200000x1x1_0_2 : (⟨S200000x1, .f32⟩ : BufTy).Contents (Elt F) → (⟨S200000x1x1, .f32⟩ : BufTy).Contents (Elt F)),
    unary main_v36 main_v37 (broadcastInDim S200000x3x1 ![0, 1, 2] bcast_S200000x1x1_S200000x3x1_0_1_2 : (⟨S200000x1x1, .f32⟩ : BufTy).Contents (Elt F) → (⟨S200000x3x1, .f32⟩ : BufTy).Contents (Elt F)),
    binary main_v37 main_v22 main_v38 (mulf : (⟨S200000x3x1, .f32⟩ : BufTy).Contents (Elt F) → (⟨S200000x3x1, .f32⟩ : BufTy).Contents (Elt F) → (⟨S200000x3x1, .f32⟩ : BufTy).Contents (Elt F)),
    reshape main_v38 main_v39 rfl shapeCasts_S200000x3x1_S200000x3 ]
/-- The buffers they write. -/
abbrev wG : List (Ref sig .tc) := [main_v30, main_v31, main_v32, main_v33, main_v34, main_v35, main_v36, main_v37, main_v38, main_v39]
theorem cG_writes : (cG (F := F)).Forall fun op => op.writes ⊆ (wG.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepG (W : Valuation τ sig (Elt F)) (r : Ref sig .tc) (h : r ∉ wG) :
    after cG W (Proc.devRef .tc r) = W (Proc.devRef .tc r) := after_of_writes_sub cG W cG_writes h

/-- Operations 71–84. -/
abbrev cH : List (HloOp τ sig (Elt F)) :=
  [
    nary ![main_v39, main_arg0, main_v34] main_v40 (fun u => concatenate S200000x7 1 [⟨S200000x3, u 0⟩, ⟨S200000x3, u 1⟩, ⟨S200000x1, u 2⟩] concatenates_S200000x3_S200000x3_S200000x1_S200000x7_d1),
    binary main_v40 main_arg14 main_v41 ((fun l r => Host.dotGeneral dot_S200000x7_S7x10_S200000x10_1_0_0_1_n_n none l r) : (⟨S200000x7, .f32⟩ : BufTy).Contents (Elt F) → (⟨S7x10, .f32⟩ : BufTy).Contents (Elt F) → (⟨S200000x10, .f32⟩ : BufTy).Contents (Elt F)),
    unary main_arg15 main_v42 (broadcastInDim S1x10 ![1] bcast_S10_S1x10_1 : (⟨S10, .f32⟩ : BufTy).Contents (Elt F) → (⟨S1x10, .f32⟩ : BufTy).Contents (Elt F)),
    unary main_v42 main_v43 (broadcastInDim S200000x10 ![0, 1] bcast_S1x10_S200000x10_0_1 : (⟨S1x10, .f32⟩ : BufTy).Contents (Elt F) → (⟨S200000x10, .f32⟩ : BufTy).Contents (Elt F)),
    binary main_v41 main_v43 main_v44 (addf : (⟨S200000x10, .f32⟩ : BufTy).Contents (Elt F) → (⟨S200000x10, .f32⟩ : BufTy).Contents (Elt F) → (⟨S200000x10, .f32⟩ : BufTy).Contents (Elt F)),
    TRef.unary (TRef.of (T := ⟨S200000x10, .f32⟩) main_v44) (TRef.of (T := ⟨S200000x10, .f32⟩) main_call5_v0) Host.negf,
    TRef.unary (TRef.of (T := ⟨S200000x10, .f32⟩) main_call5_v0) (TRef.of (T := ⟨S200000x10, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S200000x10, .f32⟩) main_call5_v2) (broadcastInDim S200000x10 ![] bcast_S_S200000x10),
    TRef.binary (TRef.of (T := ⟨S200000x10, .f32⟩) main_call5_v2) (TRef.of (T := ⟨S200000x10, .f32⟩) main_call5_v1) (TRef.of (T := ⟨S200000x10, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S200000x10, .f32⟩) main_call5_v4) (broadcastInDim S200000x10 ![] bcast_S_S200000x10),
    TRef.binary (TRef.of (T := ⟨S200000x10, .f32⟩) main_call5_v4) (TRef.of (T := ⟨S200000x10, .f32⟩) main_call5_v3) (TRef.of (T := ⟨S200000x10, .f32⟩) main_call5_v5) Host.divf,
    TRef.binary (TRef.of (T := ⟨S200000x10, .f32⟩) main_v44) (TRef.of (T := ⟨S200000x10, .f32⟩) main_call5_v5) (TRef.of (T := ⟨S200000x10, .f32⟩) main_v45) mulf ]
/-- The buffers they write. -/
abbrev wH : List (Ref sig .tc) := [main_v40, main_v41, main_v42, main_v43, main_v44, main_call5_v0, main_call5_v1, main_call5_cst, main_call5_v2, main_call5_v3, main_call5_cst_0, main_call5_v4, main_call5_v5, main_v45]
theorem cH_writes : (cH (F := F)).Forall fun op => op.writes ⊆ (wH.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepH (W : Valuation τ sig (Elt F)) (r : Ref sig .tc) (h : r ∉ wH) :
    after cH W (Proc.devRef .tc r) = W (Proc.devRef .tc r) := after_of_writes_sub cH W cH_writes h

/-- Operations 85–89. -/
abbrev cI : List (HloOp τ sig (Elt F)) :=
  [
    binary main_v45 main_arg16 main_v46 ((fun l r => Host.dotGeneral dot_S200000x10_S10x3_S200000x3_1_0_0_1_n_n none l r) : (⟨S200000x10, .f32⟩ : BufTy).Contents (Elt F) → (⟨S10x3, .f32⟩ : BufTy).Contents (Elt F) → (⟨S200000x3, .f32⟩ : BufTy).Contents (Elt F)),
    unary main_arg17 main_v47 (broadcastInDim S1x3 ![1] bcast_S3_S1x3_1 : (⟨S3, .f32⟩ : BufTy).Contents (Elt F) → (⟨S1x3, .f32⟩ : BufTy).Contents (Elt F)),
    unary main_v47 main_v48 (broadcastInDim S200000x3 ![0, 1] bcast_S1x3_S200000x3_0_1 : (⟨S1x3, .f32⟩ : BufTy).Contents (Elt F) → (⟨S200000x3, .f32⟩ : BufTy).Contents (Elt F)),
    binary main_v46 main_v48 main_v49 (addf : (⟨S200000x3, .f32⟩ : BufTy).Contents (Elt F) → (⟨S200000x3, .f32⟩ : BufTy).Contents (Elt F) → (⟨S200000x3, .f32⟩ : BufTy).Contents (Elt F)),
    reshape main_v49 main_v50 rfl shapeCasts_S200000x3_S600000 ]
/-- The buffers they write. -/
abbrev wI : List (Ref sig .tc) := [main_v46, main_v47, main_v48, main_v49, main_v50]
theorem cI_writes : (cI (F := F)).Forall fun op => op.writes ⊆ (wI.map (Proc.devRef (τ := τ) .tc)).toFinset := by
  simp only [List.Forall]
  refine ⟨?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- A buffer they do not write keeps its contents. -/
theorem keepI (W : Valuation τ sig (Elt F)) (r : Ref sig .tc) (h : r ∉ wI) :
    after cI W (Proc.devRef .tc r) = W (Proc.devRef .tc r) := after_of_writes_sub cI W cI_writes h

/-- The line is its stretches in order. -/
theorem ops_eq : ops (F := F) = cA ++ cB ++ cC ++ cD ++ cE ++ cF ++ cG ++ cH ++ cI := rfl

/-! ## What each stretch leaves -/

/-- Operations of stretch A: what they leave in `main_v2`. -/
theorem cA_v2 (W : Valuation τ sig (Elt F))
    : after cA W (Proc.devRef .tc main_v2) = val_main_v2 (F := F) (W (Proc.devRef .tc main_arg2)) (W (Proc.devRef .tc main_arg4)) := by
  after_results_simp
  rfl

/-- Operations of stretch A: what they leave in `main_v3`. -/
theorem cA_v3 (W : Valuation τ sig (Elt F))
    : after cA W (Proc.devRef .tc main_v3) = val_main_v3 (F := F) (W (Proc.devRef .tc main_arg2)) (W (Proc.devRef .tc main_arg4)) := by
  after_results_simp
  rfl

/-- Operations of stretch B: what they leave in `main_v9`. -/
theorem cB_v9 (W : Valuation τ sig (Elt F)) (x2 : (⟨S200000x3x128, .f32⟩ : BufTy).Contents (Elt F)) (x4 : (⟨S128x128, .f32⟩ : BufTy).Contents (Elt F))
    (h_v3 : W (Proc.devRef .tc main_v3) = val_main_v3 (F := F) x2 x4)
    : after cB W (Proc.devRef .tc main_v9) = val_main_v9 (F := F) (W (Proc.devRef .tc main_arg1)) x2 x4 (W (Proc.devRef .tc main_arg5)) (W (Proc.devRef .tc main_arg6)) := by
  after_results_simp
  try rw [h_v3]
  rfl

/-- Operations of stretch C: what they leave in `main_v14`. -/
theorem cC_v14 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F))
    (h_v9 : W (Proc.devRef .tc main_v9) = val_main_v9 (F := F) x1 x2 x4 x5 x6)
    (h_v2 : W (Proc.devRef .tc main_v2) = val_main_v2 (F := F) x2 x4)
    : after cC W (Proc.devRef .tc main_v14) = val_main_v14 (F := F) x1 x2 x4 x5 x6 (W (Proc.devRef .tc main_arg7)) (W (Proc.devRef .tc main_arg8)) := by
  after_results_simp
  try rw [h_v9]
  try rw [h_v2]
  rfl

/-- Operations of stretch C: what they leave in `main_v18`. -/
theorem cC_v18 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F))
    (h_v9 : W (Proc.devRef .tc main_v9) = val_main_v9 (F := F) x1 x2 x4 x5 x6)
    (h_v2 : W (Proc.devRef .tc main_v2) = val_main_v2 (F := F) x2 x4)
    : after cC W (Proc.devRef .tc main_v18) = val_main_v18 (F := F) x1 x2 x4 x5 x6 (W (Proc.devRef .tc main_arg7)) (W (Proc.devRef .tc main_arg8)) := by
  after_results_simp
  try rw [h_v9]
  try rw [h_v2]
  rfl

/-- Operations of stretch D: what they leave in `main_v19`. -/
theorem cD_v19 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F))
    (h_v14 : W (Proc.devRef .tc main_v14) = val_main_v14 (F := F) x1 x2 x4 x5 x6 x7 x8)
    : after cD W (Proc.devRef .tc main_v19) = val_main_v19 (F := F) x1 x2 x4 x5 x6 x7 x8 := by
  after_results_simp
  try rw [h_v14]
  rfl

/-- Operations of stretch E: what they leave in `main_v22`. -/
theorem cE_v22 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F))
    (h_v18 : W (Proc.devRef .tc main_v18) = val_main_v18 (F := F) x1 x2 x4 x5 x6 x7 x8)
    : after cE W (Proc.devRef .tc main_v22) = val_main_v22 (F := F) x1 x2 x4 x5 x6 x7 x8 (W (Proc.devRef .tc main_arg9)) := by
  after_results_simp
  try rw [h_v18]
  rfl

/-- Operations of stretch E: what they leave in `main_v23`. -/
theorem cE_v23 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F))
    (h_v18 : W (Proc.devRef .tc main_v18) = val_main_v18 (F := F) x1 x2 x4 x5 x6 x7 x8)
    : after cE W (Proc.devRef .tc main_v23) = val_main_v23 (F := F) x1 x2 x4 x5 x6 x7 x8 (W (Proc.devRef .tc main_arg9)) := by
  after_results_simp
  try rw [h_v18]
  rfl

/-- Operations of stretch F: what they leave in `main_v29`. -/
theorem cF_v29 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F)) (x9 : (⟨S64x2, .f32⟩ : BufTy).Contents (Elt F))
    (h_v19 : W (Proc.devRef .tc main_v19) = val_main_v19 (F := F) x1 x2 x4 x5 x6 x7 x8)
    (h_v23 : W (Proc.devRef .tc main_v23) = val_main_v23 (F := F) x1 x2 x4 x5 x6 x7 x8 x9)
    : after cF W (Proc.devRef .tc main_v29) = val_main_v29 (F := F) x1 x2 x4 x5 x6 x7 x8 x9 (W (Proc.devRef .tc main_arg10)) (W (Proc.devRef .tc main_arg11)) := by
  after_results_simp
  try rw [h_v19]
  try rw [h_v23]
  rfl

/-- Operations of stretch G: what they leave in `main_v34`. -/
theorem cG_v34 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F)) (x9 : (⟨S64x2, .f32⟩ : BufTy).Contents (Elt F)) (x10 : (⟨S65x1, .f32⟩ : BufTy).Contents (Elt F)) (x11 : (⟨S1, .f32⟩ : BufTy).Contents (Elt F))
    (h_v29 : W (Proc.devRef .tc main_v29) = val_main_v29 (F := F) x1 x2 x4 x5 x6 x7 x8 x9 x10 x11)
    (h_v22 : W (Proc.devRef .tc main_v22) = val_main_v22 (F := F) x1 x2 x4 x5 x6 x7 x8 x9)
    : after cG W (Proc.devRef .tc main_v34) = val_main_v34 (F := F) x1 x2 x4 x5 x6 x7 x8 x9 x10 x11 (W (Proc.devRef .tc main_arg12)) (W (Proc.devRef .tc main_arg13)) := by
  after_results_simp
  try rw [h_v29]
  try rw [h_v22]
  rfl

/-- Operations of stretch G: what they leave in `main_v39`. -/
theorem cG_v39 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F)) (x9 : (⟨S64x2, .f32⟩ : BufTy).Contents (Elt F)) (x10 : (⟨S65x1, .f32⟩ : BufTy).Contents (Elt F)) (x11 : (⟨S1, .f32⟩ : BufTy).Contents (Elt F))
    (h_v29 : W (Proc.devRef .tc main_v29) = val_main_v29 (F := F) x1 x2 x4 x5 x6 x7 x8 x9 x10 x11)
    (h_v22 : W (Proc.devRef .tc main_v22) = val_main_v22 (F := F) x1 x2 x4 x5 x6 x7 x8 x9)
    : after cG W (Proc.devRef .tc main_v39) = val_main_v39 (F := F) x1 x2 x4 x5 x6 x7 x8 x9 x10 x11 (W (Proc.devRef .tc main_arg12)) (W (Proc.devRef .tc main_arg13)) := by
  after_results_simp
  try rw [h_v29]
  try rw [h_v22]
  rfl

/-- Operations of stretch H: what they leave in `main_v45`. -/
theorem cH_v45 (W : Valuation τ sig (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F)) (x9 : (⟨S64x2, .f32⟩ : BufTy).Contents (Elt F)) (x10 : (⟨S65x1, .f32⟩ : BufTy).Contents (Elt F)) (x11 : (⟨S1, .f32⟩ : BufTy).Contents (Elt F)) (x12 : (⟨S1x2, .f32⟩ : BufTy).Contents (Elt F)) (x13 : (⟨S2, .f32⟩ : BufTy).Contents (Elt F))
    (h_v39 : W (Proc.devRef .tc main_v39) = val_main_v39 (F := F) x1 x2 x4 x5 x6 x7 x8 x9 x10 x11 x12 x13)
    (h_v34 : W (Proc.devRef .tc main_v34) = val_main_v34 (F := F) x1 x2 x4 x5 x6 x7 x8 x9 x10 x11 x12 x13)
    : after cH W (Proc.devRef .tc main_v45) = val_main_v45 (F := F) (W (Proc.devRef .tc main_arg0)) x1 x2 x4 x5 x6 x7 x8 x9 x10 x11 x12 x13 (W (Proc.devRef .tc main_arg14)) (W (Proc.devRef .tc main_arg15)) := by
  after_results_simp
  have h39' : W (Proc.devRef .tc (![main_v39, main_arg0, main_v34] 0)) = val_main_v39 (F := F) x1 x2 x4 x5 x6 x7 x8 x9 x10 x11 x12 x13 := h_v39
  have h34' : W (Proc.devRef .tc (![main_v39, main_arg0, main_v34] 2)) = val_main_v34 (F := F) x1 x2 x4 x5 x6 x7 x8 x9 x10 x11 x12 x13 := h_v34
  rw [h39', h34']
  rfl

/-- Operations of stretch I: what they leave in `main_v50`. -/
theorem cI_v50 (W : Valuation τ sig (Elt F)) (x0 : (⟨S200000x3, .f32⟩ : BufTy).Contents (Elt F)) (x1 : (⟨S200000x128, .f32⟩ : BufTy).Contents (Elt F)) (x2 : (⟨S200000x3x128, .f32⟩ : BufTy).Contents (Elt F)) (x4 : (⟨S128x128, .f32⟩ : BufTy).Contents (Elt F)) (x5 : (⟨S192x64, .f32⟩ : BufTy).Contents (Elt F)) (x6 : (⟨S64, .f32⟩ : BufTy).Contents (Elt F)) (x7 : (⟨S64x128, .f32⟩ : BufTy).Contents (Elt F)) (x8 : (⟨S128, .f32⟩ : BufTy).Contents (Elt F)) (x9 : (⟨S64x2, .f32⟩ : BufTy).Contents (Elt F)) (x10 : (⟨S65x1, .f32⟩ : BufTy).Contents (Elt F)) (x11 : (⟨S1, .f32⟩ : BufTy).Contents (Elt F)) (x12 : (⟨S1x2, .f32⟩ : BufTy).Contents (Elt F)) (x13 : (⟨S2, .f32⟩ : BufTy).Contents (Elt F)) (x14 : (⟨S7x10, .f32⟩ : BufTy).Contents (Elt F)) (x15 : (⟨S10, .f32⟩ : BufTy).Contents (Elt F))
    (h_v45 : W (Proc.devRef .tc main_v45) = val_main_v45 (F := F) x0 x1 x2 x4 x5 x6 x7 x8 x9 x10 x11 x12 x13 x14 x15)
    : after cI W (Proc.devRef .tc main_v50) = val_main_v50 (F := F) x0 x1 x2 x4 x5 x6 x7 x8 x9 x10 x11 x12 x13 x14 x15 (W (Proc.devRef .tc main_arg16)) (W (Proc.devRef .tc main_arg17)) := by
  after_results_simp
  try rw [h_v45]
  rfl

/-! ## The stretches chained -/

/-- The whole line: the result buffer ends at the last stage of the arguments. -/
theorem result (V : Valuation τ sig (Elt F)) :
    after (ops (F := F)) V (Proc.devRef .tc main_v50) = val_main_v50 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [ops_eq]
  simp only [after_append]
  have fA_v2 : (after cA V) (Proc.devRef .tc main_v2) = val_main_v2 (F := F) (V (Proc.devRef .tc main_arg2)) (V (Proc.devRef .tc main_arg4)) := by
    have e := cA_v2 V
    exact e
  have fA_v3 : (after cA V) (Proc.devRef .tc main_v3) = val_main_v3 (F := F) (V (Proc.devRef .tc main_arg2)) (V (Proc.devRef .tc main_arg4)) := by
    have e := cA_v3 V
    exact e
  have fB_v9 : (after cB (after cA V)) (Proc.devRef .tc main_v9) = val_main_v9 (F := F) (V (Proc.devRef .tc main_arg1)) (V (Proc.devRef .tc main_arg2)) (V (Proc.devRef .tc main_arg4)) (V (Proc.devRef .tc main_arg5)) (V (Proc.devRef .tc main_arg6)) := by
    have e := cB_v9 (after cA V) (V (Proc.devRef .tc main_arg2)) (V (Proc.devRef .tc main_arg4)) fA_v3
    rw [(keepA V main_arg1 (by decide)), (keepA V main_arg5 (by decide)), (keepA V main_arg6 (by decide))] at e
    exact e
  have fB_v2 : (after cB (after cA V)) (Proc.devRef .tc main_v2) = val_main_v2 (F := F) (V (Proc.devRef .tc main_arg2)) (V (Proc.devRef .tc main_arg4)) :=
    (keepB (after cA V) main_v2 (by decide)).trans fA_v2
  have fC_v14 : (after cC (after cB (after cA V))) (Proc.devRef .tc main_v14) = val_main_v14 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) := by
    have e := cC_v14 (after cB (after cA V)) (V (Proc.devRef .tc main_arg1)) (V (Proc.devRef .tc main_arg2)) (V (Proc.devRef .tc main_arg4)) (V (Proc.devRef .tc main_arg5)) (V (Proc.devRef .tc main_arg6)) fB_v9 fB_v2
    rw [((keepB (after cA V) main_arg7 (by decide)).trans (keepA V main_arg7 (by decide))), ((keepB (after cA V) main_arg8 (by decide)).trans (keepA V main_arg8 (by decide)))] at e
    exact e
  have fC_v18 : (after cC (after cB (after cA V))) (Proc.devRef .tc main_v18) = val_main_v18 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) := by
    have e := cC_v18 (after cB (after cA V)) (V (Proc.devRef .tc main_arg1)) (V (Proc.devRef .tc main_arg2)) (V (Proc.devRef .tc main_arg4)) (V (Proc.devRef .tc main_arg5)) (V (Proc.devRef .tc main_arg6)) fB_v9 fB_v2
    rw [((keepB (after cA V) main_arg7 (by decide)).trans (keepA V main_arg7 (by decide))), ((keepB (after cA V) main_arg8 (by decide)).trans (keepA V main_arg8 (by decide)))] at e
    exact e
  have fD_v19 : (after cD (after cC (after cB (after cA V)))) (Proc.devRef .tc main_v19) = val_main_v19 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) := by
    have e := cD_v19 (after cC (after cB (after cA V))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) fC_v14
    exact e
  have fD_v18 : (after cD (after cC (after cB (after cA V)))) (Proc.devRef .tc main_v18) = val_main_v18 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) :=
    (keepD (after cC (after cB (after cA V))) main_v18 (by decide)).trans fC_v18
  have fE_v22 : (after cE (after cD (after cC (after cB (after cA V))))) (Proc.devRef .tc main_v22) = val_main_v22 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    have e := cE_v22 (after cD (after cC (after cB (after cA V)))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) fD_v18
    rw [((((keepD (after cC (after cB (after cA V))) main_arg9 (by decide)).trans (keepC (after cB (after cA V)) main_arg9 (by decide))).trans (keepB (after cA V) main_arg9 (by decide))).trans (keepA V main_arg9 (by decide)))] at e
    exact e
  have fE_v23 : (after cE (after cD (after cC (after cB (after cA V))))) (Proc.devRef .tc main_v23) = val_main_v23 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    have e := cE_v23 (after cD (after cC (after cB (after cA V)))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) fD_v18
    rw [((((keepD (after cC (after cB (after cA V))) main_arg9 (by decide)).trans (keepC (after cB (after cA V)) main_arg9 (by decide))).trans (keepB (after cA V) main_arg9 (by decide))).trans (keepA V main_arg9 (by decide)))] at e
    exact e
  have fE_v19 : (after cE (after cD (after cC (after cB (after cA V))))) (Proc.devRef .tc main_v19) = val_main_v19 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) :=
    (keepE (after cD (after cC (after cB (after cA V)))) main_v19 (by decide)).trans fD_v19
  have fF_v29 : (after cF (after cE (after cD (after cC (after cB (after cA V)))))) (Proc.devRef .tc main_v29) = val_main_v29 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
    have e := cF_v29 (after cE (after cD (after cC (after cB (after cA V))))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) fE_v19 fE_v23
    rw [(((((keepE (after cD (after cC (after cB (after cA V)))) main_arg10 (by decide)).trans (keepD (after cC (after cB (after cA V))) main_arg10 (by decide))).trans (keepC (after cB (after cA V)) main_arg10 (by decide))).trans (keepB (after cA V) main_arg10 (by decide))).trans (keepA V main_arg10 (by decide))), (((((keepE (after cD (after cC (after cB (after cA V)))) main_arg11 (by decide)).trans (keepD (after cC (after cB (after cA V))) main_arg11 (by decide))).trans (keepC (after cB (after cA V)) main_arg11 (by decide))).trans (keepB (after cA V) main_arg11 (by decide))).trans (keepA V main_arg11 (by decide)))] at e
    exact e
  have fF_v22 : (after cF (after cE (after cD (after cC (after cB (after cA V)))))) (Proc.devRef .tc main_v22) = val_main_v22 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    (keepF (after cE (after cD (after cC (after cB (after cA V))))) main_v22 (by decide)).trans fE_v22
  have fG_v34 : (after cG (after cF (after cE (after cD (after cC (after cB (after cA V))))))) (Proc.devRef .tc main_v34) = val_main_v34 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
    have e := cG_v34 (after cF (after cE (after cD (after cC (after cB (after cA V)))))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) fF_v29 fF_v22
    rw [((((((keepF (after cE (after cD (after cC (after cB (after cA V))))) main_arg12 (by decide)).trans (keepE (after cD (after cC (after cB (after cA V)))) main_arg12 (by decide))).trans (keepD (after cC (after cB (after cA V))) main_arg12 (by decide))).trans (keepC (after cB (after cA V)) main_arg12 (by decide))).trans (keepB (after cA V) main_arg12 (by decide))).trans (keepA V main_arg12 (by decide))), ((((((keepF (after cE (after cD (after cC (after cB (after cA V))))) main_arg13 (by decide)).trans (keepE (after cD (after cC (after cB (after cA V)))) main_arg13 (by decide))).trans (keepD (after cC (after cB (after cA V))) main_arg13 (by decide))).trans (keepC (after cB (after cA V)) main_arg13 (by decide))).trans (keepB (after cA V) main_arg13 (by decide))).trans (keepA V main_arg13 (by decide)))] at e
    exact e
  have fG_v39 : (after cG (after cF (after cE (after cD (after cC (after cB (after cA V))))))) (Proc.devRef .tc main_v39) = val_main_v39 (F := F) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
    have e := cG_v39 (after cF (after cE (after cD (after cC (after cB (after cA V)))))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) fF_v29 fF_v22
    rw [((((((keepF (after cE (after cD (after cC (after cB (after cA V))))) main_arg12 (by decide)).trans (keepE (after cD (after cC (after cB (after cA V)))) main_arg12 (by decide))).trans (keepD (after cC (after cB (after cA V))) main_arg12 (by decide))).trans (keepC (after cB (after cA V)) main_arg12 (by decide))).trans (keepB (after cA V) main_arg12 (by decide))).trans (keepA V main_arg12 (by decide))), ((((((keepF (after cE (after cD (after cC (after cB (after cA V))))) main_arg13 (by decide)).trans (keepE (after cD (after cC (after cB (after cA V)))) main_arg13 (by decide))).trans (keepD (after cC (after cB (after cA V))) main_arg13 (by decide))).trans (keepC (after cB (after cA V)) main_arg13 (by decide))).trans (keepB (after cA V) main_arg13 (by decide))).trans (keepA V main_arg13 (by decide)))] at e
    exact e
  have fH_v45 : (after cH (after cG (after cF (after cE (after cD (after cC (after cB (after cA V)))))))) (Proc.devRef .tc main_v45) = val_main_v45 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
    have e := cH_v45 (after cG (after cF (after cE (after cD (after cC (after cB (after cA V))))))) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) fG_v39 fG_v34
    rw [(((((((keepG (after cF (after cE (after cD (after cC (after cB (after cA V)))))) main_arg0 (by decide)).trans (keepF (after cE (after cD (after cC (after cB (after cA V))))) main_arg0 (by decide))).trans (keepE (after cD (after cC (after cB (after cA V)))) main_arg0 (by decide))).trans (keepD (after cC (after cB (after cA V))) main_arg0 (by decide))).trans (keepC (after cB (after cA V)) main_arg0 (by decide))).trans (keepB (after cA V) main_arg0 (by decide))).trans (keepA V main_arg0 (by decide))), (((((((keepG (after cF (after cE (after cD (after cC (after cB (after cA V)))))) main_arg14 (by decide)).trans (keepF (after cE (after cD (after cC (after cB (after cA V))))) main_arg14 (by decide))).trans (keepE (after cD (after cC (after cB (after cA V)))) main_arg14 (by decide))).trans (keepD (after cC (after cB (after cA V))) main_arg14 (by decide))).trans (keepC (after cB (after cA V)) main_arg14 (by decide))).trans (keepB (after cA V) main_arg14 (by decide))).trans (keepA V main_arg14 (by decide))), (((((((keepG (after cF (after cE (after cD (after cC (after cB (after cA V)))))) main_arg15 (by decide)).trans (keepF (after cE (after cD (after cC (after cB (after cA V))))) main_arg15 (by decide))).trans (keepE (after cD (after cC (after cB (after cA V)))) main_arg15 (by decide))).trans (keepD (after cC (after cB (after cA V))) main_arg15 (by decide))).trans (keepC (after cB (after cA V)) main_arg15 (by decide))).trans (keepB (after cA V) main_arg15 (by decide))).trans (keepA V main_arg15 (by decide)))] at e
    exact e
  have fI_v50 : (after cI (after cH (after cG (after cF (after cE (after cD (after cC (after cB (after cA V))))))))) (Proc.devRef .tc main_v50) = val_main_v50 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
    have e := cI_v50 (after cH (after cG (after cF (after cE (after cD (after cC (after cB (after cA V)))))))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) fH_v45
    rw [((((((((keepH (after cG (after cF (after cE (after cD (after cC (after cB (after cA V))))))) main_arg16 (by decide)).trans (keepG (after cF (after cE (after cD (after cC (after cB (after cA V)))))) main_arg16 (by decide))).trans (keepF (after cE (after cD (after cC (after cB (after cA V))))) main_arg16 (by decide))).trans (keepE (after cD (after cC (after cB (after cA V)))) main_arg16 (by decide))).trans (keepD (after cC (after cB (after cA V))) main_arg16 (by decide))).trans (keepC (after cB (after cA V)) main_arg16 (by decide))).trans (keepB (after cA V) main_arg16 (by decide))).trans (keepA V main_arg16 (by decide))), ((((((((keepH (after cG (after cF (after cE (after cD (after cC (after cB (after cA V))))))) main_arg17 (by decide)).trans (keepG (after cF (after cE (after cD (after cC (after cB (after cA V)))))) main_arg17 (by decide))).trans (keepF (after cE (after cD (after cC (after cB (after cA V))))) main_arg17 (by decide))).trans (keepE (after cD (after cC (after cB (after cA V)))) main_arg17 (by decide))).trans (keepD (after cC (after cB (after cA V))) main_arg17 (by decide))).trans (keepC (after cB (after cA V)) main_arg17 (by decide))).trans (keepB (after cA V) main_arg17 (by decide))).trans (keepA V main_arg17 (by decide)))] at e
    exact e
  exact fI_v50

/-! ## The run -/

/-- Every buffer the line writes. -/
abbrev written : List (Ref sig .tc) := [main_v0, main_v1, main_v2, main_call0_v0, main_call0_cst, main_call0_v1, main_v3, main_v4, main_v5, main_v6, main_v7, main_v8, main_call1_v0, main_call1_v1, main_call1_cst, main_call1_v2, main_call1_v3, main_call1_cst_0, main_call1_v4, main_call1_v5, main_v9, main_v10, main_v11, main_v12, main_v13, main_v14, main_v15, main_v16, main_v17, main_v18, main_call2_v0, main_call2_v1, main_call2_cst, main_call2_v2, main_call2_v3, main_call2_cst_0, main_call2_v4, main_call2_v5, main_v19, main_v20, main_v21, main_v22, main_call3_v0, main_call3_cst, main_call3_v1, main_v23, main_v24, main_v25, main_v26, main_v27, main_v28, main_call4_v0, main_call4_v1, main_call4_cst, main_call4_v2, main_call4_v3, main_call4_cst_0, main_call4_v4, main_call4_v5, main_v29, main_v30, main_v31, main_v32, main_v33, main_v34, main_v35, main_v36, main_v37, main_v38, main_v39, main_v40, main_v41, main_v42, main_v43, main_v44, main_call5_v0, main_call5_v1, main_call5_cst, main_call5_v2, main_call5_v3, main_call5_cst_0, main_call5_v4, main_call5_v5, main_v45, main_v46, main_v47, main_v48, main_v49, main_v50]
theorem ops_writes : (ops (F := F)).Forall fun op => op.writes ⊆ (written.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes,
      unaryIndexed_writes, nary_writes, Finset.singleton_subset_iff, List.mem_toFinset]; exact List.mem_map_of_mem (by decide))
/-- An argument is written by no operation, so it ends as it began. -/
theorem arg_kept (V : Valuation τ sig (Elt F)) (r : Ref sig .tc) (h : r ∉ written) :
    after (ops (F := F)) V (Proc.devRef .tc r) = V (Proc.devRef .tc r) := after_of_writes_sub ops V ops_writes h

/-- On every device, from any memory with zero counters: every weakly fair execution of the reference's @main terminates
    with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = val_main_v50 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v50).trans (result (launchContents m c)),
      (h c main_arg0).trans (arg_kept (launchContents m c) main_arg0 (by decide)),
      (h c main_arg1).trans (arg_kept (launchContents m c) main_arg1 (by decide)),
      (h c main_arg2).trans (arg_kept (launchContents m c) main_arg2 (by decide)),
      (h c main_arg3).trans (arg_kept (launchContents m c) main_arg3 (by decide)),
      (h c main_arg4).trans (arg_kept (launchContents m c) main_arg4 (by decide)),
      (h c main_arg5).trans (arg_kept (launchContents m c) main_arg5 (by decide)),
      (h c main_arg6).trans (arg_kept (launchContents m c) main_arg6 (by decide)),
      (h c main_arg7).trans (arg_kept (launchContents m c) main_arg7 (by decide)),
      (h c main_arg8).trans (arg_kept (launchContents m c) main_arg8 (by decide)),
      (h c main_arg9).trans (arg_kept (launchContents m c) main_arg9 (by decide)),
      (h c main_arg10).trans (arg_kept (launchContents m c) main_arg10 (by decide)),
      (h c main_arg11).trans (arg_kept (launchContents m c) main_arg11 (by decide)),
      (h c main_arg12).trans (arg_kept (launchContents m c) main_arg12 (by decide)),
      (h c main_arg13).trans (arg_kept (launchContents m c) main_arg13 (by decide)),
      (h c main_arg14).trans (arg_kept (launchContents m c) main_arg14 (by decide)),
      (h c main_arg15).trans (arg_kept (launchContents m c) main_arg15 (by decide)),
      (h c main_arg16).trans (arg_kept (launchContents m c) main_arg16 (by decide)),
      (h c main_arg17).trans (arg_kept (launchContents m c) main_arg17 (by decide))⟩)
    (run_seq scopedRefs_eq scopedSems_eq defs main (fun _ => ops) main_eq (fun _ => ops_sub) m ρ)

end Cert.RefRun

end
-- ==== Proof.lean ====
/-
  The two programs compute one function, atom by atom.

  Both take 200000 atoms (scalar features, three vector-feature components, a position) through two gated blocks and a
  small head (`Cert.Atom`); every step is local to one atom. The kernel does it in 50 blocks of 4000 atoms, reading the
  vector features as 384 columns and using its own spellings (a three-term sum grouped as `(a + b) + c`, the logistic
  function as one operation, products with weight matrices into a zero accumulator); the reference does it on whole arrays
  (a sum over the component axis from zero, the logistic function expanded, `dot_general`). On the extended reals these are
  the same numbers: only commutativity and associativity of the sum are used, so nothing here needs the inputs to be finite.

  * the kernel's result array: `Cert.KernelArray.run` (the body at a block's row is the one-atom function, the blocks
    tile the rows, the result is that [200000, 3] array laid out flat);
  * the reference's result: its run (`Cert.RefRun.run`: the 89 host operations, stretch by stretch, leave the result at the last
    stage of the arguments), with that stage read as the same array by `Cert.RefAtom`;
  * the frames: the kernel's two from the generated frame proofs, the reference's from its run with the result dropped;
  * the idealization rewrote nothing, so its claim is `True`.
-/
import proofs.«162249_j67070209295171_2_alg».proof.Defs
import proofs.«162249_j67070209295171_2_alg».proof.Proof.Gen.Kernel
import proofs.«162249_j67070209295171_2_alg».proof.Proof.Gen.Kernel.Skeleton
import proofs.«162249_j67070209295171_2_alg».proof.Proof.Gen.Kernel.Launch
import proofs.«162249_j67070209295171_2_alg».proof.Proof.Gen.Kernel.Points
import proofs.«162249_j67070209295171_2_alg».proof.Proof.Gen.Kernel.Frame
import proofs.«162249_j67070209295171_2_alg».proof.Proof.Gen.KernelIdeal
import proofs.«162249_j67070209295171_2_alg».proof.Proof.Gen.KernelIdeal.Skeleton
import proofs.«162249_j67070209295171_2_alg».proof.Proof.Gen.KernelIdeal.Launch
import proofs.«162249_j67070209295171_2_alg».proof.Proof.Gen.KernelIdeal.Points
import proofs.«162249_j67070209295171_2_alg».proof.Proof.Gen.KernelIdeal.Frame
import proofs.«162249_j67070209295171_2_alg».proof.Proof.Gen.ReferenceIdeal
import proofs.«162249_j67070209295171_2_alg».proof.Proof.Gen.Pre_finite_inputs
import proofs.«162249_j67070209295171_2_alg».proof.Proof.KernelArray
import proofs.«162249_j67070209295171_2_alg».proof.Proof.RefAtom
import proofs.«162249_j67070209295171_2_alg».proof.Proof.RefRun
import Idealize.ShloMosaic.Adequacy
import Idealize.ShloMosaic.Init

noncomputable section

namespace Cert.Proof

open Idealize.ShloMosaic Idealize.ShloMosaic.ValueIdx Idealize.SL.Sem

/-- The kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.RefRun.run (F := Ideal) m ρ)

set_option maxHeartbeats 4000000 in
/-- From memories that agree on the arguments both programs end with the flat array of every atom's three outputs. -/
theorem algebraic : Cert.algebraic_KernelIdeal_ReferenceIdeal := by
  intro m ρ m' ρ' _ hagree
  refine ⟨fun c => shapeCast Cert.KernelIdeal.S600000 (Cert.KernelArray.G m c)
      Cert.KernelIdeal.Facts₀.shapeCasts_S200000x3_S600000, Cert.KernelArray.run m ρ, ?_⟩
  refine (θ_run Cert.ReferenceIdeal.defs _ _).mono (fun _ h c => ⟨(h c).1.trans ?_, (h c).2⟩)
    (Cert.RefRun.run (F := Ideal) m' ρ')
  rw [Cert.RefAtom.ref_flat, Cert.RefAtom.ref_out_all]
  obtain ⟨a0, a1, a2, -, a4, a5, a6, a7, a8, a9, a10, a11, a12, a13, a14, a15, a16, a17⟩ := hagree c
  rw [a0, a1, a2, a4, a5, a6, a7, a8, a9, a10, a11, a12, a13, a14, a15, a16, a17]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
